-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S128x784 : Shape := ⟨2, ![128, 784]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S128x784 : S_.BroadcastsInDim S128x784 (![] : Fin 0 → Fin S128x784.rank)
  reducesTo_S128x784_S_d0_1 : S128x784.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S128 .f32) (main_arg5 : FVec F S2x128 .f32) (main_arg6 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S8192x784 .f32) (main_arg1 : FVec F S128x784 .f32) (main_arg2 : FVec F S128 .f32) (main_arg3 : FVec F S128 .f32) (main_arg4 : FVec F S128 .f32) (main_arg5 : FVec F S2x128 .f32) (main_arg6 : FVec F S2 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S128x784 .f32 := Host.absf main_arg1
  let main_cst_0 : FVec F S_ .f32 := constant S_ .f32 0x7F800000#32
  let main_v5 : FVec F S128x784 .f32 := broadcastInDim S128x784 ![] bcast_S_S128x784 main_cst_0
  let main_v6 : IVec S128x784 1 := cmpf .olt main_v4 main_v5
  let main_c_1 : IVec S_ 1 := constantI S_ 1 1#1
  let main_v7 : IVec S_ 1 := (fun x v => Host.reduce IntOp.andi x v reducesTo_S128x784_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S8192x784 : Shape := ⟨2, ![8192, 784]⟩
abbrev S128x784 : Shape := ⟨2, ![128, 784]⟩
abbrev S128 : Shape := ⟨1, ![128]⟩
abbrev S2x128 : Shape := ⟨2, ![2, 128]⟩
abbrev S2 : Shape := ⟨1, ![2]⟩
abbrev S784x128 : Shape := ⟨2, ![784, 128]⟩
abbrev S8192x128 : Shape := ⟨2, ![8192, 128]⟩
abbrev S1x128 : Shape := ⟨2, ![1, 128]⟩
abbrev S_ : Shape := ⟨0, ![]⟩
abbrev S128x2 : Shape := ⟨2, ![128, 2]⟩
abbrev S8192x2 : Shape := ⟨2, ![8192, 2]⟩
abbrev S1x2 : Shape := ⟨2, ![1, 2]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S1024x2 : Shape := ⟨2, ![1024, 2]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S8192x8192 : Shape := ⟨2, ![8192, 8192]⟩

abbrev nBuf : Space → Nat
  | .hbm => 112
  | .vmem => 20
  | .smem => 0
  | _ => 0

abbrev bufTy : (tb : Table) → Fin (tcTables nBuf tb) → BufTy
  | .hbm, ⟨0, _⟩ => ⟨S8192x784, .f32⟩
  | .hbm, ⟨1, _⟩ => ⟨S128x784, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x128, .f32⟩
  | .hbm, ⟨6, _⟩ => ⟨S2, .f32⟩
  | .hbm, ⟨7, _⟩ => ⟨S784x128, .f32⟩
  | .hbm, ⟨8, _⟩ => ⟨S8192x128, .f32⟩
  | .hbm, ⟨9, _⟩ => ⟨S1x128, .f32⟩
  | .hbm, ⟨10, _⟩ => ⟨S8192x128, .f32⟩
  | .hbm, ⟨11, _⟩ => ⟨S8192x128, .f32⟩
  | .hbm, ⟨12, _⟩ => ⟨S_, .f32⟩
  | .hbm, ⟨13, _⟩ => ⟨S_, .f32⟩
  | .hbm, ⟨14, _⟩ => ⟨S8192x128, .f32⟩
  | .hbm, ⟨15, _⟩ => ⟨S8192x128, .i1⟩
  | .hbm, ⟨16, _⟩ => ⟨S_, .f32⟩
  | .hbm, ⟨17, _⟩ => ⟨S8192x128, .f32⟩
  | .hbm, ⟨18, _⟩ => ⟨S8192x128, .i1⟩
  | .hbm, ⟨19, _⟩ => ⟨S_, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S8192x128, .f32⟩
  | .hbm, ⟨68, _⟩ => ⟨S8192x128, .f32⟩
  | .hbm, ⟨69, _⟩ => ⟨S1x128, .f32⟩
  | .hbm, ⟨70, _⟩ => ⟨S8192x128, .f32⟩
  | .hbm, ⟨71, _⟩ => ⟨S8192x128, .f32⟩
  | .hbm, ⟨72, _⟩ => ⟨S1x128, .f32⟩
  | .hbm, ⟨73, _⟩ => ⟨S8192x128, .f32⟩
  | .hbm, ⟨74, _⟩ => ⟨S8192x128, .f32⟩
  | .hbm, ⟨75, _⟩ => ⟨S128x2, .f32⟩
  | .hbm, ⟨76, _⟩ => ⟨S8192x2, .f32⟩
  | .hbm, ⟨77, _⟩ => ⟨S1x2, .f32⟩
  | .hbm, ⟨78, _⟩ => ⟨S8192x2, .f32⟩
  | .hbm, ⟨79, _⟩ => ⟨S8192x2, .f32⟩
  | .hbm, ⟨80, _⟩ => ⟨S_, .f32⟩
  | .hbm, ⟨81, _⟩ => ⟨S_, .f32⟩
  | .hbm, ⟨82, _⟩ => ⟨S8192x2, .f32⟩
  | .hbm, ⟨83, _⟩ => ⟨S8192x2, .i1⟩
  | .hbm, ⟨84, _⟩ => ⟨S_, .f32⟩
  | .hbm, ⟨85, _⟩ => ⟨S8192x2, .f32⟩
  | .hbm, ⟨86, _⟩ => ⟨S8192x2, .i1⟩
  | .hbm, ⟨87, _⟩ => ⟨S_, .f32⟩
  | .hbm, ⟨88, _⟩ => ⟨S_, .f32⟩
  | .hbm, ⟨89, _⟩ => ⟨S8192x2, .f32⟩
  | .hbm, ⟨90, _⟩ => ⟨S8192x2, .f32⟩
  | .hbm, ⟨91, _⟩ => ⟨S8192x2, .f32⟩
  | .hbm, ⟨92, _⟩ => ⟨S_, .f32⟩
  | .hbm, ⟨93, _⟩ => ⟨S8192x2, .f32⟩
  | .hbm, ⟨94, _⟩ => ⟨S8192x2, .f32⟩
  | .hbm, ⟨95, _⟩ => ⟨S8192x2, .f32⟩
  | .hbm, ⟨96, _⟩ => ⟨S_, .f32⟩
  | .hbm, ⟨97, _⟩ => ⟨S8192x2, .f32⟩
  | .hbm, ⟨98, _⟩ => ⟨S8192x2, .f32⟩
  | .hbm, ⟨99, _⟩ => ⟨S8192x2, .f32⟩
  | .hbm, ⟨100, _⟩ => ⟨S_, .f32⟩
  | .hbm, ⟨101, _⟩ => ⟨S8192, .f32⟩
  | .hbm, ⟨102, _⟩ => ⟨S8192x1, .f32⟩
  | .hbm, ⟨103, _⟩ => ⟨S1x8192, .f32⟩
  | .hbm, ⟨104, _⟩ => ⟨S1x1, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S1x1, .f32⟩
  | .hbm, ⟨111, _⟩ => ⟨S8192x8192, .f32⟩
  | .local _ .vmem, ⟨0, _⟩ => ⟨S1024x2, .f32⟩
  | .local _ .vmem, ⟨1, _⟩ => ⟨S1024x2, .f32⟩
  | .local _ .vmem, ⟨2, _⟩ => ⟨S1024x2, .f32⟩
  | .local _ .vmem, ⟨3, _⟩ => ⟨S1024x2, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1024x2, .f32⟩
  | .local _ .vmem, ⟨10, _⟩ => ⟨S1024x2, .f32⟩
  | .local _ .vmem, ⟨11, _⟩ => ⟨S1024x2, .f32⟩
  | .local _ .vmem, ⟨12, _⟩ => ⟨S1024x2, .f32⟩
  | .local _ .vmem, ⟨13, _⟩ => ⟨S1024x1, .f32⟩
  | .local _ .vmem, ⟨14, _⟩ => ⟨S1024x1, .f32⟩
  | .local _ .vmem, ⟨15, _⟩ => ⟨S1x1024, .f32⟩
  | .local _ .vmem, ⟨16, _⟩ => ⟨S1x1024, .f32⟩
  | .local _ .vmem, ⟨17, _⟩ => ⟨S1x1, .f32⟩
  | .local _ .vmem, ⟨18, _⟩ => ⟨S1024x1024, .f32⟩
  | .local _ .vmem, ⟨19, _⟩ => ⟨S1024x1024, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_cst_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_cst_1 : Ref sig .tc := ⟨.hbm, 19, rfl⟩
abbrev main_call0_call0_call0_v0 : Ref sig .tc := ⟨.hbm, 20, rfl⟩
abbrev main_call0_call0_call0_v1 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_1 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_call2_cst : Ref sig .tc := ⟨.hbm, 80, rfl⟩
abbrev main_call2_call0_cst : Ref sig .tc := ⟨.hbm, 81, rfl⟩
abbrev main_call2_call0_v0 : Ref sig .tc := ⟨.hbm, 82, rfl⟩
abbrev main_call2_call0_v1 : Ref sig .tc := ⟨.hbm, 83, rfl⟩
abbrev main_call2_call0_cst_0 : Ref sig .tc := ⟨.hbm, 84, rfl⟩
abbrev main_call2_call0_v2 : Ref sig .tc := ⟨.hbm, 85, rfl⟩
abbrev main_call2_call0_v3 : Ref sig .tc := ⟨.hbm, 86, rfl⟩
abbrev main_call2_call0_cst_1 : Ref sig .tc := ⟨.hbm, 87, rfl⟩
abbrev main_call2_call0_call0_v0 : Ref sig .tc := ⟨.hbm, 88, rfl⟩
abbrev main_call2_call0_call0_v1 : Ref sig .tc := ⟨.hbm, 89, rfl⟩
abbrev main_call2_call0_v4 : Ref sig .tc := ⟨.hbm, 90, rfl⟩
abbrev main_call2_call0_v5 : Ref sig .tc := ⟨.hbm, 91, rfl⟩
abbrev main_call2_call0_v6 : Ref sig .tc := ⟨.hbm, 92, rfl⟩
abbrev main_call2_call0_v7 : Ref sig .tc := ⟨.hbm, 93, rfl⟩
abbrev main_call2_call0_v8 : Ref sig .tc := ⟨.hbm, 94, rfl⟩
abbrev main_call2_v0 : Ref sig .tc := ⟨.hbm, 95, rfl⟩
abbrev main_call2_cst_0 : Ref sig .tc := ⟨.hbm, 96, rfl⟩
abbrev main_call2_v1 : Ref sig .tc := ⟨.hbm, 97, rfl⟩
abbrev main_v30 : Ref sig .tc := ⟨.hbm, 98, rfl⟩
abbrev main_v31 : Ref sig .tc := ⟨.hbm, 99, rfl⟩
abbrev main_cst_2 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_cst_3 : Ref sig .tc := ⟨.hbm, 106, rfl⟩
abbrev main_v37 : Ref sig .tc := ⟨.hbm, 107, rfl⟩
abbrev main_cst_4 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S128x784_S784x128_1_0 : S128x784.Transposes [1, 0] S784x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S128_d0 : S8192x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S2x128_S128x2_1_0 : S2x128.Transposes [1, 0] S128x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  bcast_S_S8192x2 : S_.BroadcastsInDim S8192x2 (![] : Fin 0 → Fin S8192x2.rank)
  reducesTo_S8192x2_S8192_d1 : S8192x2.ReducesTo [1] S8192
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  shapeCasts_S_S1x1 : S_.ShapeCasts S1x1
  inpos_S1x1_p0_0 : ∀ a, (![0, 0] : Fin 2 → Nat) a < S1x1.size a
  inb_S1024x1024_S1024x1024_0_0 : ∀ a, (![0, 0] : Fin 2 → Nat) a + S1024x1024.size a ≤ S1024x1024.size a
  h_S1024x1024 : 0 < S1024x1024.numel
  dot_S8192x784_S784x128_S8192x128_1_0_0_1_n_n_wf : DotDims.WF S8192x784 S784x128 S8192x128 [1] [0] [0] [1] [] []
  dot_S8192x128_S128x2_S8192x2_1_0_0_1_n_n_wf : DotDims.WF S8192x128 S128x2 S8192x2 [1] [0] [0] [1] [] []
  dot_S1024x2_S1024x2_S1024x1024_1_1_0_0_n_n_wf : DotDims.WF S1024x2 S1024x2 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S8192x2.size a
  hwx0_0 : ∀ i : grid0.Coords, EltTy.bits .f32 = 32 ∨ (Rect.block (s := S8192x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S8192x2.size a
  hwx0_1 : ∀ i : grid0.Coords, EltTy.bits .f32 = 32 ∨ (Rect.block (s := S8192x2) S1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2.size a ≤ S8192x2.size a
  hwx1_0 : ∀ i : grid1.Coords, EltTy.bits .f32 = 32 ∨ (Rect.block (s := S8192x2) S1024x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2.size a ≤ S8192x2.size a
  hwx1_1 : ∀ i : grid1.Coords, EltTy.bits .f32 = 32 ∨ (Rect.block (s := S8192x2) S1024x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x8192.size a
  hwx1_5 : ∀ i : grid1.Coords, EltTy.bits .f32 = 32 ∨ (Rect.block (s := S8192x8192) S1024x1024.size (cc1_transform_5 i) (hinb1_5 i)).WholeWords (EltTy.packing .f32)

variable [Facts₀]

def dot_S8192x784_S784x128_S8192x128_1_0_0_1_n_n : DotDims S8192x784 S784x128 S8192x128 where
  lhsContracting := [1]
  rhsContracting := [0]
  lhsNonContracting := [0]
  rhsNonContracting := [1]
  lhsBatch := []
  rhsBatch := []
  wf := dot_S8192x784_S784x128_S8192x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf
def dot_S1024x2_S1024x2_S1024x1024_1_1_0_0_n_n : DotDims S1024x2 S1024x2 S1024x1024 where
  lhsContracting := [1]
  rhsContracting := [1]
  lhsNonContracting := [0]
  rhsNonContracting := [0]
  lhsBatch := []
  rhsBatch := []
  wf := dot_S1024x2_S1024x2_S1024x1024_1_1_0_0_n_n_wf

abbrev win0_0 : Pipeline.Window sig grid0 :=
  Pipeline.Window.ofSpec (Memref.whole main_v30) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S1024x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1024x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x784 : Shape := ⟨2, ![8192, 784]⟩
abbrev S128x784 : Shape := ⟨2, ![128, 784]⟩
abbrev S128 : Shape := ⟨1, ![128]⟩
abbrev S2x128 : Shape := ⟨2, ![2, 128]⟩
abbrev S2 : Shape := ⟨1, ![2]⟩
abbrev S784x128 : Shape := ⟨2, ![784, 128]⟩
abbrev S8192x128 : Shape := ⟨2, ![8192, 128]⟩
abbrev S1x128 : Shape := ⟨2, ![1, 128]⟩
abbrev S_ : Shape := ⟨0, ![]⟩
abbrev S128x2 : Shape := ⟨2, ![128, 2]⟩
abbrev S8192x2 : Shape := ⟨2, ![8192, 2]⟩
abbrev S1x2 : Shape := ⟨2, ![1, 2]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192 : Shape := ⟨2, ![2, 8192]⟩

abbrev nBuf : Space → Nat
  | .hbm => 131
  | .vmem => 0
  | .smem => 0
  | _ => 0

abbrev hbmTy0_0 (i : Nat) : BufTy := match i % 128 with
  | 0 => ⟨S8192x784, .f32⟩
  | 1 => ⟨S128x784, .f32⟩
  | 2 => ⟨S128, .f32⟩
  | 3 => ⟨S128, .f32⟩
  | 4 => ⟨S128, .f32⟩
  | 5 => ⟨S2x128, .f32⟩
  | 6 => ⟨S2, .f32⟩
  | 7 => ⟨S784x128, .f32⟩
  | 8 => ⟨S8192x128, .f32⟩
  | 9 => ⟨S1x128, .f32⟩
  | 10 => ⟨S8192x128, .f32⟩
  | 11 => ⟨S8192x128, .f32⟩
  | 12 => ⟨S_, .f32⟩
  | 13 => ⟨S_, .f32⟩
  | 14 => ⟨S8192x128, .f32⟩
  | 15 => ⟨S8192x128, .i1⟩
  | 16 => ⟨S_, .f32⟩
  | 17 => ⟨S8192x128, .f32⟩
  | 18 => ⟨S8192x128, .i1⟩
  | 19 => ⟨S_, .f32⟩
  | 20 => ⟨S_, .f32⟩
  | 21 => ⟨S8192x128, .f32⟩
  | 22 => ⟨S8192x128, .f32⟩
  | 23 => ⟨S8192x128, .f32⟩
  | 24 => ⟨S_, .f32⟩
  | 25 => ⟨S8192x128, .f32⟩
  | 26 => ⟨S8192x128, .f32⟩
  | 27 => ⟨S8192x128, .f32⟩
  | 28 => ⟨S_, .f32⟩
  | 29 => ⟨S8192x128, .f32⟩
  | 30 => ⟨S8192x128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S8192x128, .f32⟩
  | 44 => ⟨S8192x128, .f32⟩
  | 45 => ⟨S8192x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S8192x128, .f32⟩
  | 61 => ⟨S8192x128, .f32⟩
  | 62 => ⟨S_, .f32⟩
  | 63 => ⟨S128, .f32⟩
  | 64 => ⟨S128, .f32⟩
  | 65 => ⟨S128, .f32⟩
  | 66 => ⟨S1x128, .f32⟩
  | 67 => ⟨S8192x128, .f32⟩
  | 68 => ⟨S8192x128, .f32⟩
  | 69 => ⟨S1x128, .f32⟩
  | 70 => ⟨S8192x128, .f32⟩
  | 71 => ⟨S8192x128, .f32⟩
  | 72 => ⟨S1x128, .f32⟩
  | 73 => ⟨S8192x128, .f32⟩
  | 74 => ⟨S8192x128, .f32⟩
  | 75 => ⟨S128x2, .f32⟩
  | 76 => ⟨S8192x2, .f32⟩
  | 77 => ⟨S1x2, .f32⟩
  | 78 => ⟨S8192x2, .f32⟩
  | 79 => ⟨S8192x2, .f32⟩
  | 80 => ⟨S_, .f32⟩
  | 81 => ⟨S_, .f32⟩
  | 82 => ⟨S8192x2, .f32⟩
  | 83 => ⟨S8192x2, .i1⟩
  | 84 => ⟨S_, .f32⟩
  | 85 => ⟨S8192x2, .f32⟩
  | 86 => ⟨S8192x2, .i1⟩
  | 87 => ⟨S_, .f32⟩
  | 88 => ⟨S_, .f32⟩
  | 89 => ⟨S8192x2, .f32⟩
  | 90 => ⟨S8192x2, .f32⟩
  | 91 => ⟨S8192x2, .f32⟩
  | 92 => ⟨S_, .f32⟩
  | 93 => ⟨S8192x2, .f32⟩
  | 94 => ⟨S8192x2, .f32⟩
  | 95 => ⟨S8192x2, .f32⟩
  | 96 => ⟨S_, .f32⟩
  | 97 => ⟨S8192x2, .f32⟩
  | 98 => ⟨S8192x2, .f32⟩
  | 99 => ⟨S8192x2, .f32⟩
  | 100 => ⟨S_, .f32⟩
  | 101 => ⟨S8192, .f32⟩
  | 102 => ⟨S8192x1, .f32⟩
  | 103 => ⟨S1x8192, .f32⟩
  | 104 => ⟨S8192x8192, .f32⟩
  | 105 => ⟨S8192x8192, .f32⟩
  | 106 => ⟨S8192x8192, .f32⟩
  | 107 => ⟨S2x8192, .f32⟩
  | 108 => ⟨S8192x8192, .f32⟩
  | 109 => ⟨S_, .f32⟩
  | 110 => ⟨S8192x8192, .f32⟩
  | 111 => ⟨S8192x8192, .f32⟩
  | 112 => ⟨S8192x8192, .f32⟩
  | 113 => ⟨S_, .f32⟩
  | 114 => ⟨S8192x8192, .f32⟩
  | 115 => ⟨S8192x8192, .f32⟩
  | 116 => ⟨S_, .f32⟩
  | 117 => ⟨S8192x8192, .f32⟩
  | 118 => ⟨S8192x8192, .f32⟩
  | 119 => ⟨S_, .f32⟩
  | 120 => ⟨S8192x8192, .f32⟩
  | 121 => ⟨S8192x8192, .f32⟩
  | 122 => ⟨S_, .f32⟩
  | 123 => ⟨S8192, .f32⟩
  | 124 => ⟨S_, .f32⟩
  | 125 => ⟨S8192, .f32⟩
  | 126 => ⟨S8192, .f32⟩
  | 127 => ⟨S_, .f32⟩
  | _ => ⟨S8192x784, .f32⟩

abbrev hbmTy0_1 (i : Nat) : BufTy := match i % 128 with
  | 0 => ⟨S_, .f32⟩
  | 1 => ⟨S8192x8192, .f32⟩
  | 2 => ⟨S8192x8192, .f32⟩
  | _ => ⟨S8192x784, .f32⟩

abbrev hbmTy (i : Nat) : BufTy := match i / 128 with
  | 0 => hbmTy0_0 i
  | 1 => hbmTy0_1 i
  | _ => ⟨S8192x784, .f32⟩

abbrev bufTy : (tb : Table) → Fin (tcTables nBuf tb) → BufTy
  | .hbm, ⟨i, _⟩ => hbmTy i
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_cst_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_cst_1 : Ref sig .tc := ⟨.hbm, 19, rfl⟩
abbrev main_call0_call0_call0_v0 : Ref sig .tc := ⟨.hbm, 20, rfl⟩
abbrev main_call0_call0_call0_v1 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_cst_1 : Ref sig .tc := ⟨.hbm, 47, rfl⟩
abbrev main_call1_v8 : Ref sig .tc := ⟨.hbm, 48, rfl⟩
abbrev main_call1_cst_2 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_cst_3 : Ref sig .tc := ⟨.hbm, 53, rfl⟩
abbrev main_call1_v12 : Ref sig .tc := ⟨.hbm, 54, rfl⟩
abbrev main_call1_cst_4 : Ref sig .tc := ⟨.hbm, 55, rfl⟩
abbrev main_call1_call0_v0 : Ref sig .tc := ⟨.hbm, 56, rfl⟩
abbrev main_call1_call0_v1 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_1 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_call2_cst : Ref sig .tc := ⟨.hbm, 80, rfl⟩
abbrev main_call2_call0_cst : Ref sig .tc := ⟨.hbm, 81, rfl⟩
abbrev main_call2_call0_v0 : Ref sig .tc := ⟨.hbm, 82, rfl⟩
abbrev main_call2_call0_v1 : Ref sig .tc := ⟨.hbm, 83, rfl⟩
abbrev main_call2_call0_cst_0 : Ref sig .tc := ⟨.hbm, 84, rfl⟩
abbrev main_call2_call0_v2 : Ref sig .tc := ⟨.hbm, 85, rfl⟩
abbrev main_call2_call0_v3 : Ref sig .tc := ⟨.hbm, 86, rfl⟩
abbrev main_call2_call0_cst_1 : Ref sig .tc := ⟨.hbm, 87, rfl⟩
abbrev main_call2_call0_call0_v0 : Ref sig .tc := ⟨.hbm, 88, rfl⟩
abbrev main_call2_call0_call0_v1 : Ref sig .tc := ⟨.hbm, 89, rfl⟩
abbrev main_call2_call0_v4 : Ref sig .tc := ⟨.hbm, 90, rfl⟩
abbrev main_call2_call0_v5 : Ref sig .tc := ⟨.hbm, 91, rfl⟩
abbrev main_call2_call0_v6 : Ref sig .tc := ⟨.hbm, 92, rfl⟩
abbrev main_call2_call0_v7 : Ref sig .tc := ⟨.hbm, 93, rfl⟩
abbrev main_call2_call0_v8 : Ref sig .tc := ⟨.hbm, 94, rfl⟩
abbrev main_call2_v0 : Ref sig .tc := ⟨.hbm, 95, rfl⟩
abbrev main_call2_cst_0 : Ref sig .tc := ⟨.hbm, 96, rfl⟩
abbrev main_call2_v1 : Ref sig .tc := ⟨.hbm, 97, rfl⟩
abbrev main_v30 : Ref sig .tc := ⟨.hbm, 98, rfl⟩
abbrev main_v31 : Ref sig .tc := ⟨.hbm, 99, rfl⟩
abbrev main_cst_2 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_cst_3 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_cst_4 : Ref sig .tc := ⟨.hbm, 113, rfl⟩
abbrev main_v43 : Ref sig .tc := ⟨.hbm, 114, rfl⟩
abbrev main_v44 : Ref sig .tc := ⟨.hbm, 115, rfl⟩
abbrev main_cst_5 : Ref sig .tc := ⟨.hbm, 116, rfl⟩
abbrev main_v45 : Ref sig .tc := ⟨.hbm, 117, rfl⟩
abbrev main_v46 : Ref sig .tc := ⟨.hbm, 118, rfl⟩
abbrev main_cst_6 : Ref sig .tc := ⟨.hbm, 119, rfl⟩
abbrev main_v47 : Ref sig .tc := ⟨.hbm, 120, rfl⟩
abbrev main_v48 : Ref sig .tc := ⟨.hbm, 121, rfl⟩
abbrev main_cst_7 : Ref sig .tc := ⟨.hbm, 122, rfl⟩
abbrev main_v49 : Ref sig .tc := ⟨.hbm, 123, rfl⟩
abbrev main_cst_8 : Ref sig .tc := ⟨.hbm, 124, rfl⟩
abbrev main_v50 : Ref sig .tc := ⟨.hbm, 125, rfl⟩
abbrev main_v51 : Ref sig .tc := ⟨.hbm, 126, rfl⟩
abbrev main_cst_9 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩

abbrev nD : Nat := 1
abbrev τ : Topo := Topo.v7x

variable {F : FTy → Type} [FloatOps F]

class Facts₀ : Prop where
  transposes_S128x784_S784x128_1_0 : S128x784.Transposes [1, 0] S784x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  reducesTo_S8192x128_S128_d0 : S8192x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S2x128_S128x2_1_0 : S2x128.Transposes [1, 0] S128x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  bcast_S_S8192x2 : S_.BroadcastsInDim S8192x2 (![] : Fin 0 → Fin S8192x2.rank)
  reducesTo_S8192x2_S8192_d1 : S8192x2.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x2_S2x8192_1_0 : S8192x2.Transposes [1, 0] S2x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x784_S784x128_S8192x128_1_0_0_1_n_n_wf : DotDims.WF S8192x784 S784x128 S8192x128 [1] [0] [0] [1] [] []
  dot_S8192x128_S128x2_S8192x2_1_0_0_1_n_n_wf : DotDims.WF S8192x128 S128x2 S8192x2 [1] [0] [0] [1] [] []
  dot_S8192x2_S2x8192_S8192x8192_1_0_0_1_n_n_wf : DotDims.WF S8192x2 S2x8192 S8192x8192 [1] [0] [0] [1] [] []

variable [Facts₀]

def dot_S8192x784_S784x128_S8192x128_1_0_0_1_n_n : DotDims S8192x784 S784x128 S8192x128 where
  lhsContracting := [1]
  rhsContracting := [0]
  lhsNonContracting := [0]
  rhsNonContracting := [1]
  lhsBatch := []
  rhsBatch := []
  wf := dot_S8192x784_S784x128_S8192x128_1_0_0_1_n_n_wf
def dot_S8192x128_S128x2_S8192x2_1_0_0_1_n_n : DotDims S8192x128 S128x2 S8192x2 where
  lhsContracting := [1]
  rhsContracting := [0]
  lhsNonContracting := [0]
  rhsNonContracting := [1]
  lhsBatch := []
  rhsBatch := []
  wf := dot_S8192x128_S128x2_S8192x2_1_0_0_1_n_n_wf
def dot_S8192x2_S2x8192_S8192x8192_1_0_0_1_n_n : DotDims S8192x2 S2x8192 S8192x8192 where
  lhsContracting := [1]
  rhsContracting := [0]
  lhsNonContracting := [0]
  rhsNonContracting := [1]
  lhsBatch := []
  rhsBatch := []
  wf := dot_S8192x2_S2x8192_S8192x8192_1_0_0_1_n_n_wf

class Facts : Prop extends Facts₀ where

variable [Facts]
-- ==== Proof.KBody0.lean ====
/-
  The first pass's body on any whole staging memrefs, in its two cases.

  The body adds to a 1 × 1 accumulator the sum of one 1024 × 1024 tile of affinities (the tile's row
  points against its column points). At the FIRST grid point (both coordinates zero) it first stores
  zero in the accumulator; at every other point it adds to what the point before left there.
  Which case a point is in is a condition on its coordinates, decided over the 64 points of the grid.
  What the accumulator's buffer holds afterwards is recorded as the list of pieces the run finds.
-/
import proofs.«123053_j26680336843043_1_alg».proof.Proof.Gen.Kernel.Launch
import proofs.«123053_j26680336843043_1_alg».proof.Proof.Gen.Kernel.Skeleton
import proofs.«123053_j26680336843043_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinates: both are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point of the grid only. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- FIRST POINT: the pieces the body's two stores leave in the accumulator's staging memref (the zero, then the
    tile's sum added to it), with the run: the four input memrefs held whole at `x0 … x3`, the accumulator's at
    anything. -/
noncomputable def accRunFirst (c : Dev nD) (i : grid0.Coords)
    (a2 : Memref sig .tc .vmem S1024x2 .f32) (h2 : a2.IsWhole) (a3 : Memref sig .tc .vmem S1024x2 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (hc : isFirst i)
    (x0 x1 : Vec F S1024x2 .f32) (x2 : Vec F S1024x1 .f32) (x3 : Vec F S1x1024 .f32) :
    { L : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc0__pass1_kernel i a2 h2 a3 h3 a4 h4 a5 h5 a6 h6) K } := by
  refine ⟨?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h2.eq_unread hf0
    obtain rfl := h3.eq_unread hf1
    obtain rfl := h4.eq_unread hf2
    obtain rfl := h5.eq_unread hf3
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

set_option maxHeartbeats 1000000 in
/-- EVERY OTHER POINT: the pieces the body's one store leaves in the accumulator's staging memref (the tile's sum
    added to what it held, `xo`), with the run. -/
noncomputable def accRunNext (c : Dev nD) (i : grid0.Coords)
    (a2 : Memref sig .tc .vmem S1024x2 .f32) (h2 : a2.IsWhole) (a3 : Memref sig .tc .vmem S1024x2 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (hc : ¬isFirst i)
    (x0 x1 : Vec F S1024x2 .f32) (x2 : Vec F S1024x1 .f32) (x3 : Vec F S1x1024 .f32) (xo : Vec F S1x1 .f32) :
    { L : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc0__pass1_kernel i a2 h2 a3 h3 a4 h4 a5 h5 a6 h6) K } := by
  refine ⟨?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h2.eq_unread hf0
    obtain rfl := h3.eq_unread hf1
    obtain rfl := h4.eq_unread hf2
    obtain rfl := h5.eq_unread hf3
    obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

end Cert.Kernel.Hand

end
-- ==== Proof.KDat0.lean ====
/-
  The first pass as a pipeline: its proof data at the buffer contents `V` the region is entered from.

  Five windows: the points read by rows (window 0) and by columns (window 1) — one array handed to two
  windows, each holding half of its share —, the column and the row of squared norms (2, 3), and the
  1 × 1 accumulator (4), whose block index never moves: it is written back once, after the last point,
  and between points its staging buffer keeps what the body left. So what the accumulator holds after
  point n is defined by recursion on n: the first point's run from nothing, every later point's run from
  what the point before left.
-/
import proofs.«123053_j26680336843043_1_alg».proof.Proof.KBody0
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point's block index has not moved since the last fetch, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    point's block index has not moved since the last fetch, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    point's block index has not moved since the last fetch, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    point's block index has not moved since the last fetch, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The accumulator's one staging buffer, through which its contents are stated. -/
abbrev VO0 : View sig .tc .vmem S1x1 .f32 := (Memref.whole cc0_stg4_0 : Memref sig .tc .vmem S1x1 .f32).view

/-- The first point's run, on the memrefs the pipeline passes and the input blocks there. -/
abbrev firstRunAt (c : Dev nD) (t : Fin cfg0.N) (ht : t.val = 0) :=
  accRunFirst (F := F) c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) ((isFirst_iff t).mpr ht)
    (iblk0 V c 0 t) (iblk0 V c 1 t) (iblk0 V c 2 t) (iblk0 V c 3 t)

/-- A later point's run, from what the accumulator held. -/
abbrev nextRunAt (c : Dev nD) (t : Fin cfg0.N) (ht : t.val ≠ 0) (xo : Vec F S1x1 .f32) :=
  accRunNext (F := F) c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (fun h => ht ((isFirst_iff t).mp h))
    (iblk0 V c 0 t) (iblk0 V c 1 t) (iblk0 V c 2 t) (iblk0 V c 3 t) xo

theorem firstCover (c : Dev nD) (t : Fin cfg0.N) (ht : t.val = 0) (y : S1x1.Idx) : ∃ pc ∈ (firstRunAt V c t ht).1, y ∈ pc.1.set :=
  View.cover_of_tiledL (firstRunAt V c t ht).1 S1x1.size (by sl_kernel_rfl) y

theorem nextCover (c : Dev nD) (t : Fin cfg0.N) (ht : t.val ≠ 0) (xo : Vec F S1x1 .f32) (y : S1x1.Idx) : ∃ pc ∈ (nextRunAt V c t ht xo).1, y ∈ pc.1.set :=
  View.cover_of_tiledL (nextRunAt V c t ht xo).1 S1x1.size (by sl_kernel_rfl) y

/-- What the first point leaves in the accumulator. -/
def outFirst (c : Dev nD) (t : Fin cfg0.N) (ht : t.val = 0) : Vec F S1x1 .f32 :=
  VO0.read (Elt F) (VO0.writes (Elt F) VO0.junk (firstRunAt V c t ht).1)

/-- What a later point leaves in the accumulator, from what it held. -/
def outNext (c : Dev nD) (t : Fin cfg0.N) (ht : t.val ≠ 0) (xo : Vec F S1x1 .f32) : Vec F S1x1 .f32 :=
  VO0.read (Elt F) (VO0.writes (Elt F) VO0.junk (nextRunAt V c t ht xo).1)

/-- THE ACCUMULATION: what the accumulator's staging buffer holds after the body at position `n`. -/
def accAt (c : Dev nD) : (n : ℕ) → n < cfg0.N → Vec F S1x1 .f32
  | 0, hn => outFirst V c ⟨0, hn⟩ rfl
  | n + 1, hn => outNext V c ⟨n + 1, hn⟩ (Nat.succ_ne_zero n) (accAt c n (Nat.lt_of_succ_lt hn))

theorem accAt_first (c : Dev nD) (t : Fin cfg0.N) (h : t.val = 0) : accAt V c t.val t.isLt = outFirst V c t h := by
  obtain ⟨n, hn⟩ := t
  cases n with
  | zero => exact rfl
  | succ n => exact absurd h (Nat.succ_ne_zero n)

theorem accAt_next (c : Dev nD) (t : Fin cfg0.N) (h : t.val ≠ 0) :
    accAt V c t.val t.isLt = outNext V c t h (accAt V c (t.val - 1) (Nat.lt_of_le_of_lt (Nat.sub_le _ _) t.isLt)) := by
  obtain ⟨n, hn⟩ := t
  cases n with
  | zero => exact absurd rfl h
  | succ n => exact rfl

/-- The proof data of the first pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => accAt V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- After the first point the accumulator's staging buffer holds what the body left at the point before: the buffer
    is not written back between (only after the last point), the window is live and uncut. -/
theorem before0_4_next (c : Dev nD) (t : Fin cfg0.N) (h0 : t.val ≠ 0) (d) :
    (dat0 V c).before 4 t d = accAt V c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point: the inputs' memrefs hold their blocks; the point is the first or not; after the first the
    accumulator's memref holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [accAt_first V c t h0]
    unfold outFirst
    iintro ⟨HΦ, Ho, ⟨%d0, H0⟩, ⟨%d1, H1⟩, ⟨%d2, H2⟩, ⟨%d3, H3⟩, ⟨%d4, H4⟩⟩
    iapply ((firstRunAt V c t h0).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (firstCover V c t h0)
  · rw [accAt_next V c t h0]
    simp only [before0_4_next V c t h0]
    unfold outNext
    iintro ⟨HΦ, Ho, ⟨%d0, H0⟩, ⟨%d1, H1⟩, ⟨%d2, H2⟩, ⟨%d3, H3⟩, ⟨%d4, H4⟩⟩
    iapply ((nextRunAt V c t h0 _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (nextCover V c t h0 _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second pass's body on any whole staging memrefs.

  The body loads the two point blocks (1024 × 2 each), the column and the row of squared norms
  (1024 × 1 and 1 × 1024) and the 1 × 1 reciprocal of the normaliser, and stores ONE 1024 × 1024
  tile: the affinities of the tile's row points against its column points, each times the
  reciprocal. Nothing else is written; every input buffer is handed back as it was found.
  The stored tile is recorded as the list of pieces the run finds (one covering piece).
-/
import proofs.«123053_j26680336843043_1_alg».proof.Proof.Gen.Kernel.Launch
import proofs.«123053_j26680336843043_1_alg».proof.Proof.Gen.Kernel.Skeleton
import proofs.«123053_j26680336843043_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the second pass's one store leaves in the output tile's staging memref, WITH the proof that
    from the five input memrefs held whole at `x0 … x4` and the output's at anything the body runs to its
    return, the inputs as they were and the output's buffer with the pieces written. -/
noncomputable def tileRun (c : Dev nD) (i : grid1.Coords)
    (a2 : Memref sig .tc .vmem S1024x2 .f32) (h2 : a2.IsWhole) (a3 : Memref sig .tc .vmem S1024x2 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1024x1024 .f32) (h7 : a7.IsWhole)
    (x0 x1 : Vec F S1024x2 .f32) (x2 : Vec F S1024x1 .f32) (x3 : Vec F S1x1024 .f32) (x4 : Vec F S1x1 .f32) :
    { L : List (View.Piece (Elt F) S1024x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L)) -∗ K ⟨⟩))
          ⊢ wp frame (wpE (defs₀ (F := F)) Variants.none c none) E (cc1__pass2_kernel i a2 h2 a3 h3 a4 h4 a5 h5 a6 h6 a7 h7) K } := by
  refine ⟨?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h2.eq_unread hf0
    obtain rfl := h3.eq_unread hf1
    obtain rfl := h4.eq_unread hf2
    obtain rfl := h5.eq_unread hf3
    obtain rfl := h6.eq_unread hf4
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.Kernel.Hand

end
-- ==== Proof.KDat1.lean ====
/-
  The second pass as a pipeline: its proof data at the buffer contents `V` the region is entered from.

  Six windows: the points read by rows (window 0) and by columns (window 1) — ONE array handed to two
  windows, so each holds half of the array's share —, the column and the row of squared norms (2, 3),
  the 1 × 1 reciprocal (4), and the 8192 × 8192 result written tile by tile (5). After the body at a
  point each input's staging buffer still holds its block, and the result's holds the tile the body's
  store leaves. The invariant is the scoped rest and the generator register; the core owes nothing.
-/
import proofs.«123053_j26680336843043_1_alg».proof.Proof.KBody1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    point's block index has not moved since the last fetch, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    point's block index has not moved since the last fetch, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched
    point's block index has not moved since the last fetch, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched
    point's block index has not moved since the last fetch, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: an unfetched
    point's block index has not moved since the last fetch, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the result window, through which its contents are stated. -/
abbrev VO1 : View sig .tc .vmem S1024x1024 .f32 := (Memref.whole cc1_stg5_0 : Memref sig .tc .vmem S1024x1024 .f32).view

/-- The body's run at point `t`, on the memrefs the pipeline passes and the input blocks there. -/
abbrev tileRunAt (c : Dev nD) (t : Fin cfg1.N) :=
  tileRun (F := F) c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (win1_4.stage (cfg1.slots t 4)) (hstage1_4 ((cfg1.slots t 4).cast nbuf1_4)) (win1_5.stage (cfg1.slots t 5)) (hstage1_5 ((cfg1.slots t 5).cast nbuf1_5))
    (iblk1 V c 0 t) (iblk1 V c 1 t) (iblk1 V c 2 t) (iblk1 V c 3 t) (iblk1 V c 4 t)

/-- The run's pieces tile the result's block (one store of the whole block), so they cover it. -/
theorem tileCover (c : Dev nD) (t : Fin cfg1.N) (y : S1024x1024.Idx) : ∃ pc ∈ (tileRunAt V c t).1, y ∈ pc.1.set :=
  View.cover_of_tiledL (tileRunAt V c t).1 S1024x1024.size (by sl_kernel_rfl) y

/-- What the body leaves in the result's staging buffer at point `t`: its pieces read back. -/
def tileAt (c : Dev nD) (t : Fin cfg1.N) : Vec F S1024x1024 .f32 :=
  VO1.read (Elt F) (VO1.writes (Elt F) VO1.junk (tileRunAt V c t).1)

/-- The proof data of the second pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => tileAt V c t
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = tileAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point: the inputs' memrefs hold their blocks, so the run applies; the invariant and the
    core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold tileAt
  iintro ⟨HΦ, Ho, ⟨%d0, H0⟩, ⟨%d1, H1⟩, ⟨%d2, H2⟩, ⟨%d3, H3⟩, ⟨%d4, H4⟩, ⟨%d5, H5⟩⟩
  iapply ((tileRunAt V c t).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (tileCover V c t)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KArrays.lean ====
/-
  The two passes' windows over the core's unscoped buffers, when two windows read ONE array.

  Both passes hand the array of points to two windows (rows and columns). The buffer's full share is
  split in two halves at the region's entry, one per window, and joined again at its exit; every other
  window's array is a buffer of its own held at the full share.
-/
import proofs.«123053_j26680336843043_1_alg».proof.Proof.KDat0
import proofs.«123053_j26680336843043_1_alg».proof.Proof.KDat1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole buffer held at the full share is its two halves. -/
theorem pt_halves (ℓ : Loc nD τ sig) (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-! ## The first pass -/

/-- The distinct buffers behind the first pass's five windows. -/
theorem arrSet0 : (Finset.univ.image (Pipeline.arrRef spec0) : Finset (Ref sig .tc)) = {main_v30, main_v33, main_v34, main_v35} := by
  rw [show (Finset.univ : Finset (Fin 5)) = {0, 1, 2, 3, 4} from by decide]
  simp only [Finset.image_insert, Finset.image_singleton]
  show insert main_v30 (insert main_v30 (insert main_v33 (insert main_v34 {main_v35}))) = _
  rw [Finset.insert_idem]

/-- The first pass's arrays: each window's array is a whole buffer, held at the window's share. -/
theorem arrays0_gen (c : Dev nD) (G : (w : Fin cfg0.W) → Buf (Elt F) ((cfg0.win w).arr.view.loc (c.tc : Thread nD τ))) :
    ((dat0 V c).arrays G : sProp 𝕄) = bigSep Finset.univ fun w : Fin cfg0.W =>
      ((((c.tc : Thread nD τ).loc (Pipeline.arrRef spec0 w)) ↦{(dat0 V c).share w} G w : sProp 𝕄)) := by
  unfold Dat.arrays
  exact bigSep_congr fun w _ => by rw [(arr_whole0 w).set_eq_univ]

/-- The first pass's arrays, window by window. -/
theorem arrays0_eq (c : Dev nD) (G : (w : Fin cfg0.W) → Buf (Elt F) ((cfg0.win w).arr.view.loc (c.tc : Thread nD τ))) :
    ((dat0 V c).arrays G : sProp 𝕄) = iprop(
      (((c : Thread nD τ).loc main_v30) ↦{fullShare.left} G 0) ∗ (((c : Thread nD τ).loc main_v30) ↦{fullShare.right} G 1)
      ∗ (((c : Thread nD τ).loc main_v33) ↦{fullShare} G 2) ∗ (((c : Thread nD τ).loc main_v34) ↦{fullShare} G 3)
      ∗ (((c : Thread nD τ).loc main_v35) ↦{fullShare} G 4)) := by
  rw [arrays0_gen, bigSep_W0]
  rfl

/-- The buffers behind the first pass's windows, one by one. -/
theorem arrBufs0_eq (c : Dev nD) (W : (b : Ref sig .tc) → Buf (Elt F) ((c : Thread nD τ).loc b)) :
    (Pipeline.arrBufs spec0 c W : sProp 𝕄) = iprop(
      (((c : Thread nD τ).loc main_v30) ↦{fullShare} W main_v30) ∗ (((c : Thread nD τ).loc main_v33) ↦{fullShare} W main_v33)
      ∗ (((c : Thread nD τ).loc main_v34) ↦{fullShare} W main_v34) ∗ (((c : Thread nD τ).loc main_v35) ↦{fullShare} W main_v35)) := by
  unfold Pipeline.arrBufs
  rw [arrSet0, BI.bigSep_insert (by decide), BI.bigSep_insert (by decide), BI.bigSep_insert (by decide), BI.bigSep_singleton]
  rfl

/-- ENTRY: the core's unscoped buffers at `W` are the first pass's arrays at `W` (the points' buffer in two halves) and the rest. -/
theorem entry0 (c : Dev nD) (W : (b : Ref sig .tc) → Buf (Elt F) ((c : Thread nD τ).loc b))
    (G : (w : Fin cfg0.W) → Buf (Elt F) ((cfg0.win w).arr.view.loc (c.tc : Thread nD τ))) (hG : ∀ w, G w = W (Pipeline.arrRef spec0 w)) :
    (unscopedBufs c W : sProp 𝕄) ⊢ iprop((dat0 V c).arrays G ∗ Pipeline.unscopedRest spec0 c W) := by
  obtain rfl : G = fun w => W (Pipeline.arrRef spec0 w) := funext hG
  refine (Entails.of_eq (Pipeline.unscopedBufs_split₀ cfgs 0 winFacts₀0.arr_unscoped c W)).trans ?_
  show iprop(Pipeline.arrBufs spec0 c W ∗ Pipeline.unscopedRest spec0 c W) ⊢ _
  rw [arrBufs0_eq, arrays0_eq]
  iintro ⟨⟨H30, H33, H34, H35⟩, Hrest⟩
  ihave Hh := (pt_halves _ _).1 $$ H30
  icases Hh with ⟨Hl, Hr⟩
  isplitr [Hrest]
  · isplitl [Hl]; · iexact Hl
    isplitl [Hr]; · iexact Hr
    isplitl [H33]; · iexact H33
    isplitl [H34]; · iexact H34
    iexact H35
  · iexact Hrest

/-- EXIT: the first pass's arrays at `W'` and the rest at `W` are the core's unscoped buffers at `W'`, when `W'` agrees with `W` off the arrays. -/
theorem exit0 (c : Dev nD) (W W' : (b : Ref sig .tc) → Buf (Elt F) ((c : Thread nD τ).loc b))
    (G : (w : Fin cfg0.W) → Buf (Elt F) ((cfg0.win w).arr.view.loc (c.tc : Thread nD τ))) (hG : ∀ w, G w = W' (Pipeline.arrRef spec0 w))
    (hrest : ∀ b, b ∉ Finset.univ.image (Pipeline.arrRef spec0) → W' b = W b) :
    iprop((dat0 V c).arrays G ∗ Pipeline.unscopedRest spec0 c W) ⊢ (unscopedBufs c W' : sProp 𝕄) := by
  obtain rfl : G = fun w => W' (Pipeline.arrRef spec0 w) := funext hG
  refine .trans ?_ (Entails.of_eq (Pipeline.unscopedBufs_split₀ cfgs 0 winFacts₀0.arr_unscoped c W').symm)
  show _ ⊢ iprop(Pipeline.arrBufs spec0 c W' ∗ Pipeline.unscopedRest spec0 c W')
  have hr : (Pipeline.unscopedRest spec0 c W : sProp 𝕄) = Pipeline.unscopedRest spec0 c W' := by
    unfold Pipeline.unscopedRest
    exact bigSep_congr fun b hb => by rw [hrest b (Finset.mem_sdiff.mp hb).2]
  rw [arrBufs0_eq, arrays0_eq, hr]
  iintro ⟨⟨Hl, Hr, H33, H34, H35⟩, Hrest⟩
  ihave H30 := (pt_halves _ _).2 $$ [Hl Hr]
  · isplitl [Hl]; · iexact Hl
    iexact Hr
  isplitr [Hrest]
  · isplitl [H30]; · iexact H30
    isplitl [H33]; · iexact H33
    isplitl [H34]; · iexact H34
    iexact H35
  · iexact Hrest

/-! ## The second pass -/

/-- The distinct buffers behind the second pass's six windows. -/
theorem arrSet1 : (Finset.univ.image (Pipeline.arrRef spec1) : Finset (Ref sig .tc)) = {main_v30, main_v33, main_v34, main_v39, main_v40} := by
  rw [show (Finset.univ : Finset (Fin 6)) = {0, 1, 2, 3, 4, 5} from by decide]
  simp only [Finset.image_insert, Finset.image_singleton]
  show insert main_v30 (insert main_v30 (insert main_v33 (insert main_v34 (insert main_v39 {main_v40})))) = _
  rw [Finset.insert_idem]

/-- The second pass's arrays: each window's array is a whole buffer, held at the window's share. -/
theorem arrays1_gen (c : Dev nD) (G : (w : Fin cfg1.W) → Buf (Elt F) ((cfg1.win w).arr.view.loc (c.tc : Thread nD τ))) :
    ((dat1 V c).arrays G : sProp 𝕄) = bigSep Finset.univ fun w : Fin cfg1.W =>
      ((((c.tc : Thread nD τ).loc (Pipeline.arrRef spec1 w)) ↦{(dat1 V c).share w} G w : sProp 𝕄)) := by
  unfold Dat.arrays
  exact bigSep_congr fun w _ => by rw [(arr_whole1 w).set_eq_univ]

/-- The second pass's arrays, window by window. -/
theorem arrays1_eq (c : Dev nD) (G : (w : Fin cfg1.W) → Buf (Elt F) ((cfg1.win w).arr.view.loc (c.tc : Thread nD τ))) :
    ((dat1 V c).arrays G : sProp 𝕄) = iprop(
      (((c : Thread nD τ).loc main_v30) ↦{fullShare.left} G 0) ∗ (((c : Thread nD τ).loc main_v30) ↦{fullShare.right} G 1)
      ∗ (((c : Thread nD τ).loc main_v33) ↦{fullShare} G 2) ∗ (((c : Thread nD τ).loc main_v34) ↦{fullShare} G 3)
      ∗ (((c : Thread nD τ).loc main_v39) ↦{fullShare} G 4) ∗ (((c : Thread nD τ).loc main_v40) ↦{fullShare} G 5)) := by
  rw [arrays1_gen, bigSep_W1]
  rfl

/-- The buffers behind the second pass's windows, one by one. -/
theorem arrBufs1_eq (c : Dev nD) (W : (b : Ref sig .tc) → Buf (Elt F) ((c : Thread nD τ).loc b)) :
    (Pipeline.arrBufs spec1 c W : sProp 𝕄) = iprop(
      (((c : Thread nD τ).loc main_v30) ↦{fullShare} W main_v30) ∗ (((c : Thread nD τ).loc main_v33) ↦{fullShare} W main_v33)
      ∗ (((c : Thread nD τ).loc main_v34) ↦{fullShare} W main_v34) ∗ (((c : Thread nD τ).loc main_v39) ↦{fullShare} W main_v39)
      ∗ (((c : Thread nD τ).loc main_v40) ↦{fullShare} W main_v40)) := by
  unfold Pipeline.arrBufs
  rw [arrSet1, BI.bigSep_insert (by decide), BI.bigSep_insert (by decide), BI.bigSep_insert (by decide), BI.bigSep_insert (by decide), BI.bigSep_singleton]
  rfl

/-- ENTRY of the second pass. -/
theorem entry1 (c : Dev nD) (W : (b : Ref sig .tc) → Buf (Elt F) ((c : Thread nD τ).loc b))
    (G : (w : Fin cfg1.W) → Buf (Elt F) ((cfg1.win w).arr.view.loc (c.tc : Thread nD τ))) (hG : ∀ w, G w = W (Pipeline.arrRef spec1 w)) :
    (unscopedBufs c W : sProp 𝕄) ⊢ iprop((dat1 V c).arrays G ∗ Pipeline.unscopedRest spec1 c W) := by
  obtain rfl : G = fun w => W (Pipeline.arrRef spec1 w) := funext hG
  refine (Entails.of_eq (Pipeline.unscopedBufs_split₀ cfgs 1 winFacts₀1.arr_unscoped c W)).trans ?_
  show iprop(Pipeline.arrBufs spec1 c W ∗ Pipeline.unscopedRest spec1 c W) ⊢ _
  rw [arrBufs1_eq, arrays1_eq]
  iintro ⟨⟨H30, H33, H34, H39, H40⟩, Hrest⟩
  ihave Hh := (pt_halves _ _).1 $$ H30
  icases Hh with ⟨Hl, Hr⟩
  isplitr [Hrest]
  · isplitl [Hl]; · iexact Hl
    isplitl [Hr]; · iexact Hr
    isplitl [H33]; · iexact H33
    isplitl [H34]; · iexact H34
    isplitl [H39]; · iexact H39
    iexact H40
  · iexact Hrest

/-- EXIT of the second pass. -/
theorem exit1 (c : Dev nD) (W W' : (b : Ref sig .tc) → Buf (Elt F) ((c : Thread nD τ).loc b))
    (G : (w : Fin cfg1.W) → Buf (Elt F) ((cfg1.win w).arr.view.loc (c.tc : Thread nD τ))) (hG : ∀ w, G w = W' (Pipeline.arrRef spec1 w))
    (hrest : ∀ b, b ∉ Finset.univ.image (Pipeline.arrRef spec1) → W' b = W b) :
    iprop((dat1 V c).arrays G ∗ Pipeline.unscopedRest spec1 c W) ⊢ (unscopedBufs c W' : sProp 𝕄) := by
  obtain rfl : G = fun w => W' (Pipeline.arrRef spec1 w) := funext hG
  refine .trans ?_ (Entails.of_eq (Pipeline.unscopedBufs_split₀ cfgs 1 winFacts₀1.arr_unscoped c W').symm)
  show _ ⊢ iprop(Pipeline.arrBufs spec1 c W' ∗ Pipeline.unscopedRest spec1 c W')
  have hr : (Pipeline.unscopedRest spec1 c W : sProp 𝕄) = Pipeline.unscopedRest spec1 c W' := by
    unfold Pipeline.unscopedRest
    exact bigSep_congr fun b hb => by rw [hrest b (Finset.mem_sdiff.mp hb).2]
  rw [arrBufs1_eq, arrays1_eq, hr]
  iintro ⟨⟨Hl, Hr, H33, H34, H39, H40⟩, Hrest⟩
  ihave H30 := (pt_halves _ _).2 $$ [Hl Hr]
  · isplitl [Hl]; · iexact Hl
    iexact Hr
  isplitr [Hrest]
  · isplitl [H30]; · iexact H30
    isplitl [H33]; · iexact H33
    isplitl [H34]; · iexact H34
    isplitl [H39]; · iexact H39
    iexact H40
  · iexact Hrest

end Cert.Kernel.Hand

end
-- ==== Proof.KRun.lean ====
/-
  The run of the whole program: seven stretches of host operations, the first pass, one more stretch
  (the accumulated total minus 8192, its reciprocal), the second pass.

  The buffer contents between items are a fold from the launch memory: a host stretch applies its
  operations; a pass changes only its result's buffer, to what its pipeline leaves there. Each pass is
  a region entered from "every unscoped buffer at the contents before it" and left at the contents
  after it; the run ends with every unscoped buffer at the last contents, which is what the final
  memory is read against.
-/
import proofs.«123053_j26680336843043_1_alg».proof.Proof.KArrays
import proofs.«123053_j26680336843043_1_alg».proof.Proof.Gen.Kernel.Regions
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the passes leave -/

/-- The contents the first pass is entered from, read at the TensorCore's references. -/
abbrev Ve0 : (c : Dev nD) → (b : Ref sig .tc) → Buf (Elt F) ((c : Thread nD τ).loc b) := fun c b => Gen.V7 m c b

/-- What the first pass leaves in the accumulator's array: the one write-back, after the last point. -/
def accOut (c : Dev nD) : Buf (Elt F) ((c : Thread nD τ).loc main_v35) := (dat0 (Ve0 m) c).arrAt 4 cfg0.N

/-- The regions' results up to the first pass. -/
def outs₁ : Gen.Outs (F := F) := fun _ r c => if h : r = main_v35 then h ▸ accOut m c else Gen.V7 m c r

theorem outs₁_acc (c : Dev nD) : outs₁ m 8 main_v35 c = accOut m c := by
  unfold outs₁; rw [dif_pos rfl]

/-- The contents the second pass is entered from. -/
abbrev Ve1 : (c : Dev nD) → (b : Ref sig .tc) → Buf (Elt F) ((c : Thread nD τ).loc b) := fun c b => Gen.V9 m (outs₁ m) c b

/-- What the second pass leaves in the result's array: its tiles' write-backs. -/
def affOut (c : Dev nD) : Buf (Elt F) ((c : Thread nD τ).loc main_v40) := (dat1 (Ve1 m) c).arrAt 5 cfg1.N

/-- The regions' results. -/
def outs : Gen.Outs (F := F) := fun J r c => if h : r = main_v40 then h ▸ affOut m c else outs₁ m J r c

theorem outs_acc (c : Dev nD) : outs m 8 main_v35 c = accOut m c := by
  unfold outs; rw [dif_neg (by decide)]; exact outs₁_acc m c

theorem outs_aff (c : Dev nD) : outs m 10 main_v40 c = affOut m c := by
  unfold outs; rw [dif_pos rfl]

theorem V8_outs (c : Dev nD) : Gen.V8 m (outs m) c = Gen.V8 m (outs₁ m) c := by
  show Function.update (Gen.V7 m c) main_v35 (outs m 8 main_v35 c) = Function.update (Gen.V7 m c) main_v35 (outs₁ m 8 main_v35 c)
  rw [outs_acc, outs₁_acc]

theorem V9_outs (c : Dev nD) : Gen.V9 m (outs m) c = Gen.V9 m (outs₁ m) c :=
  congrArg (StableHlo.after hostOps1) (V8_outs m c)

/-! ## The proof data family -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## What each pass's arrays hold at its exit -/

/-- An input window's array is never written: at the exit it holds the entry contents, which the first pass's exit contents keep. -/
theorem hF0_in (c : Dev nD) (w : Fin cfg0.W) (hin : (cfg0.win w).isOut = false)
    (hne : Pipeline.arrRef spec0 w ∉ ([main_v35] : List (Ref sig .tc))) :
    (dat0 (Ve0 m) c).arrAt w cfg0.N = Gen.V8 m (outs m) c (Pipeline.arrRef spec0 w) :=
  ((dat0 (Ve0 m) c).arrAt_in w hin _).trans ((A_eq0 (Ve0 m) c w).trans (Gen.V8_of m (outs m) c (Pipeline.arrRef spec0 w) hne).symm)

set_option maxHeartbeats 1000000 in
theorem hF0 (c : Dev nD) (w : Fin cfg0.W) : (dat0 (Ve0 m) c).arrAt w cfg0.N = Gen.V8 m (outs m) c (Pipeline.arrRef spec0 w) := by
  match w with
  | ⟨0, _⟩ => exact hF0_in m c 0 rfl (by decide)
  | ⟨1, _⟩ => exact hF0_in m c 1 rfl (by decide)
  | ⟨2, _⟩ => exact hF0_in m c 2 rfl (by decide)
  | ⟨3, _⟩ => exact hF0_in m c 3 rfl (by decide)
  | ⟨4, _⟩ => exact ((outs_acc m c).symm.trans (Function.update_self (β := fun b => Buf (Elt F) ((c : Thread nD τ).1, b)) _ _ _).symm)

theorem hrest0 (c : Dev nD) : ∀ b : Ref sig .tc, b ∉ Finset.univ.image (Pipeline.arrRef spec0) → Gen.V8 m (outs m) c b = Ve0 m c b :=
  fun b hb => Gen.V8_of m (outs m) c b fun h => hb (by rw [arrSet0, List.mem_singleton.mp h]; decide)

theorem Ve1_eq (c : Dev nD) (b : Ref sig .tc) : Ve1 m c b = Gen.V9 m (outs m) c b := by
  show Gen.V9 m (outs₁ m) c b = Gen.V9 m (outs m) c b
  rw [V9_outs]

/-- An input window's array is never written: at the exit it holds the entry contents, which the second pass's exit contents keep. -/
theorem hF1_in (c : Dev nD) (w : Fin cfg1.W) (hin : (cfg1.win w).isOut = false)
    (hne : Pipeline.arrRef spec1 w ∉ ([main_v40] : List (Ref sig .tc))) :
    (dat1 (Ve1 m) c).arrAt w cfg1.N = Gen.V10 m (outs m) c (Pipeline.arrRef spec1 w) :=
  ((dat1 (Ve1 m) c).arrAt_in w hin _).trans ((A_eq1 (Ve1 m) c w).trans
    ((Ve1_eq m c (Pipeline.arrRef spec1 w)).trans (Gen.V10_of m (outs m) c (Pipeline.arrRef spec1 w) hne).symm))

set_option maxHeartbeats 1000000 in
theorem hF1 (c : Dev nD) (w : Fin cfg1.W) : (dat1 (Ve1 m) c).arrAt w cfg1.N = Gen.V10 m (outs m) c (Pipeline.arrRef spec1 w) := by
  match w with
  | ⟨0, _⟩ => exact hF1_in m c 0 rfl (by decide)
  | ⟨1, _⟩ => exact hF1_in m c 1 rfl (by decide)
  | ⟨2, _⟩ => exact hF1_in m c 2 rfl (by decide)
  | ⟨3, _⟩ => exact hF1_in m c 3 rfl (by decide)
  | ⟨4, _⟩ => exact hF1_in m c 4 rfl (by decide)
  | ⟨5, _⟩ => exact ((outs_aff m c).symm.trans (Function.update_self (β := fun b => Buf (Elt F) ((c : Thread nD τ).1, b)) _ _ _).symm)

theorem hrest1 (c : Dev nD) : ∀ b : Ref sig .tc, b ∉ Finset.univ.image (Pipeline.arrRef spec1) → Gen.V10 m (outs m) c b = Ve1 m c b :=
  fun b hb => (Gen.V10_of m (outs m) c b fun h => hb (by rw [arrSet1, List.mem_singleton.mp h]; decide)).trans (Ve1_eq m c b).symm

/-! ## The passes as regions -/

-- a library lemma stated over the pinned configuration unifies with the printed one only when unification may unfold
-- plain definitions in a metavariable's type
set_option backward.isDefEq.respectTransparency.types false in
/-- Pass 1 over the thread state: entered from every unscoped buffer at the contents before it, left with the
    result's buffer at what the pipeline leaves and every other buffer as entered. The points' buffer is split in two
    halves at entry and joined at exit; the generator register passes through the invariant; nothing is owed; the
    kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := entry0 (Ve0 m) c (Ve0 m c) ((pdats m 0 c).arrAt · 0) (fun w => A_eq0 (Ve0 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (Ve0 m) c (Ve0 m c) (fun b => Gen.V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 2 over the thread state: entered from every unscoped buffer at the contents before it, left with the
    result's buffer at what the pipeline leaves and every other buffer as entered. The points' buffer is split in two
    halves at entry and joined at exit; the generator register passes through the invariant; nothing is owed; the
    kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Gen.V9 m (outs m) c) ∗ R c)
  post c := iprop((StableHlo.held (c : Thread nD τ) (Pipeline.ucRefs τ sig) (Gen.V10 m (outs m) c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := entry1 (Ve1 m) c (Ve1 m c) ((pdats m 1 c).arrAt · 0) (fun w => A_eq1 (Ve1 m) c w)
    rw [Pipeline.unscopedBufs_held] at hsplit
    rw [V9_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (Ve1 m) c (Ve1 m c) (fun b => Gen.V10 m (outs m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

end Cert.Kernel.Hand

end
-- ==== Proof.KRunAll.lean ====
/-
  Every weakly fair execution of the program terminates, and the final memory holds every unscoped
  buffer at the last contents of the fold: the arguments as launched, the points `o`, the result at
  what the second pass's pipeline leaves.
-/
import proofs.«123053_j26680336843043_1_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The items of the program as segments: the generated host stretches, the two passes' regions. -/
abbrev theSegs (c : Dev nD) :=
  Gen.segs m (outs m) 𝒱₀ L lv (fun _ => R (F := F)) () (pdats m) (reg0 m) (reg1 m) c

-- the launch theorem's implicit arguments are found by unifying its conclusion with this one, which takes unfolding
-- plain definitions in a metavariable's type
set_option backward.isDefEq.respectTransparency.types false in
set_option maxHeartbeats 1000000 in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V10 m (outs m) c b) := by
  refine Pipeline.θ_run_regions_kit_dev (pcfgs (F := F)) Gen.adm (pdats m) () cellOf_inj emb₁ defs₀ 𝒱₀ L lv m ρ main
    (theSegs m)
    (fun c Q => by
      rewrite [main_chain c, Pipeline.Seg.run_eq_chain,
        show (theSegs m c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [theSegs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V10 m (outs m) c) ∗ ∃ r, prngReg c r))
    (hch := fun c => ⟨.rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V10 m (outs m) c) s')
      isplitl [Hh] <;> iassumption)
    (hQ := fun s h c => h c)

end Cert.Kernel.Hand

end
-- ==== Proof.KRunPosts.lean ====
/-
  What the run's final memory holds, read off the last contents of the fold: every argument array as
  launched (no host stretch writes one, no pass may change one); the result at what the second pass
  leaves; the points `o` at what the host stretches before the first pass computed.
-/
import proofs.«123053_j26680336843043_1_alg».proof.Proof.KRunAll

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: the program terminates, nothing faulting, and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_arg0) (Finset.mem_filter.mpr ⟨StableHlo.devRef_mem_tcRefs main_arg0, by decide⟩)).trans (Gen.V10_main_arg0 m (outs m) c),
     (h c (Proc.devRef .tc main_arg1) (Finset.mem_filter.mpr ⟨StableHlo.devRef_mem_tcRefs main_arg1, by decide⟩)).trans (Gen.V10_main_arg1 m (outs m) c),
     (h c (Proc.devRef .tc main_arg2) (Finset.mem_filter.mpr ⟨StableHlo.devRef_mem_tcRefs main_arg2, by decide⟩)).trans (Gen.V10_main_arg2 m (outs m) c),
     (h c (Proc.devRef .tc main_arg3) (Finset.mem_filter.mpr ⟨StableHlo.devRef_mem_tcRefs main_arg3, by decide⟩)).trans (Gen.V10_main_arg3 m (outs m) c),
     (h c (Proc.devRef .tc main_arg4) (Finset.mem_filter.mpr ⟨StableHlo.devRef_mem_tcRefs main_arg4, by decide⟩)).trans (Gen.V10_main_arg4 m (outs m) c),
     (h c (Proc.devRef .tc main_arg5) (Finset.mem_filter.mpr ⟨StableHlo.devRef_mem_tcRefs main_arg5, by decide⟩)).trans (Gen.V10_main_arg5 m (outs m) c),
     (h c (Proc.devRef .tc main_arg6) (Finset.mem_filter.mpr ⟨StableHlo.devRef_mem_tcRefs main_arg6, by decide⟩)).trans (Gen.V10_main_arg6 m (outs m) c)⟩)
    (run_all m ρ)

/-- The points are not touched after the host stretches that compute them. -/
theorem points_kept (c : Dev nD) : Gen.V10 m (outs m) c main_v30 = Gen.V7 m c main_v30 :=
  (Gen.V10_of m (outs m) c main_v30 (by decide)).trans ((Gen.V9_of m (outs m) c main_v30 (by decide)).trans (Gen.V8_of m (outs m) c main_v30 (by decide)))

/-- The result's buffer ends at what the second pass's pipeline leaves. -/
theorem result_left (c : Dev nD) : Gen.V10 m (outs m) c main_v40 = affOut m c :=
  (Function.update_self (β := fun b => Buf (Elt F) ((c : Thread nD τ).1, b)) _ _ _).trans (outs_aff m c)

/-- THE RUN WITH ITS RESULTS NAMED: the result array, the points, the arguments. -/
theorem values_all : θ_run defs (onTc (τ := τ) (main (F := F))) ⟨m, fun _ => 0, ρ⟩ (fun r => ∀ c : Dev nD,
      r.2.mem ((c.tc : Thread nD τ).loc main_v40) = affOut m c
      ∧ r.2.mem ((c.tc : Thread nD τ).loc main_v30) = Gen.V7 m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_v40) (Finset.mem_filter.mpr ⟨StableHlo.devRef_mem_tcRefs main_v40, by decide⟩)).trans (result_left m c),
     (h c (Proc.devRef .tc main_v30) (Finset.mem_filter.mpr ⟨StableHlo.devRef_mem_tcRefs main_v30, by decide⟩)).trans (points_kept m c),
     (h c (Proc.devRef .tc main_arg0) (Finset.mem_filter.mpr ⟨StableHlo.devRef_mem_tcRefs main_arg0, by decide⟩)).trans (Gen.V10_main_arg0 m (outs m) c),
     (h c (Proc.devRef .tc main_arg1) (Finset.mem_filter.mpr ⟨StableHlo.devRef_mem_tcRefs main_arg1, by decide⟩)).trans (Gen.V10_main_arg1 m (outs m) c),
     (h c (Proc.devRef .tc main_arg2) (Finset.mem_filter.mpr ⟨StableHlo.devRef_mem_tcRefs main_arg2, by decide⟩)).trans (Gen.V10_main_arg2 m (outs m) c),
     (h c (Proc.devRef .tc main_arg3) (Finset.mem_filter.mpr ⟨StableHlo.devRef_mem_tcRefs main_arg3, by decide⟩)).trans (Gen.V10_main_arg3 m (outs m) c),
     (h c (Proc.devRef .tc main_arg4) (Finset.mem_filter.mpr ⟨StableHlo.devRef_mem_tcRefs main_arg4, by decide⟩)).trans (Gen.V10_main_arg4 m (outs m) c),
     (h c (Proc.devRef .tc main_arg5) (Finset.mem_filter.mpr ⟨StableHlo.devRef_mem_tcRefs main_arg5, by decide⟩)).trans (Gen.V10_main_arg5 m (outs m) c),
     (h c (Proc.devRef .tc main_arg6) (Finset.mem_filter.mpr ⟨StableHlo.devRef_mem_tcRefs main_arg6, by decide⟩)).trans (Gen.V10_main_arg6 m (outs m) c)⟩)
    (run_all m ρ)

end Cert.Kernel.Hand

end
-- ==== Proof.Body0.lean ====
/-
  The first pass's body on any whole staging memrefs, in its two cases.

  The body adds to a 1 × 1 accumulator the sum of one 1024 × 1024 tile of affinities (the tile's row
  points against its column points). At the FIRST grid point (both coordinates zero) it first stores
  zero in the accumulator; at every other point it adds to what the point before left there.
  Which case a point is in is a condition on its coordinates, decided over the 64 points of the grid.
  What the accumulator's buffer holds afterwards is recorded as the list of pieces the run finds.
-/
import proofs.«123053_j26680336843043_1_alg».proof.Proof.Gen.KernelIdeal.Launch
import proofs.«123053_j26680336843043_1_alg».proof.Proof.Gen.KernelIdeal.Skeleton
import proofs.«123053_j26680336843043_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, from the grid coordinates: both are zero. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point of the grid only. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- FIRST POINT: the pieces the body's two stores leave in the accumulator's staging memref (the zero, then the
    tile's sum added to it), with the run: the four input memrefs held whole at `x0 … x3`, the accumulator's at
    anything. -/
noncomputable def accRunFirst (c : Dev nD) (i : grid0.Coords)
    (a2 : Memref sig .tc .vmem S1024x2 .f32) (h2 : a2.IsWhole) (a3 : Memref sig .tc .vmem S1024x2 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (hc : isFirst i)
    (x0 x1 : Vec F S1024x2 .f32) (x2 : Vec F S1024x1 .f32) (x3 : Vec F S1x1024 .f32) :
    { L : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d)
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc0__pass1_kernel i a2 h2 a3 h3 a4 h4 a5 h5 a6 h6) K } := by
  refine ⟨?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h2.eq_unread hf0
    obtain rfl := h3.eq_unread hf1
    obtain rfl := h4.eq_unread hf2
    obtain rfl := h5.eq_unread hf3
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

set_option maxHeartbeats 1000000 in
/-- EVERY OTHER POINT: the pieces the body's one store leaves in the accumulator's staging memref (the tile's sum
    added to what it held, `xo`), with the run. -/
noncomputable def accRunNext (c : Dev nD) (i : grid0.Coords)
    (a2 : Memref sig .tc .vmem S1024x2 .f32) (h2 : a2.IsWhole) (a3 : Memref sig .tc .vmem S1024x2 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (hc : ¬isFirst i)
    (x0 x1 : Vec F S1024x2 .f32) (x2 : Vec F S1024x1 .f32) (x3 : Vec F S1x1024 .f32) (xo : Vec F S1x1 .f32) :
    { L : List (View.Piece (Elt F) S1x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xo
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L)) -∗ K ⟨⟩))
          ⊢ wp frame (wpE (defs₀ (F := F)) Variants.none c none) E (cc0__pass1_kernel i a2 h2 a3 h3 a4 h4 a5 h5 a6 h6) K } := by
  refine ⟨?_, fun E K => ?run⟩
  case run =>
    simp only [cc0__pass1_kernel_eq_skeleton]; unfold cc0__pass1_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h2.eq_unread hf0
    obtain rfl := h3.eq_unread hf1
    obtain rfl := h4.eq_unread hf2
    obtain rfl := h5.eq_unread hf3
    obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    iexists _; iexact H4

end Cert.KernelIdeal.Hand

end
-- ==== Proof.Dat0.lean ====
/-
  The first pass as a pipeline: its proof data at the buffer contents `V` the region is entered from.

  Five windows: the points read by rows (window 0) and by columns (window 1) — one array handed to two
  windows, each holding half of its share —, the column and the row of squared norms (2, 3), and the
  1 × 1 accumulator (4), whose block index never moves: it is written back once, after the last point,
  and between points its staging buffer keeps what the body left. So what the accumulator holds after
  point n is defined by recursion on n: the first point's run from nothing, every later point's run from
  what the point before left.
-/
import proofs.«123053_j26680336843043_1_alg».proof.Proof.Body0
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point's block index has not moved since the last fetch, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    point's block index has not moved since the last fetch, and the body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    point's block index has not moved since the last fetch, and the body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    point's block index has not moved since the last fetch, and the body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The accumulator's one staging buffer, through which its contents are stated. -/
abbrev VO0 : View sig .tc .vmem S1x1 .f32 := (Memref.whole cc0_stg4_0 : Memref sig .tc .vmem S1x1 .f32).view

/-- The first point's run, on the memrefs the pipeline passes and the input blocks there. -/
abbrev firstRunAt (c : Dev nD) (t : Fin cfg0.N) (ht : t.val = 0) :=
  accRunFirst (F := F) c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) ((isFirst_iff t).mpr ht)
    (iblk0 V c 0 t) (iblk0 V c 1 t) (iblk0 V c 2 t) (iblk0 V c 3 t)

/-- A later point's run, from what the accumulator held. -/
abbrev nextRunAt (c : Dev nD) (t : Fin cfg0.N) (ht : t.val ≠ 0) (xo : Vec F S1x1 .f32) :=
  accRunNext (F := F) c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (fun h => ht ((isFirst_iff t).mp h))
    (iblk0 V c 0 t) (iblk0 V c 1 t) (iblk0 V c 2 t) (iblk0 V c 3 t) xo

theorem firstCover (c : Dev nD) (t : Fin cfg0.N) (ht : t.val = 0) (y : S1x1.Idx) : ∃ pc ∈ (firstRunAt V c t ht).1, y ∈ pc.1.set :=
  View.cover_of_tiledL (firstRunAt V c t ht).1 S1x1.size (by sl_kernel_rfl) y

theorem nextCover (c : Dev nD) (t : Fin cfg0.N) (ht : t.val ≠ 0) (xo : Vec F S1x1 .f32) (y : S1x1.Idx) : ∃ pc ∈ (nextRunAt V c t ht xo).1, y ∈ pc.1.set :=
  View.cover_of_tiledL (nextRunAt V c t ht xo).1 S1x1.size (by sl_kernel_rfl) y

/-- What the first point leaves in the accumulator. -/
def outFirst (c : Dev nD) (t : Fin cfg0.N) (ht : t.val = 0) : Vec F S1x1 .f32 :=
  VO0.read (Elt F) (VO0.writes (Elt F) VO0.junk (firstRunAt V c t ht).1)

/-- What a later point leaves in the accumulator, from what it held. -/
def outNext (c : Dev nD) (t : Fin cfg0.N) (ht : t.val ≠ 0) (xo : Vec F S1x1 .f32) : Vec F S1x1 .f32 :=
  VO0.read (Elt F) (VO0.writes (Elt F) VO0.junk (nextRunAt V c t ht xo).1)

/-- THE ACCUMULATION: what the accumulator's staging buffer holds after the body at position `n`. -/
def accAt (c : Dev nD) : (n : ℕ) → n < cfg0.N → Vec F S1x1 .f32
  | 0, hn => outFirst V c ⟨0, hn⟩ rfl
  | n + 1, hn => outNext V c ⟨n + 1, hn⟩ (Nat.succ_ne_zero n) (accAt c n (Nat.lt_of_succ_lt hn))

theorem accAt_first (c : Dev nD) (t : Fin cfg0.N) (h : t.val = 0) : accAt V c t.val t.isLt = outFirst V c t h := by
  obtain ⟨n, hn⟩ := t
  cases n with
  | zero => exact rfl
  | succ n => exact absurd h (Nat.succ_ne_zero n)

theorem accAt_next (c : Dev nD) (t : Fin cfg0.N) (h : t.val ≠ 0) :
    accAt V c t.val t.isLt = outNext V c t h (accAt V c (t.val - 1) (Nat.lt_of_le_of_lt (Nat.sub_le _ _) t.isLt)) := by
  obtain ⟨n, hn⟩ := t
  cases n with
  | zero => exact absurd rfl h
  | succ n => exact rfl

/-- The proof data of the first pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => accAt V c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- After the first point the accumulator's staging buffer holds what the body left at the point before: the buffer
    is not written back between (only after the last point), the window is live and uncut. -/
theorem before0_4_next (c : Dev nD) (t : Fin cfg0.N) (h0 : t.val ≠ 0) (d) :
    (dat0 V c).before 4 t d = accAt V c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point: the inputs' memrefs hold their blocks; the point is the first or not; after the first the
    accumulator's memref holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  by_cases h0 : t.val = 0
  · rw [accAt_first V c t h0]
    unfold outFirst
    iintro ⟨HΦ, Ho, ⟨%d0, H0⟩, ⟨%d1, H1⟩, ⟨%d2, H2⟩, ⟨%d3, H3⟩, ⟨%d4, H4⟩⟩
    iapply ((firstRunAt V c t h0).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (firstCover V c t h0)
  · rw [accAt_next V c t h0]
    simp only [before0_4_next V c t h0]
    unfold outNext
    iintro ⟨HΦ, Ho, ⟨%d0, H0⟩, ⟨%d1, H1⟩, ⟨%d2, H2⟩, ⟨%d3, H3⟩, ⟨%d4, H4⟩⟩
    iapply ((nextRunAt V c t h0 _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (nextCover V c t h0 _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  The second pass's body on any whole staging memrefs.

  The body loads the two point blocks (1024 × 2 each), the column and the row of squared norms
  (1024 × 1 and 1 × 1024) and the 1 × 1 reciprocal of the normaliser, and stores ONE 1024 × 1024
  tile: the affinities of the tile's row points against its column points, each times the
  reciprocal. Nothing else is written; every input buffer is handed back as it was found.
  The stored tile is recorded as the list of pieces the run finds (one covering piece).
-/
import proofs.«123053_j26680336843043_1_alg».proof.Proof.Gen.KernelIdeal.Launch
import proofs.«123053_j26680336843043_1_alg».proof.Proof.Gen.KernelIdeal.Skeleton
import proofs.«123053_j26680336843043_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the second pass's one store leaves in the output tile's staging memref, WITH the proof that
    from the five input memrefs held whole at `x0 … x4` and the output's at anything the body runs to its
    return, the inputs as they were and the output's buffer with the pieces written. -/
noncomputable def tileRun (c : Dev nD) (i : grid1.Coords)
    (a2 : Memref sig .tc .vmem S1024x2 .f32) (h2 : a2.IsWhole) (a3 : Memref sig .tc .vmem S1024x2 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1024x1024 .f32) (h7 : a7.IsWhole)
    (x0 x1 : Vec F S1024x2 .f32) (x2 : Vec F S1024x1 .f32) (x3 : Vec F S1x1024 .f32) (x4 : Vec F S1x1 .f32) :
    { L : List (View.Piece (Elt F) S1024x1024 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4 ∗ (∃ d, owns (c : Thread nD τ) a7 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare x4
                ∗ (∃ f, a7.view.loc (c : Thread nD τ) ↦[a7.view.set]{fullShare} a7.view.writes (Elt F) f L)) -∗ K ⟨⟩))
          ⊢ wp frame (wpE (defs₀ (F := F)) Variants.none c none) E (cc1__pass2_kernel i a2 h2 a3 h3 a4 h4 a5 h5 a6 h6 a7 h7) K } := by
  refine ⟨?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h2.eq_unread hf0
    obtain rfl := h3.eq_unread hf1
    obtain rfl := h4.eq_unread hf2
    obtain rfl := h5.eq_unread hf3
    obtain rfl := h6.eq_unread hf4
    sl_exec
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.KernelIdeal.Hand

end
-- ==== Proof.Dat1.lean ====
/-
  The second pass as a pipeline: its proof data at the buffer contents `V` the region is entered from.

  Six windows: the points read by rows (window 0) and by columns (window 1) — ONE array handed to two
  windows, so each holds half of the array's share —, the column and the row of squared norms (2, 3),
  the 1 × 1 reciprocal (4), and the 8192 × 8192 result written tile by tile (5). After the body at a
  point each input's staging buffer still holds its block, and the result's holds the tile the body's
  store leaves. The invariant is the scoped rest and the generator register; the core owes nothing.
-/
import proofs.«123053_j26680336843043_1_alg».proof.Proof.Body1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: an unfetched
    point's block index has not moved since the last fetch, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: an unfetched
    point's block index has not moved since the last fetch, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: an unfetched
    point's block index has not moved since the last fetch, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: an unfetched
    point's block index has not moved since the last fetch, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: an unfetched
    point's block index has not moved since the last fetch, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of the result window, through which its contents are stated. -/
abbrev VO1 : View sig .tc .vmem S1024x1024 .f32 := (Memref.whole cc1_stg5_0 : Memref sig .tc .vmem S1024x1024 .f32).view

/-- The body's run at point `t`, on the memrefs the pipeline passes and the input blocks there. -/
abbrev tileRunAt (c : Dev nD) (t : Fin cfg1.N) :=
  tileRun (F := F) c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (win1_4.stage (cfg1.slots t 4)) (hstage1_4 ((cfg1.slots t 4).cast nbuf1_4)) (win1_5.stage (cfg1.slots t 5)) (hstage1_5 ((cfg1.slots t 5).cast nbuf1_5))
    (iblk1 V c 0 t) (iblk1 V c 1 t) (iblk1 V c 2 t) (iblk1 V c 3 t) (iblk1 V c 4 t)

/-- The run's pieces tile the result's block (one store of the whole block), so they cover it. -/
theorem tileCover (c : Dev nD) (t : Fin cfg1.N) (y : S1024x1024.Idx) : ∃ pc ∈ (tileRunAt V c t).1, y ∈ pc.1.set :=
  View.cover_of_tiledL (tileRunAt V c t).1 S1024x1024.size (by sl_kernel_rfl) y

/-- What the body leaves in the result's staging buffer at point `t`: its pieces read back. -/
def tileAt (c : Dev nD) (t : Fin cfg1.N) : Vec F S1024x1024 .f32 :=
  VO1.read (Elt F) (VO1.writes (Elt F) VO1.junk (tileRunAt V c t).1)

/-- The proof data of the second pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => tileAt V c t
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = tileAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point: the inputs' memrefs hold their blocks, so the run applies; the invariant and the
    core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold tileAt
  iintro ⟨HΦ, Ho, ⟨%d0, H0⟩, ⟨%d1, H1⟩, ⟨%d2, H2⟩, ⟨%d3, H3⟩, ⟨%d4, H4⟩, ⟨%d5, H5⟩⟩
  iapply ((tileRunAt V c t).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (tileCover V c t)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Arrays.lean ====
/-
  The two passes' windows over the core's unscoped buffers, when two windows read ONE array.

  Both passes hand the array of points to two windows (rows and columns). The buffer's full share is
  split in two halves at the region's entry, one per window, and joined again at its exit; every other
  window's array is a buffer of its own held at the full share.
-/
import proofs.«123053_j26680336843043_1_alg».proof.Proof.Dat0
import proofs.«123053_j26680336843043_1_alg».proof.Proof.Dat1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole buffer held at the full share is its two halves. -/
theorem pt_halves (ℓ : Loc nD τ sig) (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-! ## The first pass -/

/-- The distinct buffers behind the first pass's five windows. -/
theorem arrSet0 : (Finset.univ.image (Pipeline.arrRef spec0) : Finset (Ref sig .tc)) = {main_v30, main_v33, main_v34, main_v35} := by
  rw [show (Finset.univ : Finset (Fin 5)) = {0, 1, 2, 3, 4} from by decide]
  simp only [Finset.image_insert, Finset.image_singleton]
  show insert main_v30 (insert main_v30 (insert main_v33 (insert main_v34 {main_v35}))) = _
  rw [Finset.insert_idem]

/-- The first pass's arrays: each window's array is a whole buffer, held at the window's share. -/
theorem arrays0_gen (c : Dev nD) (G : (w : Fin cfg0.W) → Buf (Elt F) ((cfg0.win w).arr.view.loc (c.tc : Thread nD τ))) :
    ((dat0 V c).arrays G : sProp 𝕄) = bigSep Finset.univ fun w : Fin cfg0.W =>
      ((((c.tc : Thread nD τ).loc (Pipeline.arrRef spec0 w)) ↦{(dat0 V c).share w} G w : sProp 𝕄)) := by
  unfold Dat.arrays
  exact bigSep_congr fun w _ => by rw [(arr_whole0 w).set_eq_univ]

/-- The first pass's arrays, window by window. -/
theorem arrays0_eq (c : Dev nD) (G : (w : Fin cfg0.W) → Buf (Elt F) ((cfg0.win w).arr.view.loc (c.tc : Thread nD τ))) :
    ((dat0 V c).arrays G : sProp 𝕄) = iprop(
      (((c : Thread nD τ).loc main_v30) ↦{fullShare.left} G 0) ∗ (((c : Thread nD τ).loc main_v30) ↦{fullShare.right} G 1)
      ∗ (((c : Thread nD τ).loc main_v33) ↦{fullShare} G 2) ∗ (((c : Thread nD τ).loc main_v34) ↦{fullShare} G 3)
      ∗ (((c : Thread nD τ).loc main_v35) ↦{fullShare} G 4)) := by
  rw [arrays0_gen, bigSep_W0]
  rfl

/-- The buffers behind the first pass's windows, one by one. -/
theorem arrBufs0_eq (c : Dev nD) (W : (b : Ref sig .tc) → Buf (Elt F) ((c : Thread nD τ).loc b)) :
    (Pipeline.arrBufs spec0 c W : sProp 𝕄) = iprop(
      (((c : Thread nD τ).loc main_v30) ↦{fullShare} W main_v30) ∗ (((c : Thread nD τ).loc main_v33) ↦{fullShare} W main_v33)
      ∗ (((c : Thread nD τ).loc main_v34) ↦{fullShare} W main_v34) ∗ (((c : Thread nD τ).loc main_v35) ↦{fullShare} W main_v35)) := by
  unfold Pipeline.arrBufs
  rw [arrSet0, BI.bigSep_insert (by decide), BI.bigSep_insert (by decide), BI.bigSep_insert (by decide), BI.bigSep_singleton]
  rfl

/-- ENTRY: the core's unscoped buffers at `W` are the first pass's arrays at `W` (the points' buffer in two halves) and the rest. -/
theorem entry0 (c : Dev nD) (W : (b : Ref sig .tc) → Buf (Elt F) ((c : Thread nD τ).loc b))
    (G : (w : Fin cfg0.W) → Buf (Elt F) ((cfg0.win w).arr.view.loc (c.tc : Thread nD τ))) (hG : ∀ w, G w = W (Pipeline.arrRef spec0 w)) :
    (unscopedBufs c W : sProp 𝕄) ⊢ iprop((dat0 V c).arrays G ∗ Pipeline.unscopedRest spec0 c W) := by
  obtain rfl : G = fun w => W (Pipeline.arrRef spec0 w) := funext hG
  refine (Entails.of_eq (Pipeline.unscopedBufs_split₀ cfgs 0 winFacts₀0.arr_unscoped c W)).trans ?_
  show iprop(Pipeline.arrBufs spec0 c W ∗ Pipeline.unscopedRest spec0 c W) ⊢ _
  rw [arrBufs0_eq, arrays0_eq]
  iintro ⟨⟨H30, H33, H34, H35⟩, Hrest⟩
  ihave Hh := (pt_halves _ _).1 $$ H30
  icases Hh with ⟨Hl, Hr⟩
  isplitr [Hrest]
  · isplitl [Hl]; · iexact Hl
    isplitl [Hr]; · iexact Hr
    isplitl [H33]; · iexact H33
    isplitl [H34]; · iexact H34
    iexact H35
  · iexact Hrest

/-- EXIT: the first pass's arrays at `W'` and the rest at `W` are the core's unscoped buffers at `W'`, when `W'` agrees with `W` off the arrays. -/
theorem exit0 (c : Dev nD) (W W' : (b : Ref sig .tc) → Buf (Elt F) ((c : Thread nD τ).loc b))
    (G : (w : Fin cfg0.W) → Buf (Elt F) ((cfg0.win w).arr.view.loc (c.tc : Thread nD τ))) (hG : ∀ w, G w = W' (Pipeline.arrRef spec0 w))
    (hrest : ∀ b, b ∉ Finset.univ.image (Pipeline.arrRef spec0) → W' b = W b) :
    iprop((dat0 V c).arrays G ∗ Pipeline.unscopedRest spec0 c W) ⊢ (unscopedBufs c W' : sProp 𝕄) := by
  obtain rfl : G = fun w => W' (Pipeline.arrRef spec0 w) := funext hG
  refine .trans ?_ (Entails.of_eq (Pipeline.unscopedBufs_split₀ cfgs 0 winFacts₀0.arr_unscoped c W').symm)
  show _ ⊢ iprop(Pipeline.arrBufs spec0 c W' ∗ Pipeline.unscopedRest spec0 c W')
  have hr : (Pipeline.unscopedRest spec0 c W : sProp 𝕄) = Pipeline.unscopedRest spec0 c W' := by
    unfold Pipeline.unscopedRest
    exact bigSep_congr fun b hb => by rw [hrest b (Finset.mem_sdiff.mp hb).2]
  rw [arrBufs0_eq, arrays0_eq, hr]
  iintro ⟨⟨Hl, Hr, H33, H34, H35⟩, Hrest⟩
  ihave H30 := (pt_halves _ _).2 $$ [Hl Hr]
  · isplitl [Hl]; · iexact Hl
    iexact Hr
  isplitr [Hrest]
  · isplitl [H30]; · iexact H30
    isplitl [H33]; · iexact H33
    isplitl [H34]; · iexact H34
    iexact H35
  · iexact Hrest

/-! ## The second pass -/

/-- The distinct buffers behind the second pass's six windows. -/
theorem arrSet1 : (Finset.univ.image (Pipeline.arrRef spec1) : Finset (Ref sig .tc)) = {main_v30, main_v33, main_v34, main_v39, main_v40} := by
  rw [show (Finset.univ : Finset (Fin 6)) = {0, 1, 2, 3, 4, 5} from by decide]
  simp only [Finset.image_insert, Finset.image_singleton]
  show insert main_v30 (insert main_v30 (insert main_v33 (insert main_v34 (insert main_v39 {main_v40})))) = _
  rw [Finset.insert_idem]

/-- The second pass's arrays: each window's array is a whole buffer, held at the window's share. -/
theorem arrays1_gen (c : Dev nD) (G : (w : Fin cfg1.W) → Buf (Elt F) ((cfg1.win w).arr.view.loc (c.tc : Thread nD τ))) :
    ((dat1 V c).arrays G : sProp 𝕄) = bigSep Finset.univ fun w : Fin cfg1.W =>
      ((((c.tc : Thread nD τ).loc (Pipeline.arrRef spec1 w)) ↦{(dat1 V c).share w} G w : sProp 𝕄)) := by
  unfold Dat.arrays
  exact bigSep_congr fun w _ => by rw [(arr_whole1 w).set_eq_univ]

/-- The second pass's arrays, window by window. -/
theorem arrays1_eq (c : Dev nD) (G : (w : Fin cfg1.W) → Buf (Elt F) ((cfg1.win w).arr.view.loc (c.tc : Thread nD τ))) :
    ((dat1 V c).arrays G : sProp 𝕄) = iprop(
      (((c : Thread nD τ).loc main_v30) ↦{fullShare.left} G 0) ∗ (((c : Thread nD τ).loc main_v30) ↦{fullShare.right} G 1)
      ∗ (((c : Thread nD τ).loc main_v33) ↦{fullShare} G 2) ∗ (((c : Thread nD τ).loc main_v34) ↦{fullShare} G 3)
      ∗ (((c : Thread nD τ).loc main_v39) ↦{fullShare} G 4) ∗ (((c : Thread nD τ).loc main_v40) ↦{fullShare} G 5)) := by
  rw [arrays1_gen, bigSep_W1]
  rfl

/-- The buffers behind the second pass's windows, one by one. -/
theorem arrBufs1_eq (c : Dev nD) (W : (b : Ref sig .tc) → Buf (Elt F) ((c : Thread nD τ).loc b)) :
    (Pipeline.arrBufs spec1 c W : sProp 𝕄) = iprop(
      (((c : Thread nD τ).loc main_v30) ↦{fullShare} W main_v30) ∗ (((c : Thread nD τ).loc main_v33) ↦{fullShare} W main_v33)
      ∗ (((c : Thread nD τ).loc main_v34) ↦{fullShare} W main_v34) ∗ (((c : Thread nD τ).loc main_v39) ↦{fullShare} W main_v39)
      ∗ (((c : Thread nD τ).loc main_v40) ↦{fullShare} W main_v40)) := by
  unfold Pipeline.arrBufs
  rw [arrSet1, BI.bigSep_insert (by decide), BI.bigSep_insert (by decide), BI.bigSep_insert (by decide), BI.bigSep_insert (by decide), BI.bigSep_singleton]
  rfl

/-- ENTRY of the second pass. -/
theorem entry1 (c : Dev nD) (W : (b : Ref sig .tc) → Buf (Elt F) ((c : Thread nD τ).loc b))
    (G : (w : Fin cfg1.W) → Buf (Elt F) ((cfg1.win w).arr.view.loc (c.tc : Thread nD τ))) (hG : ∀ w, G w = W (Pipeline.arrRef spec1 w)) :
    (unscopedBufs c W : sProp 𝕄) ⊢ iprop((dat1 V c).arrays G ∗ Pipeline.unscopedRest spec1 c W) := by
  obtain rfl : G = fun w => W (Pipeline.arrRef spec1 w) := funext hG
  refine (Entails.of_eq (Pipeline.unscopedBufs_split₀ cfgs 1 winFacts₀1.arr_unscoped c W)).trans ?_
  show iprop(Pipeline.arrBufs spec1 c W ∗ Pipeline.unscopedRest spec1 c W) ⊢ _
  rw [arrBufs1_eq, arrays1_eq]
  iintro ⟨⟨H30, H33, H34, H39, H40⟩, Hrest⟩
  ihave Hh := (pt_halves _ _).1 $$ H30
  icases Hh with ⟨Hl, Hr⟩
  isplitr [Hrest]
  · isplitl [Hl]; · iexact Hl
    isplitl [Hr]; · iexact Hr
    isplitl [H33]; · iexact H33
    isplitl [H34]; · iexact H34
    isplitl [H39]; · iexact H39
    iexact H40
  · iexact Hrest

/-- EXIT of the second pass. -/
theorem exit1 (c : Dev nD) (W W' : (b : Ref sig .tc) → Buf (Elt F) ((c : Thread nD τ).loc b))
    (G : (w : Fin cfg1.W) → Buf (Elt F) ((cfg1.win w).arr.view.loc (c.tc : Thread nD τ))) (hG : ∀ w, G w = W' (Pipeline.arrRef spec1 w))
    (hrest : ∀ b, b ∉ Finset.univ.image (Pipeline.arrRef spec1) → W' b = W b) :
    iprop((dat1 V c).arrays G ∗ Pipeline.unscopedRest spec1 c W) ⊢ (unscopedBufs c W' : sProp 𝕄) := by
  obtain rfl : G = fun w => W' (Pipeline.arrRef spec1 w) := funext hG
  refine .trans ?_ (Entails.of_eq (Pipeline.unscopedBufs_split₀ cfgs 1 winFacts₀1.arr_unscoped c W').symm)
  show _ ⊢ iprop(Pipeline.arrBufs spec1 c W' ∗ Pipeline.unscopedRest spec1 c W')
  have hr : (Pipeline.unscopedRest spec1 c W : sProp 𝕄) = Pipeline.unscopedRest spec1 c W' := by
    unfold Pipeline.unscopedRest
    exact bigSep_congr fun b hb => by rw [hrest b (Finset.mem_sdiff.mp hb).2]
  rw [arrBufs1_eq, arrays1_eq, hr]
  iintro ⟨⟨Hl, Hr, H33, H34, H39, H40⟩, Hrest⟩
  ihave H30 := (pt_halves _ _).2 $$ [Hl Hr]
  · isplitl [Hl]; · iexact Hl
    iexact Hr
  isplitr [Hrest]
  · isplitl [H30]; · iexact H30
    isplitl [H33]; · iexact H33
    isplitl [H34]; · iexact H34
    isplitl [H39]; · iexact H39
    iexact H40
  · iexact Hrest

end Cert.KernelIdeal.Hand

end
-- ==== Proof.Run.lean ====
/-
  The run of the whole program: seven stretches of host operations, the first pass, one more stretch
  (the accumulated total minus 8192, its reciprocal), the second pass.

  The buffer contents between items are a fold from the launch memory: a host stretch applies its
  operations; a pass changes only its result's buffer, to what its pipeline leaves there. Each pass is
  a region entered from "every unscoped buffer at the contents before it" and left at the contents
  after it; the run ends with every unscoped buffer at the last contents, which is what the final
  memory is read against.
-/
import proofs.«123053_j26680336843043_1_alg».proof.Proof.Arrays
import proofs.«123053_j26680336843043_1_alg».proof.Proof.Gen.KernelIdeal.Regions
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the passes leave -/

/-- The contents the first pass is entered from, read at the TensorCore's references. -/
abbrev Ve0 : (c : Dev nD) → (b : Ref sig .tc) → Buf (Elt F) ((c : Thread nD τ).loc b) := fun c b => Gen.V7 m c b

/-- What the first pass leaves in the accumulator's array: the one write-back, after the last point. -/
def accOut (c : Dev nD) : Buf (Elt F) ((c : Thread nD τ).loc main_v35) := (dat0 (Ve0 m) c).arrAt 4 cfg0.N

/-- The regions' results up to the first pass. -/
def outs₁ : Gen.Outs (F := F) := fun _ r c => if h : r = main_v35 then h ▸ accOut m c else Gen.V7 m c r

theorem outs₁_acc (c : Dev nD) : outs₁ m 8 main_v35 c = accOut m c := by
  unfold outs₁; rw [dif_pos rfl]

/-- The contents the second pass is entered from. -/
abbrev Ve1 : (c : Dev nD) → (b : Ref sig .tc) → Buf (Elt F) ((c : Thread nD τ).loc b) := fun c b => Gen.V9 m (outs₁ m) c b

/-- What the second pass leaves in the result's array: its tiles' write-backs. -/
def affOut (c : Dev nD) : Buf (Elt F) ((c : Thread nD τ).loc main_v40) := (dat1 (Ve1 m) c).arrAt 5 cfg1.N

/-- The regions' results. -/
def outs : Gen.Outs (F := F) := fun J r c => if h : r = main_v40 then h ▸ affOut m c else outs₁ m J r c

theorem outs_acc (c : Dev nD) : outs m 8 main_v35 c = accOut m c := by
  unfold outs; rw [dif_neg (by decide)]; exact outs₁_acc m c

theorem outs_aff (c : Dev nD) : outs m 10 main_v40 c = affOut m c := by
  unfold outs; rw [dif_pos rfl]

theorem V8_outs (c : Dev nD) : Gen.V8 m (outs m) c = Gen.V8 m (outs₁ m) c := by
  show Function.update (Gen.V7 m c) main_v35 (outs m 8 main_v35 c) = Function.update (Gen.V7 m c) main_v35 (outs₁ m 8 main_v35 c)
  rw [outs_acc, outs₁_acc]

theorem V9_outs (c : Dev nD) : Gen.V9 m (outs m) c = Gen.V9 m (outs₁ m) c :=
  congrArg (StableHlo.after hostOps1) (V8_outs m c)

/-! ## The proof data family -/

/-- Every pipeline's proof data, each at its region's entry contents. -/
def pdats : (p : Fin 2) → (c : Dev nD) → Dat τ (Elt F) Unit ℕ (UR sig nD τ) ℕ (cfgs p) c
  | ⟨0, _⟩ => fun c => dat0 (Ve0 m) c
  | ⟨1, _⟩ => fun c => dat1 (Ve1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## What each pass's arrays hold at its exit -/

/-- An input window's array is never written: at the exit it holds the entry contents, which the first pass's exit contents keep. -/
theorem hF0_in (c : Dev nD) (w : Fin cfg0.W) (hin : (cfg0.win w).isOut = false)
    (hne : Pipeline.arrRef spec0 w ∉ ([main_v35] : List (Ref sig .tc))) :
    (dat0 (Ve0 m) c).arrAt w cfg0.N = Gen.V8 m (outs m) c (Pipeline.arrRef spec0 w) :=
  ((dat0 (Ve0 m) c).arrAt_in w hin _).trans ((A_eq0 (Ve0 m) c w).trans (Gen.V8_of m (outs m) c (Pipeline.arrRef spec0 w) hne).symm)

set_option maxHeartbeats 1000000 in
theorem hF0 (c : Dev nD) (w : Fin cfg0.W) : (dat0 (Ve0 m) c).arrAt w cfg0.N = Gen.V8 m (outs m) c (Pipeline.arrRef spec0 w) := by
  match w with
  | ⟨0, _⟩ => exact hF0_in m c 0 rfl (by decide)
  | ⟨1, _⟩ => exact hF0_in m c 1 rfl (by decide)
  | ⟨2, _⟩ => exact hF0_in m c 2 rfl (by decide)
  | ⟨3, _⟩ => exact hF0_in m c 3 rfl (by decide)
  | ⟨4, _⟩ => exact ((outs_acc m c).symm.trans (Function.update_self (β := fun b => Buf (Elt F) ((c : Thread nD τ).1, b)) _ _ _).symm)

theorem hrest0 (c : Dev nD) : ∀ b : Ref sig .tc, b ∉ Finset.univ.image (Pipeline.arrRef spec0) → Gen.V8 m (outs m) c b = Ve0 m c b :=
  fun b hb => Gen.V8_of m (outs m) c b fun h => hb (by rw [arrSet0, List.mem_singleton.mp h]; decide)

theorem Ve1_eq (c : Dev nD) (b : Ref sig .tc) : Ve1 m c b = Gen.V9 m (outs m) c b := by
  show Gen.V9 m (outs₁ m) c b = Gen.V9 m (outs m) c b
  rw [V9_outs]

/-- An input window's array is never written: at the exit it holds the entry contents, which the second pass's exit contents keep. -/
theorem hF1_in (c : Dev nD) (w : Fin cfg1.W) (hin : (cfg1.win w).isOut = false)
    (hne : Pipeline.arrRef spec1 w ∉ ([main_v40] : List (Ref sig .tc))) :
    (dat1 (Ve1 m) c).arrAt w cfg1.N = Gen.V10 m (outs m) c (Pipeline.arrRef spec1 w) :=
  ((dat1 (Ve1 m) c).arrAt_in w hin _).trans ((A_eq1 (Ve1 m) c w).trans
    ((Ve1_eq m c (Pipeline.arrRef spec1 w)).trans (Gen.V10_of m (outs m) c (Pipeline.arrRef spec1 w) hne).symm))

set_option maxHeartbeats 1000000 in
theorem hF1 (c : Dev nD) (w : Fin cfg1.W) : (dat1 (Ve1 m) c).arrAt w cfg1.N = Gen.V10 m (outs m) c (Pipeline.arrRef spec1 w) := by
  match w with
  | ⟨0, _⟩ => exact hF1_in m c 0 rfl (by decide)
  | ⟨1, _⟩ => exact hF1_in m c 1 rfl (by decide)
  | ⟨2, _⟩ => exact hF1_in m c 2 rfl (by decide)
  | ⟨3, _⟩ => exact hF1_in m c 3 rfl (by decide)
  | ⟨4, _⟩ => exact hF1_in m c 4 rfl (by decide)
  | ⟨5, _⟩ => exact ((outs_aff m c).symm.trans (Function.update_self (β := fun b => Buf (Elt F) ((c : Thread nD τ).1, b)) _ _ _).symm)

theorem hrest1 (c : Dev nD) : ∀ b : Ref sig .tc, b ∉ Finset.univ.image (Pipeline.arrRef spec1) → Gen.V10 m (outs m) c b = Ve1 m c b :=
  fun b hb => (Gen.V10_of m (outs m) c b fun h => hb (by rw [arrSet1, List.mem_singleton.mp h]; decide)).trans (Ve1_eq m c b).symm

/-! ## The passes as regions -/

-- a library lemma stated over the pinned configuration unifies with the printed one only when unification may unfold
-- plain definitions in a metavariable's type
set_option backward.isDefEq.respectTransparency.types false in
/-- Pass 1 over the thread state: entered from every unscoped buffer at the contents before it, left with the
    result's buffer at what the pipeline leaves and every other buffer as entered. The points' buffer is split in two
    halves at entry and joined at exit; the generator register passes through the invariant; nothing is owed; the
    kernel has no semaphore of its own. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V7 m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := entry0 (Ve0 m) c (Ve0 m c) ((pdats m 0 c).arrAt · 0) (fun w => A_eq0 (Ve0 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (Ve0 m) c (Ve0 m c) (fun b => Gen.V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Pass 2 over the thread state: entered from every unscoped buffer at the contents before it, left with the
    result's buffer at what the pipeline leaves and every other buffer as entered. The points' buffer is split in two
    halves at entry and joined at exit; the generator register passes through the invariant; nothing is owed; the
    kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Gen.V9 m (outs m) c) ∗ R c)
  post c := iprop((StableHlo.held (c : Thread nD τ) (Pipeline.ucRefs τ sig) (Gen.V10 m (outs m) c) ∗ ∃ r, prngReg c r) ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := entry1 (Ve1 m) c (Ve1 m c) ((pdats m 1 c).arrAt · 0) (fun w => A_eq1 (Ve1 m) c w)
    rw [Pipeline.unscopedBufs_held] at hsplit
    rw [V9_outs m c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (Ve1 m) c (Ve1 m c) (fun b => Gen.V10 m (outs m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

end Cert.KernelIdeal.Hand

end
-- ==== Proof.RunAll.lean ====
/-
  Every weakly fair execution of the program terminates, and the final memory holds every unscoped
  buffer at the last contents of the fold: the arguments as launched, the points `o`, the result at
  what the second pass's pipeline leaves.
-/
import proofs.«123053_j26680336843043_1_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The items of the program as segments: the generated host stretches, the two passes' regions. -/
abbrev theSegs (c : Dev nD) :=
  Gen.segs m (outs m) 𝒱₀ L lv (fun _ => R (F := F)) () (pdats m) (reg0 m) (reg1 m) c

-- the launch theorem's implicit arguments are found by unifying its conclusion with this one, which takes unfolding
-- plain definitions in a metavariable's type
set_option backward.isDefEq.respectTransparency.types false in
set_option maxHeartbeats 1000000 in
/-- THE RUN. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V10 m (outs m) c b) := by
  refine Pipeline.θ_run_regions_kit_dev (pcfgs (F := F)) Gen.adm (pdats m) () cellOf_inj emb₁ defs₀ 𝒱₀ L lv m ρ main
    (theSegs m)
    (fun c Q => by
      rewrite [main_chain c, Pipeline.Seg.run_eq_chain,
        show (theSegs m c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      exact .rfl)
    (fun c => by simp only [theSegs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V10 m (outs m) c) ∗ ∃ r, prngReg c r))
    (hch := fun c => ⟨.rfl, .rfl, .rfl, .rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V10 m (outs m) c) s')
      isplitl [Hh] <;> iassumption)
    (hQ := fun s h c => h c)

end Cert.KernelIdeal.Hand

end
-- ==== Proof.RunPosts.lean ====
/-
  What the run's final memory holds, read off the last contents of the fold: every argument array as
  launched (no host stretch writes one, no pass may change one); the result at what the second pass
  leaves; the points `o` at what the host stretches before the first pass computed.
-/
import proofs.«123053_j26680336843043_1_alg».proof.Proof.RunAll

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: the program terminates, nothing faulting, and every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_arg0) (Finset.mem_filter.mpr ⟨StableHlo.devRef_mem_tcRefs main_arg0, by decide⟩)).trans (Gen.V10_main_arg0 m (outs m) c),
     (h c (Proc.devRef .tc main_arg1) (Finset.mem_filter.mpr ⟨StableHlo.devRef_mem_tcRefs main_arg1, by decide⟩)).trans (Gen.V10_main_arg1 m (outs m) c),
     (h c (Proc.devRef .tc main_arg2) (Finset.mem_filter.mpr ⟨StableHlo.devRef_mem_tcRefs main_arg2, by decide⟩)).trans (Gen.V10_main_arg2 m (outs m) c),
     (h c (Proc.devRef .tc main_arg3) (Finset.mem_filter.mpr ⟨StableHlo.devRef_mem_tcRefs main_arg3, by decide⟩)).trans (Gen.V10_main_arg3 m (outs m) c),
     (h c (Proc.devRef .tc main_arg4) (Finset.mem_filter.mpr ⟨StableHlo.devRef_mem_tcRefs main_arg4, by decide⟩)).trans (Gen.V10_main_arg4 m (outs m) c),
     (h c (Proc.devRef .tc main_arg5) (Finset.mem_filter.mpr ⟨StableHlo.devRef_mem_tcRefs main_arg5, by decide⟩)).trans (Gen.V10_main_arg5 m (outs m) c),
     (h c (Proc.devRef .tc main_arg6) (Finset.mem_filter.mpr ⟨StableHlo.devRef_mem_tcRefs main_arg6, by decide⟩)).trans (Gen.V10_main_arg6 m (outs m) c)⟩)
    (run_all m ρ)

/-- The points are not touched after the host stretches that compute them. -/
theorem points_kept (c : Dev nD) : Gen.V10 m (outs m) c main_v30 = Gen.V7 m c main_v30 :=
  (Gen.V10_of m (outs m) c main_v30 (by decide)).trans ((Gen.V9_of m (outs m) c main_v30 (by decide)).trans (Gen.V8_of m (outs m) c main_v30 (by decide)))

/-- The result's buffer ends at what the second pass's pipeline leaves. -/
theorem result_left (c : Dev nD) : Gen.V10 m (outs m) c main_v40 = affOut m c :=
  (Function.update_self (β := fun b => Buf (Elt F) ((c : Thread nD τ).1, b)) _ _ _).trans (outs_aff m c)

/-- THE RUN WITH ITS RESULTS NAMED: the result array, the points, the arguments. -/
theorem values_all : θ_run defs (onTc (τ := τ) (main (F := F))) ⟨m, fun _ => 0, ρ⟩ (fun r => ∀ c : Dev nD,
      r.2.mem ((c.tc : Thread nD τ).loc main_v40) = affOut m c
      ∧ r.2.mem ((c.tc : Thread nD τ).loc main_v30) = Gen.V7 m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_v40) (Finset.mem_filter.mpr ⟨StableHlo.devRef_mem_tcRefs main_v40, by decide⟩)).trans (result_left m c),
     (h c (Proc.devRef .tc main_v30) (Finset.mem_filter.mpr ⟨StableHlo.devRef_mem_tcRefs main_v30, by decide⟩)).trans (points_kept m c),
     (h c (Proc.devRef .tc main_arg0) (Finset.mem_filter.mpr ⟨StableHlo.devRef_mem_tcRefs main_arg0, by decide⟩)).trans (Gen.V10_main_arg0 m (outs m) c),
     (h c (Proc.devRef .tc main_arg1) (Finset.mem_filter.mpr ⟨StableHlo.devRef_mem_tcRefs main_arg1, by decide⟩)).trans (Gen.V10_main_arg1 m (outs m) c),
     (h c (Proc.devRef .tc main_arg2) (Finset.mem_filter.mpr ⟨StableHlo.devRef_mem_tcRefs main_arg2, by decide⟩)).trans (Gen.V10_main_arg2 m (outs m) c),
     (h c (Proc.devRef .tc main_arg3) (Finset.mem_filter.mpr ⟨StableHlo.devRef_mem_tcRefs main_arg3, by decide⟩)).trans (Gen.V10_main_arg3 m (outs m) c),
     (h c (Proc.devRef .tc main_arg4) (Finset.mem_filter.mpr ⟨StableHlo.devRef_mem_tcRefs main_arg4, by decide⟩)).trans (Gen.V10_main_arg4 m (outs m) c),
     (h c (Proc.devRef .tc main_arg5) (Finset.mem_filter.mpr ⟨StableHlo.devRef_mem_tcRefs main_arg5, by decide⟩)).trans (Gen.V10_main_arg5 m (outs m) c),
     (h c (Proc.devRef .tc main_arg6) (Finset.mem_filter.mpr ⟨StableHlo.devRef_mem_tcRefs main_arg6, by decide⟩)).trans (Gen.V10_main_arg6 m (outs m) c)⟩)
    (run_all m ρ)

end Cert.KernelIdeal.Hand

end
-- ==== Proof.RefOps.lean ====
/-
  The reference program's @main as a straight line of its 124 host operations, the calls of the
  functions it outlines (the two scaled exponential linear units, each through its exponential
  linear unit and two selections, and the variance through one selection) unfolded at their call
  sites over the buffers of each call's record. The line is cut into four consecutive stretches:
    sA  the first affine layer and its activation                      (24 operations, ends at main_v5)
    sB  the column mean and the column variance of that activation     (28 operations, main_v8 and main_v9)
    sC  the normalisation, the second affine layer and its activation  (40 operations, ends at main_v30)
    sT  the pairwise affinities of the embedded points                 (32 operations, ends at main_v54)
  and the run of @main is read as the fold of the four stretches' results over the launch contents.
-/
import proofs.«123053_j26680336843043_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev sA : List (HloOp τ sig (Elt F)) :=
  [ unary main_arg1 main_v0 ((transpose S784x128 [1, 0] · transposes_S128x784_S784x128_1_0) : (⟨S128x784, .f32⟩ : BufTy).Contents (Elt F) → (⟨S784x128, .f32⟩ : BufTy).Contents (Elt F)),
    binary main_arg0 main_v0 main_v1 ((fun l r => Host.dotGeneral dot_S8192x784_S784x128_S8192x128_1_0_0_1_n_n none l r) : (⟨S8192x784, .f32⟩ : BufTy).Contents (Elt F) → (⟨S784x128, .f32⟩ : BufTy).Contents (Elt F) → (⟨S8192x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S8192x128 ![0, 1] bcast_S1x128_S8192x128_0_1 : (⟨S1x128, .f32⟩ : BufTy).Contents (Elt F) → (⟨S8192x128, .f32⟩ : BufTy).Contents (Elt F)),
    binary main_v1 main_v3 main_v4 (addf : (⟨S8192x128, .f32⟩ : BufTy).Contents (Elt F) → (⟨S8192x128, .f32⟩ : BufTy).Contents (Elt F) → (⟨S8192x128, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S8192x128 ![] bcast_S_S8192x128),
    TRef.binary (.of main_v4 : StableHlo.TRef sig ⟨S8192x128, .f32⟩) main_call0.call0.v0 main_call0.call0.v1 (cmpf .ogt),
    TRef.nullary main_call0.call0.cst_0 (constant S_ .f32 0x00000000#32),
    TRef.unary main_call0.call0.cst_0 main_call0.call0.v2 (broadcastInDim S8192x128 ![] bcast_S_S8192x128),
    TRef.binary (.of main_v4 : StableHlo.TRef sig ⟨S8192x128, .f32⟩) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S8192x128 ![] bcast_S_S8192x128),
    TRef.ternary main_call0.call0.v3 main_call0.call0.call0.v1 (.of main_v4 : StableHlo.TRef sig ⟨S8192x128, .f32⟩) main_call0.call0.call0.v2 select,
    TRef.unary main_call0.call0.call0.v2 main_call0.call0.v5 Host.expm1,
    TRef.unary main_call0.cst main_call0.call0.v6 id,
    TRef.unary main_call0.call0.v6 main_call0.call0.v7 (broadcastInDim S8192x128 ![] bcast_S_S8192x128),
    TRef.binary main_call0.call0.v7 main_call0.call0.v5 main_call0.call0.v8 mulf,
    TRef.ternary main_call0.call0.v1 (.of main_v4 : StableHlo.TRef sig ⟨S8192x128, .f32⟩) main_call0.call0.v8 main_call0.call0.call1.v0 select,
    TRef.nullary main_call0.cst_0 (constant S_ .f32 0x3F867D5F#32),
    TRef.unary main_call0.cst_0 main_call0.v1 (broadcastInDim S8192x128 ![] bcast_S_S8192x128),
    TRef.binary main_call0.v1 main_call0.call0.call1.v0 main_call0.v2 mulf ]

abbrev sB : List (HloOp τ sig (Elt F)) :=
  [ nullary main_cst (constant S_ .f32 0x00000000#32),
    binary main_v5 main_cst main_v6 ((fun x v => Host.reduceAdd x v reducesTo_S8192x128_S128_d0 h_S_) : (⟨S8192x128, .f32⟩ : BufTy).Contents (Elt F) → (⟨S_, .f32⟩ : BufTy).Contents (Elt F) → (⟨S128, .f32⟩ : BufTy).Contents (Elt F)),
    nullary main_cst_0 (constant S_ .f32 0x46000000#32),
    unary main_cst_0 main_v7 (broadcastInDim S128 ![] bcast_S_S128 : (⟨S_, .f32⟩ : BufTy).Contents (Elt F) → (⟨S128, .f32⟩ : BufTy).Contents (Elt F)),
    binary main_v6 main_v7 main_v8 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call1.cst (constant S_ .f32 0x00000000#32),
    TRef.binary (.of main_v5 : StableHlo.TRef sig ⟨S8192x128, .f32⟩) main_call1.cst main_call1.v0 (fun x v => Host.reduceAdd x v reducesTo_S8192x128_S128_d0 h_S_),
    TRef.unary main_call1.v0 main_call1.v1 (broadcastInDim S1x128 ![1] bcast_S128_S1x128_1),
    TRef.nullary main_call1.cst_0 (constant S_ .f32 0x46000000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S8192x128 ![0, 1] bcast_S1x128_S8192x128_0_1),
    TRef.binary (.of main_v5 : StableHlo.TRef sig ⟨S8192x128, .f32⟩) main_call1.v4 main_call1.v5 subf,
    TRef.binary main_call1.v5 main_call1.v5 main_call1.v6 mulf,
    TRef.unary (.of main_c : StableHlo.TRef sig ⟨S_, .i32⟩) main_call1.v7 (sitofp .f32),
    TRef.nullary main_call1.cst_1 (constant S_ .f32 0x46000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S8192x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

abbrev sC : List (HloOp τ sig (Elt F)) :=
  [ unary main_v8 main_v10 (broadcastInDim S1x128 ![1] bcast_S128_S1x128_1 : (⟨S128, .f32⟩ : BufTy).Contents (Elt F) → (⟨S1x128, .f32⟩ : BufTy).Contents (Elt F)),
    unary main_v10 main_v11 (broadcastInDim S8192x128 ![0, 1] bcast_S1x128_S8192x128_0_1 : (⟨S1x128, .f32⟩ : BufTy).Contents (Elt F) → (⟨S8192x128, .f32⟩ : BufTy).Contents (Elt F)),
    binary main_v5 main_v11 main_v12 (subf : (⟨S8192x128, .f32⟩ : BufTy).Contents (Elt F) → (⟨S8192x128, .f32⟩ : BufTy).Contents (Elt F) → (⟨S8192x128, .f32⟩ : BufTy).Contents (Elt F)),
    nullary main_cst_1 (constant S_ .f32 0x3727C5AC#32),
    unary main_cst_1 main_v13 (broadcastInDim S128 ![] bcast_S_S128 : (⟨S_, .f32⟩ : BufTy).Contents (Elt F) → (⟨S128, .f32⟩ : BufTy).Contents (Elt F)),
    binary main_v9 main_v13 main_v14 (addf : (⟨S128, .f32⟩ : BufTy).Contents (Elt F) → (⟨S128, .f32⟩ : BufTy).Contents (Elt F) → (⟨S128, .f32⟩ : BufTy).Contents (Elt F)),
    unary main_v14 main_v15 (Host.rsqrt : (⟨S128, .f32⟩ : BufTy).Contents (Elt F) → (⟨S128, .f32⟩ : BufTy).Contents (Elt F)),
    unary main_v15 main_v16 (broadcastInDim S1x128 ![1] bcast_S128_S1x128_1 : (⟨S128, .f32⟩ : BufTy).Contents (Elt F) → (⟨S1x128, .f32⟩ : BufTy).Contents (Elt F)),
    unary main_v16 main_v17 (broadcastInDim S8192x128 ![0, 1] bcast_S1x128_S8192x128_0_1 : (⟨S1x128, .f32⟩ : BufTy).Contents (Elt F) → (⟨S8192x128, .f32⟩ : BufTy).Contents (Elt F)),
    binary main_v12 main_v17 main_v18 (mulf : (⟨S8192x128, .f32⟩ : BufTy).Contents (Elt F) → (⟨S8192x128, .f32⟩ : BufTy).Contents (Elt F) → (⟨S8192x128, .f32⟩ : BufTy).Contents (Elt F)),
    unary main_arg3 main_v19 (broadcastInDim S1x128 ![1] bcast_S128_S1x128_1 : (⟨S128, .f32⟩ : BufTy).Contents (Elt F) → (⟨S1x128, .f32⟩ : BufTy).Contents (Elt F)),
    unary main_v19 main_v20 (broadcastInDim S8192x128 ![0, 1] bcast_S1x128_S8192x128_0_1 : (⟨S1x128, .f32⟩ : BufTy).Contents (Elt F) → (⟨S8192x128, .f32⟩ : BufTy).Contents (Elt F)),
    binary main_v18 main_v20 main_v21 (mulf : (⟨S8192x128, .f32⟩ : BufTy).Contents (Elt F) → (⟨S8192x128, .f32⟩ : BufTy).Contents (Elt F) → (⟨S8192x128, .f32⟩ : BufTy).Contents (Elt F)),
    unary main_arg4 main_v22 (broadcastInDim S1x128 ![1] bcast_S128_S1x128_1 : (⟨S128, .f32⟩ : BufTy).Contents (Elt F) → (⟨S1x128, .f32⟩ : BufTy).Contents (Elt F)),
    unary main_v22 main_v23 (broadcastInDim S8192x128 ![0, 1] bcast_S1x128_S8192x128_0_1 : (⟨S1x128, .f32⟩ : BufTy).Contents (Elt F) → (⟨S8192x128, .f32⟩ : BufTy).Contents (Elt F)),
    binary main_v21 main_v23 main_v24 (addf : (⟨S8192x128, .f32⟩ : BufTy).Contents (Elt F) → (⟨S8192x128, .f32⟩ : BufTy).Contents (Elt F) → (⟨S8192x128, .f32⟩ : BufTy).Contents (Elt F)),
    unary main_arg5 main_v25 ((transpose S128x2 [1, 0] · transposes_S2x128_S128x2_1_0) : (⟨S2x128, .f32⟩ : BufTy).Contents (Elt F) → (⟨S128x2, .f32⟩ : BufTy).Contents (Elt F)),
    binary main_v24 main_v25 main_v26 ((fun l r => Host.dotGeneral dot_S8192x128_S128x2_S8192x2_1_0_0_1_n_n none l r) : (⟨S8192x128, .f32⟩ : BufTy).Contents (Elt F) → (⟨S128x2, .f32⟩ : BufTy).Contents (Elt F) → (⟨S8192x2, .f32⟩ : BufTy).Contents (Elt F)),
    unary main_arg6 main_v27 (broadcastInDim S1x2 ![1] bcast_S2_S1x2_1 : (⟨S2, .f32⟩ : BufTy).Contents (Elt F) → (⟨S1x2, .f32⟩ : BufTy).Contents (Elt F)),
    unary main_v27 main_v28 (broadcastInDim S8192x2 ![0, 1] bcast_S1x2_S8192x2_0_1 : (⟨S1x2, .f32⟩ : BufTy).Contents (Elt F) → (⟨S8192x2, .f32⟩ : BufTy).Contents (Elt F)),
    binary main_v26 main_v28 main_v29 (addf : (⟨S8192x2, .f32⟩ : BufTy).Contents (Elt F) → (⟨S8192x2, .f32⟩ : BufTy).Contents (Elt F) → (⟨S8192x2, .f32⟩ : BufTy).Contents (Elt F)),
    TRef.nullary main_call2.cst (constant S_ .f32 0x3FD62D7D#32),
    TRef.nullary main_call2.call0.cst (constant S_ .f32 0x00000000#32),
    TRef.unary main_call2.call0.cst main_call2.call0.v0 (broadcastInDim S8192x2 ![] bcast_S_S8192x2),
    TRef.binary (.of main_v29 : StableHlo.TRef sig ⟨S8192x2, .f32⟩) main_call2.call0.v0 main_call2.call0.v1 (cmpf .ogt),
    TRef.nullary main_call2.call0.cst_0 (constant S_ .f32 0x00000000#32),
    TRef.unary main_call2.call0.cst_0 main_call2.call0.v2 (broadcastInDim S8192x2 ![] bcast_S_S8192x2),
    TRef.binary (.of main_v29 : StableHlo.TRef sig ⟨S8192x2, .f32⟩) main_call2.call0.v2 main_call2.call0.v3 (cmpf .ogt),
    TRef.nullary main_call2.call0.cst_1 (constant S_ .f32 0x00000000#32),
    TRef.unary main_call2.call0.cst_1 main_call2.call0.call0.v0 id,
    TRef.unary main_call2.call0.call0.v0 main_call2.call0.call0.v1 (broadcastInDim S8192x2 ![] bcast_S_S8192x2),
    TRef.ternary main_call2.call0.v3 main_call2.call0.call0.v1 (.of main_v29 : StableHlo.TRef sig ⟨S8192x2, .f32⟩) main_call2.call0.call0.v2 select,
    TRef.unary main_call2.call0.call0.v2 main_call2.call0.v5 Host.expm1,
    TRef.unary main_call2.cst main_call2.call0.v6 id,
    TRef.unary main_call2.call0.v6 main_call2.call0.v7 (broadcastInDim S8192x2 ![] bcast_S_S8192x2),
    TRef.binary main_call2.call0.v7 main_call2.call0.v5 main_call2.call0.v8 mulf,
    TRef.ternary main_call2.call0.v1 (.of main_v29 : StableHlo.TRef sig ⟨S8192x2, .f32⟩) main_call2.call0.v8 main_call2.call0.call1.v0 select,
    TRef.nullary main_call2.cst_0 (constant S_ .f32 0x3F867D5F#32),
    TRef.unary main_call2.cst_0 main_call2.v1 (broadcastInDim S8192x2 ![] bcast_S_S8192x2),
    TRef.binary main_call2.v1 main_call2.call0.call1.v0 main_call2.v2 mulf ]

abbrev sT : List (HloOp τ sig (Elt F)) :=
  [ binary main_v30 main_v30 main_v31 (mulf : (⟨S8192x2, .f32⟩ : BufTy).Contents (Elt F) → (⟨S8192x2, .f32⟩ : BufTy).Contents (Elt F) → (⟨S8192x2, .f32⟩ : BufTy).Contents (Elt F)),
    nullary main_cst_2 (constant S_ .f32 0x00000000#32),
    binary main_v31 main_cst_2 main_v32 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    unary main_v32 main_v33 (broadcastInDim S8192x1 ![0] bcast_S8192_S8192x1_0 : (⟨S8192, .f32⟩ : BufTy).Contents (Elt F) → (⟨S8192x1, .f32⟩ : BufTy).Contents (Elt F)),
    unary main_v32 main_v34 (broadcastInDim S1x8192 ![1] bcast_S8192_S1x8192_1 : (⟨S8192, .f32⟩ : BufTy).Contents (Elt F) → (⟨S1x8192, .f32⟩ : BufTy).Contents (Elt F)),
    unary main_v33 main_v35 (broadcastInDim S8192x8192 ![0, 1] bcast_S8192x1_S8192x8192_0_1 : (⟨S8192x1, .f32⟩ : BufTy).Contents (Elt F) → (⟨S8192x8192, .f32⟩ : BufTy).Contents (Elt F)),
    unary main_v34 main_v36 (broadcastInDim S8192x8192 ![0, 1] bcast_S1x8192_S8192x8192_0_1 : (⟨S1x8192, .f32⟩ : BufTy).Contents (Elt F) → (⟨S8192x8192, .f32⟩ : BufTy).Contents (Elt F)),
    binary main_v35 main_v36 main_v37 (addf : (⟨S8192x8192, .f32⟩ : BufTy).Contents (Elt F) → (⟨S8192x8192, .f32⟩ : BufTy).Contents (Elt F) → (⟨S8192x8192, .f32⟩ : BufTy).Contents (Elt F)),
    unary main_v30 main_v38 ((transpose S2x8192 [1, 0] · transposes_S8192x2_S2x8192_1_0) : (⟨S8192x2, .f32⟩ : BufTy).Contents (Elt F) → (⟨S2x8192, .f32⟩ : BufTy).Contents (Elt F)),
    binary main_v30 main_v38 main_v39 ((fun l r => Host.dotGeneral dot_S8192x2_S2x8192_S8192x8192_1_0_0_1_n_n none l r) : (⟨S8192x2, .f32⟩ : BufTy).Contents (Elt F) → (⟨S2x8192, .f32⟩ : BufTy).Contents (Elt F) → (⟨S8192x8192, .f32⟩ : BufTy).Contents (Elt F)),
    nullary main_cst_3 (constant S_ .f32 0x40000000#32),
    unary main_cst_3 main_v40 (broadcastInDim S8192x8192 ![] bcast_S_S8192x8192 : (⟨S_, .f32⟩ : BufTy).Contents (Elt F) → (⟨S8192x8192, .f32⟩ : BufTy).Contents (Elt F)),
    binary main_v40 main_v39 main_v41 (mulf : (⟨S8192x8192, .f32⟩ : BufTy).Contents (Elt F) → (⟨S8192x8192, .f32⟩ : BufTy).Contents (Elt F) → (⟨S8192x8192, .f32⟩ : BufTy).Contents (Elt F)),
    binary main_v37 main_v41 main_v42 (subf : (⟨S8192x8192, .f32⟩ : BufTy).Contents (Elt F) → (⟨S8192x8192, .f32⟩ : BufTy).Contents (Elt F) → (⟨S8192x8192, .f32⟩ : BufTy).Contents (Elt F)),
    nullary main_cst_4 (constant S_ .f32 0x00000000#32),
    unary main_cst_4 main_v43 (broadcastInDim S8192x8192 ![] bcast_S_S8192x8192 : (⟨S_, .f32⟩ : BufTy).Contents (Elt F) → (⟨S8192x8192, .f32⟩ : BufTy).Contents (Elt F)),
    binary main_v42 main_v43 main_v44 (maximumf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x3F800000#32),
    unary main_cst_5 main_v45 (broadcastInDim S8192x8192 ![] bcast_S_S8192x8192 : (⟨S_, .f32⟩ : BufTy).Contents (Elt F) → (⟨S8192x8192, .f32⟩ : BufTy).Contents (Elt F)),
    binary main_v45 main_v44 main_v46 (addf : (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0x3F800000#32),
    unary main_cst_6 main_v47 (broadcastInDim S8192x8192 ![] bcast_S_S8192x8192 : (⟨S_, .f32⟩ : BufTy).Contents (Elt F) → (⟨S8192x8192, .f32⟩ : BufTy).Contents (Elt F)),
    binary main_v47 main_v46 main_v48 (Host.divf : (⟨S8192x8192, .f32⟩ : BufTy).Contents (Elt F) → (⟨S8192x8192, .f32⟩ : BufTy).Contents (Elt F) → (⟨S8192x8192, .f32⟩ : BufTy).Contents (Elt F)),
    nullary main_cst_7 (constant S_ .f32 0x00000000#32),
    binary main_v48 main_cst_7 main_v49 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_8 (constant S_ .f32 0x3F800000#32),
    unary main_cst_8 main_v50 (broadcastInDim S8192 ![] bcast_S_S8192 : (⟨S_, .f32⟩ : BufTy).Contents (Elt F) → (⟨S8192, .f32⟩ : BufTy).Contents (Elt F)),
    binary main_v49 main_v50 main_v51 (subf : (⟨S8192, .f32⟩ : BufTy).Contents (Elt F) → (⟨S8192, .f32⟩ : BufTy).Contents (Elt F) → (⟨S8192, .f32⟩ : BufTy).Contents (Elt F)),
    nullary main_cst_9 (constant S_ .f32 0x00000000#32),
    binary main_v51 main_cst_9 main_v52 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v52 main_v53 (broadcastInDim S8192x8192 ![] bcast_S_S8192x8192 : (⟨S_, .f32⟩ : BufTy).Contents (Elt F) → (⟨S8192x8192, .f32⟩ : BufTy).Contents (Elt F)),
    binary main_v48 main_v53 main_v54 (Host.divf : (⟨S8192x8192, .f32⟩ : BufTy).Contents (Elt F) → (⟨S8192x8192, .f32⟩ : BufTy).Contents (Elt F) → (⟨S8192x8192, .f32⟩ : BufTy).Contents (Elt F)) ]

/-- @main's operations, in order. -/
abbrev ops : List (HloOp τ sig (Elt F)) := sA ++ (sB ++ (sC ++ sT))

set_option maxRecDepth 8192 in
set_option maxHeartbeats 4000000 in
/-- @main is that straight line: the outlined functions unfold at their calls, the records at their fields. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem sA_sub : (sA : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
set_option maxRecDepth 8192 in
theorem sB_sub : (sB : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem sC_sub : (sC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩
set_option maxRecDepth 8192 in
theorem sT_sub : (sT : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp sA_sub op h, List.forall_iff_forall_mem.mp sB_sub op h,
      List.forall_iff_forall_mem.mp sC_sub op h, List.forall_iff_forall_mem.mp sT_sub op h]

set_option maxRecDepth 8192 in
theorem sA_fresh : ∀ op ∈ (sA : List (HloOp τ sig (Elt F))), op.fresh = ∅ := by
  intro _ h; (repeat (cases h with | head => rfl | tail _ h => ?_)); exact nomatch h
set_option maxRecDepth 8192 in
theorem sB_fresh : ∀ op ∈ (sB : List (HloOp τ sig (Elt F))), op.fresh = ∅ := by
  intro _ h; (repeat (cases h with | head => rfl | tail _ h => ?_)); exact nomatch h
set_option maxRecDepth 8192 in
theorem sC_fresh : ∀ op ∈ (sC : List (HloOp τ sig (Elt F))), op.fresh = ∅ := by
  intro _ h; (repeat (cases h with | head => rfl | tail _ h => ?_)); exact nomatch h
set_option maxRecDepth 8192 in
theorem sT_fresh : ∀ op ∈ (sT : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h
  exacts [sA_fresh op h, sB_fresh op h, sC_fresh op h, sT_fresh op h]

/-- Two lines run one after the other fold as the second over the first's contents. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole line's fold is the four stretches' folds in order. -/
theorem after_ops (V : Valuation τ sig (Elt F)) :
    after ops V = after sT (after sC (after sB (after sA V))) := by
  simp only [ops, after_app]

/-- On every device, from any memory with zero counters: every weakly fair execution of @main terminates, and
    each buffer ends at the fold of the operations' results over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## What each stretch writes, and that it leaves every other buffer -/

abbrev sA_W : List (Ref sig .tc) := [main_v0, main_v1, main_v2, main_v3, main_v4, main_call0.cst.ref, main_call0.call0.cst.ref, main_call0.call0.v0.ref, main_call0.call0.v1.ref, main_call0.call0.cst_0.ref, main_call0.call0.v2.ref, main_call0.call0.v3.ref, main_call0.call0.cst_1.ref, main_call0.call0.call0.v0.ref, main_call0.call0.call0.v1.ref, main_call0.call0.call0.v2.ref, main_call0.call0.v5.ref, main_call0.call0.v6.ref, main_call0.call0.v7.ref, main_call0.call0.v8.ref, main_call0.call0.call1.v0.ref, main_call0.cst_0.ref, main_call0.v1.ref, main_call0.v2.ref]
abbrev sB_W : List (Ref sig .tc) := [main_cst, main_v6, main_cst_0, main_v7, main_v8, main_c, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]
abbrev sC_W : List (Ref sig .tc) := [main_v10, main_v11, main_v12, main_cst_1, main_v13, main_v14, main_v15, main_v16, main_v17, main_v18, main_v19, main_v20, main_v21, main_v22, main_v23, main_v24, main_v25, main_v26, main_v27, main_v28, main_v29, main_call2.cst.ref, main_call2.call0.cst.ref, main_call2.call0.v0.ref, main_call2.call0.v1.ref, main_call2.call0.cst_0.ref, main_call2.call0.v2.ref, main_call2.call0.v3.ref, main_call2.call0.cst_1.ref, main_call2.call0.call0.v0.ref, main_call2.call0.call0.v1.ref, main_call2.call0.call0.v2.ref, main_call2.call0.v5.ref, main_call2.call0.v6.ref, main_call2.call0.v7.ref, main_call2.call0.v8.ref, main_call2.call0.call1.v0.ref, main_call2.cst_0.ref, main_call2.v1.ref, main_call2.v2.ref]
abbrev sT_W : List (Ref sig .tc) := [main_v31, main_cst_2, main_v32, main_v33, main_v34, main_v35, main_v36, main_v37, main_v38, main_v39, main_cst_3, main_v40, main_v41, main_v42, main_cst_4, main_v43, main_v44, main_cst_5, main_v45, main_v46, main_cst_6, main_v47, main_v48, main_cst_7, main_v49, main_cst_8, main_v50, main_v51, main_cst_9, main_v52, main_v53, main_v54]

set_option maxRecDepth 8192 in
theorem sA_writes : (sA : List (HloOp τ sig (Elt F))).Forall fun op => op.writes ⊆ (sA_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide)⟩
set_option maxRecDepth 8192 in
theorem sB_writes : (sB : List (HloOp τ sig (Elt F))).Forall fun op => op.writes ⊆ (sB_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide)⟩
set_option maxRecDepth 8192 in
theorem sC_writes : (sC : List (HloOp τ sig (Elt F))).Forall fun op => op.writes ⊆ (sC_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide)⟩
set_option maxRecDepth 8192 in
theorem sT_writes : (sT : List (HloOp τ sig (Elt F))).Forall fun op => op.writes ⊆ (sT_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide),
      by simp only [nullary_writes, unary_writes, binary_writes, ternary_writes, Finset.singleton_subset_iff, List.mem_toFinset]; exact List.mem_map_of_mem (by decide)⟩

theorem sA_keep (V : Valuation τ sig (Elt F)) (r : Ref sig .tc) (h : r ∉ sA_W) :
    after sA V (Proc.devRef .tc r) = V (Proc.devRef .tc r) := after_of_writes_sub sA V sA_writes h
theorem sB_keep (V : Valuation τ sig (Elt F)) (r : Ref sig .tc) (h : r ∉ sB_W) :
    after sB V (Proc.devRef .tc r) = V (Proc.devRef .tc r) := after_of_writes_sub sB V sB_writes h
theorem sC_keep (V : Valuation τ sig (Elt F)) (r : Ref sig .tc) (h : r ∉ sC_W) :
    after sC V (Proc.devRef .tc r) = V (Proc.devRef .tc r) := after_of_writes_sub sC V sC_writes h
theorem sT_keep (V : Valuation τ sig (Elt F)) (r : Ref sig .tc) (h : r ∉ sT_W) :
    after sT V (Proc.devRef .tc r) = V (Proc.devRef .tc r) := after_of_writes_sub sT V sT_writes h

end Cert.ReferenceIdeal.Hand

end
-- ==== Proof.RefFn.lean ====
/-
  The reference program's two results as functions of its arguments' contents, the host operations
  composed by hand and named stage by stage.

  The embedding head (an array x of 8192 rows, two affine layers):
    layer1 x W₁ b₁            = selu (x · W₁ᵀ + b₁)                                  8192 × 128
    colMean y, colVar y        the mean and the (biased) variance of each column of y   128
    layer2 y μ σ² γ β W₂ b₂   = selu (((y − μ) · rsqrt (σ² + ε) · γ + β) · W₂ᵀ + b₂)   8192 × 2
    head                       = layer2 over layer1's value, its column mean and variance
  where selu x = λ · (x if x > 0 else α · expm1 (0 if x > 0 else x)), written exactly as the program nests its
  selections and constants.

  The pairwise-affinity tail of the embedded points o (8192 × 2):
    sqv o i    = 0 + Σₖ o i k · o i k
    dist o i j = (sqv o i + sqv o j) − 2 · Σₖ o i k · o j k
    qn o i j   = 1 / (1 + max (dist o i j) 0)
    den o      = 0 + Σᵢ ((0 + Σⱼ qn o i j) − 1)
    tail o i j = qn o i j / den o
-/
import proofs.«123053_j26680336843043_1_alg».proof.Proof.Gen.ReferenceIdeal
import Idealize.ShloMosaic.PureOps.Ideal

noncomputable section

namespace Cert.ReferenceIdeal.Hand

open Cert.ReferenceIdeal Cert.ReferenceIdeal.Gen Idealize.ShloMosaic

variable {F : FTy → Type} [FloatOps F]

/-- The scaled exponential linear unit over an array of shape `S`, as the program nests it: the scale times the
    selection between `x` (where `x > 0`) and `α · expm1` of the selection between `0` (where `x > 0`) and `x`. -/
def selu (S : Shape) (hb : S_.BroadcastsInDim S (![] : Fin 0 → Fin S.rank)) (x : FVec F S .f32) : FVec F S .f32 :=
  mulf (broadcastInDim S ![] hb (constant S_ .f32 0x3F867D5F#32))
    (select (cmpf .ogt x (broadcastInDim S ![] hb (constant S_ .f32 0x00000000#32))) x
      (mulf (broadcastInDim S ![] hb (constant S_ .f32 0x3FD62D7D#32))
        (Host.expm1 (select (cmpf .ogt x (broadcastInDim S ![] hb (constant S_ .f32 0x00000000#32)))
          (broadcastInDim S ![] hb (constant S_ .f32 0x00000000#32)) x))))

/-- A vector of 128 entries as the 8192 × 128 array whose every row it is. -/
def rowB (v : FVec F S128 .f32) : FVec F S8192x128 .f32 :=
  broadcastInDim S8192x128 ![0, 1] bcast_S1x128_S8192x128_0_1 (broadcastInDim S1x128 ![1] bcast_S128_S1x128_1 v)

/-- The first affine layer and its activation. -/
def layer1 (a0 : FVec F S8192x784 .f32) (a1 : FVec F S128x784 .f32) (a2 : FVec F S128 .f32) : FVec F S8192x128 .f32 :=
  selu S8192x128 bcast_S_S8192x128
    (addf (Host.dotGeneral dot_S8192x784_S784x128_S8192x128_1_0_0_1_n_n none a0
        (transpose S784x128 [1, 0] a1 transposes_S128x784_S784x128_1_0))
      (rowB a2))

/-- The mean of each column: the column sums divided by 8192. -/
def colMean (y : FVec F S8192x128 .f32) : FVec F S128 .f32 :=
  Host.divf (Host.reduceAdd y (constant S_ .f32 0x00000000#32) reducesTo_S8192x128_S128_d0 h_S_)
    (broadcastInDim S128 ![] bcast_S_S128 (constant S_ .f32 0x46000000#32))

/-- The variance's divisor: 8192 minus the zero correction, as a scalar. -/
def ddofN : FVec F S_ .f32 :=
  subf (constant S_ .f32 0x46000000#32) (sitofp .f32 (constantI S_ 32 0#32))

/-- The array minus its column means (the means computed as a 1 × 128 array). -/
def centred (y : FVec F S8192x128 .f32) : FVec F S8192x128 .f32 :=
  subf y (broadcastInDim S8192x128 ![0, 1] bcast_S1x128_S8192x128_0_1
    (Host.divf
      (broadcastInDim S1x128 ![1] bcast_S128_S1x128_1
        (Host.reduceAdd y (constant S_ .f32 0x00000000#32) reducesTo_S8192x128_S128_d0 h_S_))
      (broadcastInDim S1x128 ![] bcast_S_S1x128 (constant S_ .f32 0x46000000#32))))

/-- The variance of each column: the column sums of the squared centred array divided by the divisor where the
    divisor is positive, the not-a-number constant elsewhere. -/
def colVar (y : FVec F S8192x128 .f32) : FVec F S128 .f32 :=
  select (broadcastInDim S128 ![] bcast_S_S128 (cmpf .ogt (ddofN (F := F)) (constant S_ .f32 0x00000000#32)))
    (Host.divf
      (Host.reduceAdd (mulf (centred y) (centred y)) (constant S_ .f32 0x00000000#32) reducesTo_S8192x128_S128_d0 h_S_)
      (broadcastInDim S128 ![] bcast_S_S128 ddofN))
    (broadcastInDim S128 ![] bcast_S_S128 (constant S_ .f32 0x7FC00000#32))

/-- The normalisation by the column statistics, the second affine layer and its activation. -/
def layer2 (y : FVec F S8192x128 .f32) (mu var a3 a4 : FVec F S128 .f32) (a5 : FVec F S2x128 .f32) (a6 : FVec F S2 .f32) :
    FVec F S8192x2 .f32 :=
  selu S8192x2 bcast_S_S8192x2
    (addf (Host.dotGeneral dot_S8192x128_S128x2_S8192x2_1_0_0_1_n_n none
        (addf (mulf (mulf (subf y (rowB mu))
              (rowB (Host.rsqrt (addf var (broadcastInDim S128 ![] bcast_S_S128 (constant S_ .f32 0x3727C5AC#32))))))
            (rowB a3))
          (rowB a4))
        (transpose S128x2 [1, 0] a5 transposes_S2x128_S128x2_1_0))
      (broadcastInDim S8192x2 ![0, 1] bcast_S1x2_S8192x2_0_1 (broadcastInDim S1x2 ![1] bcast_S2_S1x2_1 a6)))

/-- The embedded points, for any float values. -/
def headF (a0 : FVec F S8192x784 .f32) (a1 : FVec F S128x784 .f32) (a2 a3 a4 : FVec F S128 .f32) (a5 : FVec F S2x128 .f32)
    (a6 : FVec F S2 .f32) : FVec F S8192x2 .f32 :=
  layer2 (layer1 a0 a1 a2) (colMean (layer1 a0 a1 a2)) (colVar (layer1 a0 a1 a2)) a3 a4 a5 a6

/-- The squared norm of each point: the row sums of the squared coordinates, from zero. -/
def sqv (o : FVec F S8192x2 .f32) : FVec F S8192 .f32 :=
  Host.reduceAdd (mulf o o) (constant S_ .f32 0x00000000#32) reducesTo_S8192x2_S8192_d1 h_S_

/-- The squared distances by the inner-product identity, unclamped. -/
def dist (o : FVec F S8192x2 .f32) : FVec F S8192x8192 .f32 :=
  subf
    (addf
      (broadcastInDim S8192x8192 ![0, 1] bcast_S8192x1_S8192x8192_0_1 (broadcastInDim S8192x1 ![0] bcast_S8192_S8192x1_0 (sqv o)))
      (broadcastInDim S8192x8192 ![0, 1] bcast_S1x8192_S8192x8192_0_1 (broadcastInDim S1x8192 ![1] bcast_S8192_S1x8192_1 (sqv o))))
    (mulf (broadcastInDim S8192x8192 ![] bcast_S_S8192x8192 (constant S_ .f32 0x40000000#32))
      (Host.dotGeneral dot_S8192x2_S2x8192_S8192x8192_1_0_0_1_n_n none o
        (transpose S2x8192 [1, 0] o transposes_S8192x2_S2x8192_1_0)))

/-- The unnormalised affinities: one over one plus the clamped squared distance. -/
def qn (o : FVec F S8192x2 .f32) : FVec F S8192x8192 .f32 :=
  Host.divf (broadcastInDim S8192x8192 ![] bcast_S_S8192x8192 (constant S_ .f32 0x3F800000#32))
    (addf (broadcastInDim S8192x8192 ![] bcast_S_S8192x8192 (constant S_ .f32 0x3F800000#32))
      (maximumf (dist o) (broadcastInDim S8192x8192 ![] bcast_S_S8192x8192 (constant S_ .f32 0x00000000#32))))

/-- The divisor: the sum over the rows of (the row sum of the affinities minus one), each sum from zero. -/
def den (o : FVec F S8192x2 .f32) : FVec F S_ .f32 :=
  Host.reduceAdd
    (subf (Host.reduceAdd (qn o) (constant S_ .f32 0x00000000#32) reducesTo_S8192x8192_S8192_d1 h_S_)
      (broadcastInDim S8192 ![] bcast_S_S8192 (constant S_ .f32 0x3F800000#32)))
    (constant S_ .f32 0x00000000#32) reducesTo_S8192_S_d0 h_S_

/-- The affinities, for any float values. -/
def tailF (o : FVec F S8192x2 .f32) : FVec F S8192x8192 .f32 :=
  Host.divf (qn o) (broadcastInDim S8192x8192 ![] bcast_S_S8192x8192 (den o))

/-- The embedded points as a function of the seven arguments' contents, on the extended reals. -/
def head (a0 : FVec Ideal S8192x784 .f32) (a1 : FVec Ideal S128x784 .f32) (a2 a3 a4 : FVec Ideal S128 .f32)
    (a5 : FVec Ideal S2x128 .f32) (a6 : FVec Ideal S2 .f32) : FVec Ideal S8192x2 .f32 :=
  headF a0 a1 a2 a3 a4 a5 a6

/-- The affinity matrix as a function of the embedded points, on the extended reals. -/
def tail (o : FVec Ideal S8192x2 .f32) : FVec Ideal S8192x8192 .f32 := tailF o

end Cert.ReferenceIdeal.Hand

end
-- ==== Proof.RefRun.lean ====
/-
  The reference program's run, read at its two results and its seven arguments.

  Each of the four stretches of @main's operations is read from ANY buffer contents `V`: the buffer a stretch
  ends at holds the stage's function (RefFn.lean) of the contents of the buffers the stretch reads, and a buffer
  the stretch does not write keeps its contents. Chained over the four stretches: main_v30 ends at `headF` of the
  arguments' launch contents, main_v54 at `tailF` of that, the arguments are unchanged.
-/
import proofs.«123053_j26680336843043_1_alg».proof.Proof.RefOps
import proofs.«123053_j26680336843043_1_alg».proof.Proof.RefFn

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Each stretch, from any contents -/

set_option maxRecDepth 8192 in
set_option maxHeartbeats 2000000 in
/-- The first stretch ends with the first layer's activation in main_v5. -/
theorem sA_v5 (V : Valuation τ sig (Elt F)) :
    after sA V (Proc.devRef .tc main_v5) = layer1 (V (Proc.devRef .tc main_arg0)) (V (Proc.devRef .tc main_arg1)) (V (Proc.devRef .tc main_arg2)) := by
  simp only [sA]
  after_results_simp
  rfl

set_option maxRecDepth 8192 in
set_option maxHeartbeats 2000000 in
/-- The second stretch leaves the column means of main_v5 in main_v8. -/
theorem sB_v8 (V : Valuation τ sig (Elt F)) :
    after sB V (Proc.devRef .tc main_v8) = colMean (V (Proc.devRef .tc main_v5)) := by
  simp only [sB]
  after_results_simp
  rfl

set_option maxRecDepth 8192 in
set_option maxHeartbeats 2000000 in
/-- The second stretch leaves the column variances of main_v5 in main_v9. -/
theorem sB_v9 (V : Valuation τ sig (Elt F)) :
    after sB V (Proc.devRef .tc main_v9) = colVar (V (Proc.devRef .tc main_v5)) := by
  simp only [sB]
  after_results_simp
  rfl

set_option maxRecDepth 8192 in
set_option maxHeartbeats 4000000 in
/-- The third stretch ends with the embedded points in main_v30. -/
theorem sC_v30 (V : Valuation τ sig (Elt F)) :
    after sC V (Proc.devRef .tc main_v30) = layer2 (V (Proc.devRef .tc main_v5)) (V (Proc.devRef .tc main_v8)) (V (Proc.devRef .tc main_v9)) (V (Proc.devRef .tc main_arg3)) (V (Proc.devRef .tc main_arg4)) (V (Proc.devRef .tc main_arg5)) (V (Proc.devRef .tc main_arg6)) := by
  simp only [sC]
  after_results_simp
  rfl

set_option maxRecDepth 8192 in
set_option maxHeartbeats 4000000 in
/-- The last stretch ends with the affinities of main_v30's points in main_v54. -/
theorem sT_v54 (V : Valuation τ sig (Elt F)) :
    after sT V (Proc.devRef .tc main_v54) = tailF (V (Proc.devRef .tc main_v30)) := by
  simp only [sT]
  after_results_simp
  rfl

/-! ## The whole line, from any contents -/

/-- An argument buffer is written by no operation. -/
theorem ops_keep (V : Valuation τ sig (Elt F)) (r : Ref sig .tc) (hA : r ∉ sA_W) (hB : r ∉ sB_W) (hC : r ∉ sC_W) (hT : r ∉ sT_W) :
    after ops V (Proc.devRef .tc r) = V (Proc.devRef .tc r) := by
  rw [after_ops, sT_keep _ r hT, sC_keep _ r hC, sB_keep _ r hB, sA_keep _ r hA]

/-- main_v30 ends at the embedding head of the arguments' contents. -/
theorem ops_v30 (V : Valuation τ sig (Elt F)) :
    after ops V (Proc.devRef .tc main_v30) = headF (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops, sT_keep _ main_v30 (by decide), sC_v30,
    sB_keep _ main_v5 (by decide), sB_v8, sB_v9,
    sB_keep _ main_arg3 (by decide), sB_keep _ main_arg4 (by decide), sB_keep _ main_arg5 (by decide), sB_keep _ main_arg6 (by decide),
    sA_v5,
    sA_keep _ main_arg3 (by decide), sA_keep _ main_arg4 (by decide), sA_keep _ main_arg5 (by decide), sA_keep _ main_arg6 (by decide)]
  rfl

/-- main_v54 ends at the affinities of the embedding head. -/
theorem ops_v54 (V : Valuation τ sig (Elt F)) :
    after ops V (Proc.devRef .tc main_v54) = tailF (headF (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) := by
  rw [after_ops, sT_v54, sC_v30,
    sB_keep _ main_v5 (by decide), sB_v8, sB_v9,
    sB_keep _ main_arg3 (by decide), sB_keep _ main_arg4 (by decide), sB_keep _ main_arg5 (by decide), sB_keep _ main_arg6 (by decide),
    sA_v5,
    sA_keep _ main_arg3 (by decide), sA_keep _ main_arg4 (by decide), sA_keep _ main_arg5 (by decide), sA_keep _ main_arg6 (by decide)]
  rfl

/-! ## The run -/

/-- On every device, on the extended reals, from any memory with zero counters: every weakly fair execution of
    @main terminates with the affinity matrix at `tail` of the embedded points, the embedded points at `head` of the
    arguments' contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = tail (head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v30) = head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v54).trans (ops_v54 (launchContents m c)),
      (h c main_v30).trans (ops_v30 (launchContents m c)),
      (h c main_arg0).trans (ops_keep (launchContents m c) main_arg0 (by decide) (by decide) (by decide) (by decide)),
      (h c main_arg1).trans (ops_keep (launchContents m c) main_arg1 (by decide) (by decide) (by decide) (by decide)),
      (h c main_arg2).trans (ops_keep (launchContents m c) main_arg2 (by decide) (by decide) (by decide) (by decide)),
      (h c main_arg3).trans (ops_keep (launchContents m c) main_arg3 (by decide) (by decide) (by decide) (by decide)),
      (h c main_arg4).trans (ops_keep (launchContents m c) main_arg4 (by decide) (by decide) (by decide) (by decide)),
      (h c main_arg5).trans (ops_keep (launchContents m c) main_arg5 (by decide) (by decide) (by decide) (by decide)),
      (h c main_arg6).trans (ops_keep (launchContents m c) main_arg6 (by decide) (by decide) (by decide) (by decide))⟩)
    (run_all m ρ)

end Cert.ReferenceIdeal.Hand

end
-- ==== Proof.Spec.lean ====
/-
  The pairwise-affinity stage as functions of the embedded points, on the extended reals.

  For points `o i ∈ EReal²` (i < 8192):
    sqn o i      = ∑ₖ o i k · o i k                       the squared norm of point i
    cross o i j  = ∑ₖ o i k · o j k                       the inner product of points i and j
    qnum o i j   = 1 / (1 + max (sqn o i + sqn o j − 2 · cross o i j) 0)
  Two normalisations of `qnum` are compared:
    affK  multiplies every entry by the reciprocal of (the sum of all entries minus 8192);
    affR  divides every entry by the sum over rows of (the row sum minus 1).
  Division is the extended reals' `Ideal.div` (by zero: the infinity of the numerator's sign).
-/
import Idealize.ShloMosaic.PureOps.Ideal
import Idealize.ShloMosaic.Lib.ValueIdx

noncomputable section

open scoped BigOperators

namespace Cert.Pairwise

open Idealize.ShloMosaic Idealize.ShloMosaic.ValueIdx

/-- The embedded points: 8192 rows of 2 coordinates. -/
abbrev SO : Shape := ⟨2, ![8192, 2]⟩
/-- The affinity matrix: 8192 × 8192. -/
abbrev SQ : Shape := ⟨2, ![8192, 8192]⟩

variable (o : SO.Idx → EReal)

/-- Squared norm of point `i`. -/
def sqn (i : Fin 8192) : EReal := ∑ k : Fin 2, o (ix2 i k) * o (ix2 i k)

/-- Inner product of points `i` and `j`. -/
def cross (i j : Fin 8192) : EReal := ∑ k : Fin 2, o (ix2 i k) * o (ix2 j k)

/-- The clamped squared distance between points `i` and `j`. -/
def dis (i j : Fin 8192) : EReal := max (sqn o i + sqn o j - 2 * cross o i j) 0

/-- The unnormalised affinity of points `i` and `j`. -/
def qnum (i j : Fin 8192) : EReal := Ideal.div 1 (1 + dis o i j)

/-- The sum of all unnormalised affinities. -/
def total : EReal := ∑ i : Fin 8192, ∑ j : Fin 8192, qnum o i j

/-- Normalisation by the reciprocal of (total − 8192). -/
def affK : SQ.Idx → EReal := fun x => qnum o (x 0) (x 1) * Ideal.div 1 (total o - 8192)

/-- Normalisation by division by ∑ᵢ (∑ⱼ qnum i j − 1). -/
def affR : SQ.Idx → EReal := fun x => Ideal.div (qnum o (x 0) (x 1)) (∑ i : Fin 8192, ((∑ j : Fin 8192, qnum o i j) - 1))

/-- Every coordinate of every point is a real number. -/
def AllReal : Prop := ∀ x, ∃ r : ℝ, o x = (r : EReal)

end Cert.Pairwise

end
-- ==== Proof.RefTail.lean ====
/-
  The reference's affinity matrix, read entry by entry, is the specification's `affR`.

  For embedded points o (8192 rows of 2 coordinates), at the entry (i, j):
    sqv o i                        = 0 + Σₖ o i k · o i k                                 = sqn o i
    (o · oᵀ) i j                   = Σₖ o i k · o j k                                     = cross o i j
    dist o i j                     = (sqn o i + sqn o j) − 2 · cross o i j
    qn o i j                       = 1 / (1 + max (dist o i j) 0)                         = qnum o i j
    den o                          = 0 + Σᵢ ((0 + Σⱼ qnum o i j) − 1)
    tail o i j                     = qnum o i j / den o                                   = affR o (i, j)
  The column and row copies of the squared norms read the norm of the entry's row and of its column, a
  scalar copied to every entry reads the scalar, and the three literals are the reals 0, 1 and 2.
-/
import proofs.«123053_j26680336843043_1_alg».proof.Proof.RefFn
import proofs.«123053_j26680336843043_1_alg».proof.Proof.Spec
import Idealize.ShloMosaic.Lib.IdealHost
import Idealize.ShloMosaic.Lib.ValueLayout
import Idealize.ShloMosaic.Lib.StackMember

noncomputable section

open scoped BigOperators

namespace Cert.ReferenceIdeal.Hand

open Cert.ReferenceIdeal Cert.ReferenceIdeal.Gen Idealize.ShloMosaic Idealize.ShloMosaic.ValueIdx Cert.Pairwise

/-- The f32 pattern `0x40000000` is the extended real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- A scalar literal copied to every entry of an array reads, at each entry, the real the literal encodes. -/
theorem splat_apply (T : Shape) (h : S_.BroadcastsInDim T (![] : Fin 0 → Fin T.rank)) (b : BitVec 32) (j : T.Idx) :
    broadcastInDim T ![] h (constant (F := Ideal) S_ .f32 b) j = Ideal.ofBits .f32 b :=
  broadcastInDim_scalar_apply h _ j

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The vector of squared norms copied down the columns reads, at (i, j), the norm of point i. -/
theorem colCopy_apply (v : FVec Ideal S8192 .f32) (i j : Fin 8192) :
    broadcastInDim S8192x8192 ![0, 1] bcast_S8192x1_S8192x8192_0_1 (broadcastInDim S8192x1 ![0] bcast_S8192_S8192x1_0 v) (ix2 i j)
      = v (ix1 i) :=
  (broadcastInDim_apply _ _ _ (ix2 i j) (ix2 i (0 : Fin 1)) (fun a => match a with | ⟨0, _⟩ => rfl | ⟨1, _⟩ => rfl)).trans
    (broadcastInDim_apply _ _ _ (ix2 i (0 : Fin 1)) (ix1 i) (fun a => match a with | ⟨0, _⟩ => rfl))

/-- The vector of squared norms copied along the rows reads, at (i, j), the norm of point j. -/
theorem rowCopy_apply (v : FVec Ideal S8192 .f32) (i j : Fin 8192) :
    broadcastInDim S8192x8192 ![0, 1] bcast_S1x8192_S8192x8192_0_1 (broadcastInDim S1x8192 ![1] bcast_S8192_S1x8192_1 v) (ix2 i j)
      = v (ix1 j) :=
  (broadcastInDim_apply _ _ _ (ix2 i j) (ix2 (0 : Fin 1) j) (fun a => match a with | ⟨0, _⟩ => rfl | ⟨1, _⟩ => rfl)).trans
    (broadcastInDim_apply _ _ _ (ix2 (0 : Fin 1) j) (ix1 j) (fun a => match a with | ⟨0, _⟩ => rfl))

/-- The row sums of the squared coordinates, from zero, are the squared norms. -/
theorem sqv_apply (o : FVec Ideal S8192x2 .f32) (i : Fin 8192) : sqv o (ix1 i) = sqn o i := by
  have hR : S8192x2.Reduces [1] S8192 := by decide
  unfold sqv sqn
  rw [hostReduceAdd_apply]
  refine (Ideal.hostReduceAdd_single reducesTo_S8192x2_S8192_d1 hR (mulf o o) _ (ix1 i)).trans ?_
  rw [constant_apply, Ideal.ofBits_zero_f32, zero_add]
  refine Finset.sum_congr rfl fun k _ => ?_
  have e : hR.lift (ix1 i) k = ix2 i k := by
    funext a; match a with | ⟨0, _⟩ => rfl | ⟨1, _⟩ => rfl
  rw [mulf_apply, e]
  rfl

/-- The product's dimension record is the plain one: rows by the contracted axis times the contracted axis by columns. -/
theorem dot3_eq : dot_S8192x2_S2x8192_S8192x8192_1_0_0_1_n_n = DotDims.plain 8192 2 8192 := rfl

/-- The product of the points with their transpose reads, at (i, j), the inner product of points i and j. -/
theorem cross_apply (o : FVec Ideal S8192x2 .f32) (i j : Fin 8192) :
    Host.dotGeneral dot_S8192x2_S2x8192_S8192x8192_1_0_0_1_n_n none o
        (transpose S2x8192 [1, 0] o transposes_S8192x2_S2x8192_1_0) (ix2 i j) = cross o i j := by
  rw [dot3_eq]
  refine (StackMember.dotGeneral_plain_apply none o _ i j).trans ?_
  unfold cross
  refine Finset.sum_congr rfl fun k _ => ?_
  rw [transpose_ix2_apply]

/-- The unclamped squared distance at (i, j). -/
theorem dist_apply (o : FVec Ideal S8192x2 .f32) (i j : Fin 8192) :
    dist o (ix2 i j) = sqn o i + sqn o j - 2 * cross o i j := by
  unfold dist
  rw [subf_apply, addf_apply, mulf_apply, colCopy_apply, rowCopy_apply, splat_apply, cross_apply, sqv_apply, sqv_apply,
    ofBits_two_f32]

/-- The unnormalised affinity at (i, j). -/
theorem qn_apply (o : FVec Ideal S8192x2 .f32) (i j : Fin 8192) : qn o (ix2 i j) = qnum o i j := by
  unfold qn qnum dis
  rw [hostDivf_apply, addf_apply, maximumf_apply, splat_apply, splat_apply, Ideal.ofBits_one_f32, Ideal.ofBits_zero_f32,
    dist_apply]

/-- The row sums of the unnormalised affinities, from zero. -/
theorem rowSum_apply (o : FVec Ideal S8192x2 .f32) (i : Fin 8192) :
    Host.reduceAdd (qn o) (constant S_ .f32 0x00000000#32) reducesTo_S8192x8192_S8192_d1 h_S_ (ix1 i)
      = ∑ j : Fin 8192, qnum o i j := by
  have hR : S8192x8192.Reduces [1] S8192 := by decide
  rw [hostReduceAdd_apply]
  refine (Ideal.hostReduceAdd_single reducesTo_S8192x8192_S8192_d1 hR (qn o) _ (ix1 i)).trans ?_
  rw [constant_apply, Ideal.ofBits_zero_f32, zero_add]
  refine Finset.sum_congr rfl fun k _ => ?_
  have e : hR.lift (ix1 i) k = ix2 i k := by
    funext a; match a with | ⟨0, _⟩ => rfl | ⟨1, _⟩ => rfl
  exact (congrArg (qn o) e).trans (qn_apply o i k)

/-- The divisor: the sum over the rows of the row sum minus one. -/
theorem den_apply (o : FVec Ideal S8192x2 .f32) :
    den o ix0 = ∑ i : Fin 8192, ((∑ j : Fin 8192, qnum o i j) - 1) := by
  unfold den
  rw [hostReduceAdd_apply]
  refine (Ideal.hostReduceAdd_total reducesTo_S8192_S_d0 (fun b => b.elim0) _ _ ix0).trans ?_
  rw [constant_apply, Ideal.ofBits_zero_f32, zero_add, sum_idx1]
  refine Finset.sum_congr rfl fun i _ => ?_
  rw [subf_apply, splat_apply, Ideal.ofBits_one_f32, rowSum_apply]

/-- The reference's affinity matrix is the specification's: every entry divided by the sum over rows of
    (the row sum minus one). -/
theorem tail_eq (o : FVec Ideal S8192x2 .f32) : tail o = Cert.Pairwise.affR o := by
  funext x
  obtain ⟨i, j, rfl⟩ : ∃ (i : Fin 8192) (j : Fin 8192), x = ix2 i j := ⟨x 0, x 1, eq_ix2 x⟩
  unfold tail tailF affR
  rw [hostDivf_apply, broadcastInDim_scalar_apply, qn_apply, den_apply]

end Cert.ReferenceIdeal.Hand

end
-- ==== Proof.KHead.lean ====
/-
  The kernel program's host head computes the reference's embedding head.

  Before its first kernel region the kernel program runs seven stretches of host operations. The first six are,
  operation for operation, the reference's embedding head over the kernel program's own buffers (two affine layers,
  each followed by the scaled exponential linear unit, with the column normalisation between them); the seventh
  squares the embedded points, sums each row, and reshapes the 8192 sums to a column and to a row.

  Read two stretches at a time from any buffer contents, the stretches' results are the stage functions the
  reference's run is stated with (the first layer; the column mean and variance; the second layer), so the buffer
  main_v30 holds `head` of the seven arguments when the first region starts; and main_v33, main_v34 hold, at
  (i, 0) and (0, j), the squared norms of points i and j of main_v30.
-/
import proofs.«123053_j26680336843043_1_alg».proof.Proof.RefTail
import proofs.«123053_j26680336843043_1_alg».proof.Proof.Gen.KernelIdeal.Regions

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-! ## The stretches, two at a time, from any contents -/

attribute [local irreducible] Host.reduceAdd Host.expm1 Host.rsqrt Host.divf in
set_option maxRecDepth 8192 in
set_option maxHeartbeats 2000000 in
/-- The first two stretches end with the first layer's activation in main_v5. -/
theorem kA_v5 (V : Valuation τ sig (Elt F)) :
    after hostOps0_1 (after hostOps0 V) (Proc.devRef .tc main_v5)
      = Cert.ReferenceIdeal.Hand.layer1 (V (Proc.devRef .tc main_arg0)) (V (Proc.devRef .tc main_arg1)) (V (Proc.devRef .tc main_arg2)) := by
  simp only [hostOps0, hostOps0_1]
  after_results_simp
  rfl

attribute [local irreducible] Host.reduceAdd Host.expm1 Host.rsqrt Host.divf in
set_option maxRecDepth 8192 in
set_option maxHeartbeats 2000000 in
/-- The next two leave the column means of main_v5 in main_v8 … -/
theorem kB_v8 (V : Valuation τ sig (Elt F)) :
    after hostOps0_3 (after hostOps0_2 V) (Proc.devRef .tc main_v8) = Cert.ReferenceIdeal.Hand.colMean (V (Proc.devRef .tc main_v5)) := by
  simp only [hostOps0_2, hostOps0_3]
  after_results_simp
  rfl

attribute [local irreducible] Host.reduceAdd Host.expm1 Host.rsqrt Host.divf in
set_option maxRecDepth 8192 in
set_option maxHeartbeats 2000000 in
/-- … and its column variances in main_v9. -/
theorem kB_v9 (V : Valuation τ sig (Elt F)) :
    after hostOps0_3 (after hostOps0_2 V) (Proc.devRef .tc main_v9) = Cert.ReferenceIdeal.Hand.colVar (V (Proc.devRef .tc main_v5)) := by
  simp only [hostOps0_2, hostOps0_3]
  after_results_simp
  rfl

attribute [local irreducible] Host.reduceAdd Host.expm1 Host.rsqrt Host.divf in
set_option maxRecDepth 8192 in
set_option maxHeartbeats 4000000 in
/-- The fifth and sixth end with the embedded points in main_v30. -/
theorem kC_v30 (V : Valuation τ sig (Elt F)) :
    after hostOps0_5 (after hostOps0_4 V) (Proc.devRef .tc main_v30)
      = Cert.ReferenceIdeal.Hand.layer2 (V (Proc.devRef .tc main_v5)) (V (Proc.devRef .tc main_v8)) (V (Proc.devRef .tc main_v9)) (V (Proc.devRef .tc main_arg3)) (V (Proc.devRef .tc main_arg4)) (V (Proc.devRef .tc main_arg5)) (V (Proc.devRef .tc main_arg6)) := by
  simp only [hostOps0_4, hostOps0_5]
  after_results_simp
  rfl

attribute [local irreducible] Host.reduceAdd in
set_option maxRecDepth 8192 in
/-- The seventh leaves the squared norms of main_v30's points in main_v33 as a column … -/
theorem kD_v33 (V : Valuation τ sig (Elt F)) :
    after hostOps0_6 V (Proc.devRef .tc main_v33) = shapeCast S8192x1 (Cert.ReferenceIdeal.Hand.sqv (V (Proc.devRef .tc main_v30))) shapeCasts_S8192_S8192x1 := by
  simp only [hostOps0_6]
  after_results_simp
  rfl

attribute [local irreducible] Host.reduceAdd in
set_option maxRecDepth 8192 in
/-- … and in main_v34 as a row. -/
theorem kD_v34 (V : Valuation τ sig (Elt F)) :
    after hostOps0_6 V (Proc.devRef .tc main_v34) = shapeCast S1x8192 (Cert.ReferenceIdeal.Hand.sqv (V (Proc.devRef .tc main_v30))) shapeCasts_S8192_S1x8192 := by
  simp only [hostOps0_6]
  after_results_simp
  rfl

/-! ## At the first region's start -/

variable (m : (ℓ : Loc nD τ sig) → Buf (Elt Ideal) ℓ) (c : Dev nD)

/-- When the first region starts, main_v30 holds the reference's embedding head of the seven arguments. -/
theorem khead :
    (V7 m c main_v30 : S8192x2.Idx → EReal) = Cert.ReferenceIdeal.Hand.head (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hA : V2 m c main_v5 = Cert.ReferenceIdeal.Hand.layer1 (F := Ideal) (V0 m c main_arg0) (V0 m c main_arg1) (V0 m c main_arg2) := kA_v5 (V0 m c)
  have hB8 : V4 m c main_v8 = Cert.ReferenceIdeal.Hand.colMean (F := Ideal) (V2 m c main_v5) := kB_v8 (V2 m c)
  have hB9 : V4 m c main_v9 = Cert.ReferenceIdeal.Hand.colVar (F := Ideal) (V2 m c main_v5) := kB_v9 (V2 m c)
  have hC : V6 m c main_v30 = Cert.ReferenceIdeal.Hand.layer2 (F := Ideal) (V4 m c main_v5) (V4 m c main_v8) (V4 m c main_v9) (V4 m c main_arg3) (V4 m c main_arg4)
      (V4 m c main_arg5) (V4 m c main_arg6) := kC_v30 (V4 m c)
  rw [V7_of m c main_v30 (by decide), hC, hB8, hB9, V4_of m c main_v5 (by decide), V3_of m c main_v5 (by decide), hA,
    V4_of m c main_arg3 (by decide), V3_of m c main_arg3 (by decide), V2_of m c main_arg3 (by decide), V1_of m c main_arg3 (by decide),
    V4_of m c main_arg4 (by decide), V3_of m c main_arg4 (by decide), V2_of m c main_arg4 (by decide), V1_of m c main_arg4 (by decide),
    V4_of m c main_arg5 (by decide), V3_of m c main_arg5 (by decide), V2_of m c main_arg5 (by decide), V1_of m c main_arg5 (by decide),
    V4_of m c main_arg6 (by decide), V3_of m c main_arg6 (by decide), V2_of m c main_arg6 (by decide), V1_of m c main_arg6 (by decide)]
  rfl

/-- When the first region starts, main_v33 holds at (i, 0) the squared norm of point i of main_v30. -/
theorem ksqcol (i : Fin 8192) :
    (V7 m c main_v33 : S8192x1.Idx → EReal) (ix2 i (0 : Fin 1)) = Cert.Pairwise.sqn (V7 m c main_v30 : S8192x2.Idx → EReal) i := by
  have h : V7 m c main_v33 = shapeCast S8192x1 (Cert.ReferenceIdeal.Hand.sqv (F := Ideal) (V6 m c main_v30)) shapeCasts_S8192_S8192x1 := kD_v33 (V6 m c)
  rw [V7_of m c main_v30 (by decide)]
  refine (congrFun h _).trans ?_
  refine (shapeCast_apply _ _ (ix2 i (0 : Fin 1)) (ix1 i) (by
    rw [Shape.rowMajor_val_one, Shape.rowMajor_val_two]
    show i.val = i.val * 1 + 0
    omega)).trans ?_
  exact Cert.ReferenceIdeal.Hand.sqv_apply _ i

/-- When the first region starts, main_v34 holds at (0, j) the squared norm of point j of main_v30. -/
theorem ksqrow (j : Fin 8192) :
    (V7 m c main_v34 : S1x8192.Idx → EReal) (ix2 (0 : Fin 1) j) = Cert.Pairwise.sqn (V7 m c main_v30 : S8192x2.Idx → EReal) j := by
  have h : V7 m c main_v34 = shapeCast S1x8192 (Cert.ReferenceIdeal.Hand.sqv (F := Ideal) (V6 m c main_v30)) shapeCasts_S8192_S1x8192 := kD_v34 (V6 m c)
  rw [V7_of m c main_v30 (by decide)]
  refine (congrFun h _).trans ?_
  refine (shapeCast_a_1a_apply _ _ (0 : Fin 1) j).trans ?_
  exact Cert.ReferenceIdeal.Hand.sqv_apply _ j

end Cert.KernelIdeal.Hand

/-! ## The same three facts under the reference-side names -/

namespace Cert.ReferenceIdeal.Hand

open Idealize.ShloMosaic Idealize.ShloMosaic.TcCoe Idealize.SL.Sem Idealize.ShloMosaic.ValueIdx

/-- When the kernel program's first region starts, its main_v30 holds `head` of its seven arguments' launch contents. -/
theorem khead (m : (ℓ : Loc Cert.KernelIdeal.nD Cert.KernelIdeal.τ Cert.KernelIdeal.sig) → Buf (Elt Ideal) ℓ) (c : Dev Cert.KernelIdeal.nD) :
    (Cert.KernelIdeal.Gen.V7 m c Cert.KernelIdeal.main_v30 : Cert.KernelIdeal.S8192x2.Idx → EReal) = head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
  Cert.KernelIdeal.Hand.khead m c

/-- … its main_v33 holds at (i, 0) the squared norm of point i of main_v30 … -/
theorem ksqcol (m : (ℓ : Loc Cert.KernelIdeal.nD Cert.KernelIdeal.τ Cert.KernelIdeal.sig) → Buf (Elt Ideal) ℓ) (c : Dev Cert.KernelIdeal.nD) (i : Fin 8192) :
    (Cert.KernelIdeal.Gen.V7 m c Cert.KernelIdeal.main_v33 : Cert.KernelIdeal.S8192x1.Idx → EReal) (ix2 i (0 : Fin 1))
      = Cert.Pairwise.sqn (Cert.KernelIdeal.Gen.V7 m c Cert.KernelIdeal.main_v30 : Cert.KernelIdeal.S8192x2.Idx → EReal) i :=
  Cert.KernelIdeal.Hand.ksqcol m c i

/-- … and its main_v34 at (0, j) the squared norm of point j. -/
theorem ksqrow (m : (ℓ : Loc Cert.KernelIdeal.nD Cert.KernelIdeal.τ Cert.KernelIdeal.sig) → Buf (Elt Ideal) ℓ) (c : Dev Cert.KernelIdeal.nD) (j : Fin 8192) :
    (Cert.KernelIdeal.Gen.V7 m c Cert.KernelIdeal.main_v34 : Cert.KernelIdeal.S1x8192.Idx → EReal) (ix2 (0 : Fin 1) j)
      = Cert.Pairwise.sqn (Cert.KernelIdeal.Gen.V7 m c Cert.KernelIdeal.main_v30 : Cert.KernelIdeal.S8192x2.Idx → EReal) j :=
  Cert.KernelIdeal.Hand.ksqrow m c j

end Cert.ReferenceIdeal.Hand

end
-- ==== Proof.PayloadRead.lean ====
/-
  The stored values of the two kernel bodies, read at an index, on the extended reals.

  Each body computes, on a 1024 × 1024 tile, from two blocks x, y of 1024 points (two coordinates
  each), a column s of 1024 squared norms and a row t of 1024 squared norms,
      tileQ x y s t r c = 1 / (1 + max (s r + t c − 2 · ∑ₖ x r k · y c k) 0).
  The second body stores tileQ · (the one entry of its 1 × 1 operand); the first body stores the one
  entry of its 1 × 1 accumulator plus the sum of tileQ over the whole tile (a sum along each row, then
  a sum down the column of row sums), and its initialising store is the constant 0.

  The reading goes operation by operation: the pointwise operations hold at every index by
  definition; an identity cast is the identity; a column broadcast [a,1] → [a,b] reads its row's one
  entry and a row broadcast [1,b] → [a,b] its column's one entry; the matrix product into a zero
  accumulator, contracting axis 1 of both operands, is the sum over the two coordinates; a sum over
  one axis is the finite sum over that axis's coordinates; the float words 0x3F800000, 0x40000000,
  0x00000000 denote 1, 2 and 0.
-/
import proofs.«123053_j26680336843043_1_alg».proof.Proof.Gen.KernelIdeal.Skeleton
import proofs.«123053_j26680336843043_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal.Gen

/-! ### Float words, layout operations, the product and the lane sums at an index -/

/-- The f32 word of 1.0 is the extended real 1. -/
theorem ofBits_one_f32 : Ideal.ofBits .f32 0x3F800000#32 = 1 := by
  simp [Ideal.ofBits, Ideal.ieee]
  rw [← EReal.coe_mul, ← EReal.coe_one]
  congr 1
  norm_num

/-- The f32 word of 2.0 is the extended real 2. -/
theorem ofBits_two_f32 : Ideal.ofBits .f32 0x40000000#32 = 2 := by
  simp [Ideal.ofBits, Ideal.ieee]
  rw [← EReal.coe_mul, show (2 : EReal) = ((2 : ℝ) : EReal) from rfl]
  congr 1
  norm_num

variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem matmul_at (x y : FVec Ideal S1024x2 .f32) (r c : Fin 1024) :
    matmul dot_S1024x2_S1024x2_S1024x1024_1_1_0_0_n_n (some .fp32) x y
      (constant (F := Ideal) S1024x1024 .f32 0x00000000#32) (ix2 r c)
      = ∑ k : Fin 2, x (ix2 r k) * y (ix2 c k) := by
  show FloatOps.matmul _ _ x y _ (ix2 r c) = _
  rw [Ideal.matmul_constant_zero_apply,
    ← Equiv.sum_comp (contrEquiv1 dot_S1024x2_S1024x2_S1024x1024_1_1_0_0_n_n 2 rfl rfl).symm]
  refine Finset.sum_congr rfl fun k _ => ?_
  have ck := contrEquiv1_symm_val dot_S1024x2_S1024x2_S1024x1024_1_1_0_0_n_n 2 rfl rfl k
  have hl : dot_S1024x2_S1024x2_S1024x1024_1_1_0_0_n_n.lhsIdx (ix2 r c)
      ((contrEquiv1 _ 2 rfl rfl).symm k) = ix2 r k := by
    funext ax; apply Fin.ext
    match ax with
    | ⟨0, _⟩ => rfl
    | ⟨1, _⟩ => exact (DotDims.lhsIdx_val_of_single _ rfl _ _).trans ck
  have hr : dot_S1024x2_S1024x2_S1024x1024_1_1_0_0_n_n.rhsIdx (ix2 r c)
      ((contrEquiv1 _ 2 rfl rfl).symm k) = ix2 c k := by
    funext ax; apply Fin.ext
    match ax with
    | ⟨0, _⟩ => rfl
    | ⟨1, _⟩ => exact (DotDims.rhsIdx_val_of_single _ rfl _ _).trans ck
  rw [hl, hr]

theorem rowSum_at (src : FVec Ideal S1024x1024 .f32) (hφ : FKind.Formats .f32)
    (hacc : (0x00000000#32 : BitVec 32) = FKind.add.neutral .f32 hφ) (r : Fin 1024) :
    multiReduction .add [1] S1024 src 0x00000000#32 reduces_S1024x1024_S1024 hφ hacc (ix1 r)
      = ∑ c : Fin 1024, src (ix2 r c) := by
  refine (Ideal.multiReduction_add_single src _ reduces_S1024x1024_S1024 hφ hacc (ix1 r)).trans ?_
  show (∑ c : Fin 1024, src (reduces_S1024x1024_S1024.lift (ix1 r) c)) = _
  refine Finset.sum_congr rfl fun c _ => congrArg src (funext fun ax => Fin.ext ?_)
  match ax with
  | ⟨0, _⟩ => rfl
  | ⟨1, _⟩ => rfl

theorem colSum_at (src : FVec Ideal S1024x1 .f32) (hφ : FKind.Formats .f32)
    (hacc : (0x00000000#32 : BitVec 32) = FKind.add.neutral .f32 hφ) (u : Fin 1) :
    multiReduction .add [0] S1 src 0x00000000#32 reduces_S1024x1_S1 hφ hacc (ix1 u)
      = ∑ r : Fin 1024, src (ix2 r (0 : Fin 1)) := by
  refine (Ideal.multiReduction_add_single src _ reduces_S1024x1_S1 hφ hacc (ix1 u)).trans ?_
  show (∑ r : Fin 1024, src (reduces_S1024x1_S1.lift (ix1 u) r)) = _
  refine Finset.sum_congr rfl fun r _ => congrArg src (funext fun ax => Fin.ext ?_)
  match ax with
  | ⟨0, _⟩ => rfl
  | ⟨1, _⟩ =>
    have := u.isLt
    show u.val = 0
    omega

/-- The entry a 1 × 1 vector is read at by position (0, 0) is its entry at the index (0, 0). -/
theorem extractAt_zero_zero (v : Vec Ideal S1x1 .f32) (h : ∀ a, (![0, 0] : Fin 2 → Nat) a < S1x1.size a) :
    extractAt ![0, 0] v h = v (ix2 0 0) :=
  congrArg v (funext fun a => Fin.ext (by
    match a with
    | ⟨0, _⟩ => rfl
    | ⟨1, _⟩ => rfl))

/-! ### The tile's unnormalised affinities and the two bodies' stored values -/

/-- The unnormalised affinity at row `r`, column `c` of a tile, from the tile's two blocks of points,
    its column of squared norms and its row of squared norms. -/
def tileQ (v0 v2 : Vec Ideal S1024x2 .f32) (v5 : Vec Ideal S1024x1 .f32) (v7 : Vec Ideal S1x1024 .f32)
    (r c : Fin 1024) : EReal :=
  Ideal.div 1 (1 + max (v5 (ix2 r 0) + v7 (ix2 0 c) - 2 * ∑ k : Fin 2, v0 (ix2 r k) * v2 (ix2 c k)) 0)

/-- The vector both bodies divide 1 by 1 + the clamped distance to get, read at an index, is `tileQ`. -/
theorem quotient_at (v0 v2 : Vec Ideal S1024x2 .f32) (v5 : Vec Ideal S1024x1 .f32) (v7 : Vec Ideal S1x1024 .f32)
    (r c : Fin 1024) :
    Ideal.div (Ideal.ofBits .f32 0x3F800000#32) (Ideal.ofBits .f32 0x3F800000#32 + max
      (broadcastTo S1024x1024 (shapeCast S1024x1 v5 shapeCasts_S1024x1_S1024x1) broadcasts_S1024x1_S1024x1024 (ix2 r c)
        + broadcastTo S1024x1024 (shapeCast S1x1024 v7 shapeCasts_S1x1024_S1x1024) broadcasts_S1x1024_S1024x1024 (ix2 r c)
        - Ideal.ofBits .f32 0x40000000#32
          * matmul (φ₁ := .f32) (φ₂ := .f32) dot_S1024x2_S1024x2_S1024x1024_1_1_0_0_n_n (some .fp32)
              (shapeCast S1024x2 v0 shapeCasts_S1024x2_S1024x2)
              (shapeCast S1024x2 v2 shapeCasts_S1024x2_S1024x2)
              (constant (F := Ideal) S1024x1024 .f32 0x00000000#32) (ix2 r c))
      (Ideal.ofBits .f32 0x00000000#32))
      = tileQ v0 v2 v5 v7 r c := by
  unfold tileQ
  rw [shapeCast_self, shapeCast_self, shapeCast_self, shapeCast_self, matmul_at v0 v2 r c,
    broadcastTo_a1_ab_apply v5 broadcasts_S1024x1_S1024x1024 r c,
    broadcastTo_1b_ab_apply v7 broadcasts_S1x1024_S1024x1024 r c,
    ofBits_one_f32, ofBits_two_f32, Ideal.ofBits_zero_f32]

/-- The second body's stored tile at (r, c): the affinity times the one entry of the 1 × 1 operand. -/
theorem k1_pay1_apply (v0 v2 : Vec Ideal S1024x2 .f32) (v5 : Vec Ideal S1024x1 .f32) (v7 : Vec Ideal S1x1024 .f32)
    (v21 : Vec Ideal S1x1 .f32) (r c : Fin 1024) :
    k1_pay1 (F := Ideal) v0 v2 v5 v7 v21 (ix2 r c) = tileQ v0 v2 v5 v7 r c * v21 (ix2 0 0) := by
  unfold k1_pay1
  refine (congrArg₂ (· * ·) (quotient_at v0 v2 v5 v7 r c) (extractAt_zero_zero v21 inpos_S1x1_p0_0)).trans ?_
  rfl

/-- The sum along each row, cast to a column, summed down the column, cast to 1 × 1, read at (0, 0):
    the sum over the whole tile. -/
theorem tileTotal_at (q : FVec Ideal S1024x1024 .f32) (hφ₁ : FKind.Formats .f32)
    (hacc₁ : (0x00000000#32 : BitVec 32) = FKind.add.neutral .f32 hφ₁) (hφ₂ : FKind.Formats .f32)
    (hacc₂ : (0x00000000#32 : BitVec 32) = FKind.add.neutral .f32 hφ₂) :
    shapeCast S1x1
        (multiReduction .add [0] S1
          (shapeCast S1024x1
            (multiReduction .add [1] S1024 q 0x00000000#32 reduces_S1024x1024_S1024 hφ₁ hacc₁)
            shapeCasts_S1024_S1024x1)
          0x00000000#32 reduces_S1024x1_S1 hφ₂ hacc₂)
        shapeCasts_S1_S1x1 (ix2 0 0)
      = ∑ r : Fin 1024, ∑ c : Fin 1024, q (ix2 r c) := by
  refine (shapeCast_a_1a_apply _ shapeCasts_S1_S1x1 0 0).trans ?_
  refine (colSum_at _ hφ₂ hacc₂ 0).trans ?_
  refine Finset.sum_congr rfl fun r _ => ?_
  refine (shapeCast_a_a1_apply _ shapeCasts_S1024_S1024x1 r 0).trans ?_
  exact rowSum_at q hφ₁ hacc₁ r

/-- The first body's stored value at (0, 0): the accumulator's entry plus the sum of the tile's affinities. -/
theorem k0_pay2_apply (v5 v7 : Vec Ideal S1024x2 .f32) (v10 : Vec Ideal S1024x1 .f32) (v12 : Vec Ideal S1x1024 .f32)
    (v30 : Vec Ideal S1x1 .f32) :
    k0_pay2 (F := Ideal) v5 v7 v10 v12 v30 (ix2 0 0)
      = v30 (ix2 0 0) + ∑ r : Fin 1024, ∑ c : Fin 1024, tileQ v5 v7 v10 v12 r c := by
  unfold k0_pay2
  refine (congrArg₂ (· + ·) (congrFun (shapeCast_self v30 shapeCasts_S1x1_S1x1) (ix2 0 0))
    (tileTotal_at _ _ _ _ _)).trans ?_
  exact congrArg (v30 (ix2 0 0) + ·) (Finset.sum_congr rfl fun r _ => Finset.sum_congr rfl fun c _ =>
    quotient_at v5 v7 v10 v12 r c)

/-- The first body's initialising store writes the constant 0. -/
theorem k0_pay1_apply : k0_pay1 (F := Ideal) (ix2 0 0) = 0 := by
  unfold k0_pay1
  exact Ideal.ofBits_zero_f32

end Cert.KernelIdeal.Payload

end
-- ==== Proof.TileSum.lean ====
/-
  The sum of all unnormalised affinities as the sum over the 8 × 8 tiles of 1024 × 1024 entries.

  A position i < 8192 is a·1024 + r for exactly one tile number a < 8 and one position r < 1024
  inside the tile (a = i / 1024, r = i % 1024), so a sum over 8192 positions is the sum over the
  tiles of the sums inside each tile, in any additive commutative monoid. Applied to the rows, then
  to the columns, and exchanging the two middle sums, the whole sum is the sum over pairs of tiles.
-/
import proofs.«123053_j26680336843043_1_alg».proof.Proof.Spec
import Mathlib

noncomputable section

open scoped BigOperators

namespace Cert.Pairwise

open Idealize.ShloMosaic Idealize.ShloMosaic.ValueIdx

/-- A tile number and a position inside the tile, as one position: a·1024 + r. -/
def tilePos : Fin 8 × Fin 1024 ≃ Fin 8192 where
  toFun p := ⟨p.1.val * 1024 + p.2.val, by omega⟩
  invFun i := (⟨i.val / 1024, by omega⟩, ⟨i.val % 1024, by omega⟩)
  left_inv p := by
    apply Prod.ext <;> apply Fin.ext <;> simp only <;> omega
  right_inv i := by
    apply Fin.ext; simp only; omega

/-- A sum over 8192 positions is the sum over the 8 tiles of the sums over the 1024 positions inside. -/
theorem sum_tiles {M : Type*} [AddCommMonoid M] (f : Fin 8192 → M) :
    ∑ i : Fin 8192, f i = ∑ a : Fin 8, ∑ r : Fin 1024, f ⟨a.val * 1024 + r.val, by omega⟩ := by
  rw [← Equiv.sum_comp tilePos f, Fintype.sum_prod_type]
  rfl

/-- The whole sum is the sum over the 8 × 8 tiles of the sums inside each tile. -/
theorem total_eq_tiles (o : SO.Idx → EReal) :
    total o = ∑ a : Fin 8, ∑ b : Fin 8, ∑ r : Fin 1024, ∑ c : Fin 1024,
      qnum o ⟨a.val * 1024 + r.val, by omega⟩ ⟨b.val * 1024 + c.val, by omega⟩ := by
  unfold total
  rw [sum_tiles]
  refine Finset.sum_congr rfl fun a _ => ?_
  calc ∑ r : Fin 1024, ∑ j : Fin 8192, qnum o ⟨a.val * 1024 + r.val, by omega⟩ j
      = ∑ r : Fin 1024, ∑ b : Fin 8, ∑ c : Fin 1024,
          qnum o ⟨a.val * 1024 + r.val, by omega⟩ ⟨b.val * 1024 + c.val, by omega⟩ :=
        Finset.sum_congr rfl fun r _ => sum_tiles _
    _ = ∑ b : Fin 8, ∑ r : Fin 1024, ∑ c : Fin 1024,
          qnum o ⟨a.val * 1024 + r.val, by omega⟩ ⟨b.val * 1024 + c.val, by omega⟩ :=
        Finset.sum_comm

end Cert.Pairwise

end
-- ==== Proof.GridSum.lean ====
/-
  The sum of all unnormalised affinities as the sum over the 64 grid points of their tiles' sums.

  A grid point s < 64 is a·8 + b for exactly one pair of tile numbers a, b < 8 (a = s / 8, b = s % 8),
  so the sum over the 8 × 8 pairs of tiles is the sum over the 64 points, the point s taking the
  rows of tile s / 8 and the columns of tile s % 8.
-/
import proofs.«123053_j26680336843043_1_alg».proof.Proof.TileSum

noncomputable section

open scoped BigOperators

namespace Cert.Pairwise

open Idealize.ShloMosaic Idealize.ShloMosaic.ValueIdx

/-- A pair of tile numbers as one grid point: a·8 + b. -/
def gridPos : Fin 8 × Fin 8 ≃ Fin 64 where
  toFun p := ⟨p.1.val * 8 + p.2.val, by omega⟩
  invFun s := (⟨s.val / 8, by omega⟩, ⟨s.val % 8, by omega⟩)
  left_inv p := by
    apply Prod.ext <;> apply Fin.ext <;> simp only <;> omega
  right_inv s := by
    apply Fin.ext; simp only; omega

/-- The whole sum is the sum over the 64 grid points of the sums over their tiles. -/
theorem total_eq_grid (o : SO.Idx → EReal) :
    total o = ∑ s : Fin 64, ∑ r : Fin 1024, ∑ c : Fin 1024,
      qnum o ⟨s.val / 8 * 1024 + r.val, by omega⟩ ⟨s.val % 8 * 1024 + c.val, by omega⟩ := by
  rw [total_eq_tiles]
  symm
  rw [← Equiv.sum_comp gridPos, Fintype.sum_prod_type]
  refine Finset.sum_congr rfl fun a _ => Finset.sum_congr rfl fun b _ => Finset.sum_congr rfl fun r _ =>
    Finset.sum_congr rfl fun c _ => ?_
  exact congrArg₂ (qnum o)
    (Fin.ext (by show (a.val * 8 + b.val) / 8 * 1024 + r.val = a.val * 1024 + r.val; omega))
    (Fin.ext (by show (a.val * 8 + b.val) % 8 * 1024 + c.val = b.val * 1024 + c.val; omega))

end Cert.Pairwise

end
-- ==== Proof.Value0.lean ====
/-
  The value the first pass leaves: the sum of all unnormalised affinities.

  At every grid point the body's last store covers the 1 × 1 accumulator, so what the accumulator's
  staging buffer holds after a point is that store's payload: at the first point the tile's sum added
  to the zero just stored and read back, at every later point the tile's sum added to what the point
  before left. By induction on the point, the accumulator's one entry after point n is the sum over
  the points up to n of their tiles' sums. A tile's blocks are read off the arrays where the index
  maps say: at point t the rows of tile number t / 8 and the columns of tile number t % 8. The one
  write-back, after the last point, writes the accumulator (its block is the whole array); and the
  64 points are the 8 × 8 pairs of tile numbers, so the value written is the sum over all pairs of
  points of their affinities.
-/
import proofs.«123053_j26680336843043_1_alg».proof.Proof.Dat0
import proofs.«123053_j26680336843043_1_alg».proof.Proof.PayloadRead
import proofs.«123053_j26680336843043_1_alg».proof.Proof.Spec
import proofs.«123053_j26680336843043_1_alg».proof.Proof.TileSum
import proofs.«123053_j26680336843043_1_alg».proof.Proof.GridSum
import Idealize.ShloMosaic.Lib.Pipeline.Value
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ### What each case's run leaves: the last store's payload -/

theorem offsets_zero : (![0, 0] : Fin 2 → Nat) = fun _ => 0 := funext fun a => by fin_cases a <;> rfl

/-- A LATER POINT: the run's one store covers the accumulator; its payload reads the four input memrefs whole and
    the accumulator's memref whole. -/
theorem next_pieces (c : Dev nD) (i : grid0.Coords)
    (a2 : Memref sig .tc .vmem S1024x2 .f32) (h2 : a2.IsWhole) (a3 : Memref sig .tc .vmem S1024x2 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (hc : ¬isFirst i)
    (x0 x1 : Vec F S1024x2 .f32) (x2 : Vec F S1024x1 .f32) (x3 : Vec F S1x1024 .f32) (xo : Vec F S1x1 .f32) :
    View.canon (accRunNext (F := F) c i a2 h2 a3 h3 a4 h4 a5 h5 a6 h6 hc x0 x1 x2 x3 xo).1 = k0_pay2 x0 x1 x2 x3 xo := by
  unfold accRunNext
  dsimp only
  sl_unfold_words
  rw [View.canon_unit_zero (S := S1x1) offsets_zero]
  simp only [View.readAt_eq_ld, h2.read_unread, h3.read_unread, h4.read_unread, h5.read_unread, h6.read_unread,
    View.ld_unit_zero (S := S1024x2) offsets_zero, View.ld_unit_zero (S := S1024x1) offsets_zero,
    View.ld_unit_zero (S := S1x1024) offsets_zero, View.ld_unit_zero (S := S1x1) offsets_zero]

/-- THE FIRST POINT: the run's last store covers the accumulator; its payload reads the four input memrefs whole and,
    for the accumulator, the zero the first store left. -/
theorem first_pieces (c : Dev nD) (i : grid0.Coords)
    (a2 : Memref sig .tc .vmem S1024x2 .f32) (h2 : a2.IsWhole) (a3 : Memref sig .tc .vmem S1024x2 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (hc : isFirst i)
    (x0 x1 : Vec F S1024x2 .f32) (x2 : Vec F S1024x1 .f32) (x3 : Vec F S1x1024 .f32) :
    View.canon (accRunFirst (F := F) c i a2 h2 a3 h3 a4 h4 a5 h5 a6 h6 hc x0 x1 x2 x3).1
      = k0_pay2 x0 x1 x2 x3 (k0_pay1 (F := F)) := by
  unfold accRunFirst
  dsimp only
  sl_unfold_words
  rw [View.canon_cons_unit_zero (S := S1x1) offsets_zero, View.readCov_unit_zero (S := S1x1) _ offsets_zero]
  simp only [View.readAt_eq_ld, h2.read_unread, h3.read_unread, h4.read_unread, h5.read_unread,
    View.ld_unit_zero (S := S1024x2) offsets_zero, View.ld_unit_zero (S := S1024x1) offsets_zero,
    View.ld_unit_zero (S := S1x1024) offsets_zero]

/-- What the first point leaves in the accumulator: the tile's sum added to the stored zero. -/
theorem outFirst_eq (c : Dev nD) (t : Fin cfg0.N) (ht : t.val = 0) :
    outFirst V c t ht = k0_pay2 (iblk0 V c 0 t) (iblk0 V c 1 t) (iblk0 V c 2 t) (iblk0 V c 3 t) (k0_pay1 (F := F)) := by
  unfold outFirst
  rw [View.read_writes_eq_canon _ _ _ (firstCover V c t ht)]
  exact first_pieces (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    ((isFirst_iff t).mpr ht) (iblk0 V c 0 t) (iblk0 V c 1 t) (iblk0 V c 2 t) (iblk0 V c 3 t)

/-- What a later point leaves in the accumulator: the tile's sum added to what it held. -/
theorem outNext_eq (c : Dev nD) (t : Fin cfg0.N) (ht : t.val ≠ 0) (xo : Vec F S1x1 .f32) :
    outNext V c t ht xo = k0_pay2 (iblk0 V c 0 t) (iblk0 V c 1 t) (iblk0 V c 2 t) (iblk0 V c 3 t) xo := by
  unfold outNext
  rw [View.read_writes_eq_canon _ _ _ (nextCover V c t ht xo)]
  exact next_pieces (F := F) c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (fun h => ht ((isFirst_iff t).mp h)) (iblk0 V c 0 t) (iblk0 V c 1 t) (iblk0 V c 2 t) (iblk0 V c 3 t) xo

/-! ### The blocks, read off the arrays where the index maps say -/

/-- The index maps over the grid: point t reads the rows of tile t / 8 and the columns of tile t % 8. -/
theorem index_facts : ∀ t : Fin cfg0.N,
    win0_0.index t 0 = t.val / 8 ∧ win0_0.index t 1 = 0 ∧ win0_1.index t 0 = t.val % 8 ∧ win0_1.index t 1 = 0
      ∧ win0_2.index t 0 = t.val / 8 ∧ win0_2.index t 1 = 0 ∧ win0_3.index t 0 = 0 ∧ win0_3.index t 1 = t.val % 8 :=
  (by decide +kernel : ∀ t : Fin grid0.N,
    win0_0.index t 0 = t.val / 8 ∧ win0_0.index t 1 = 0 ∧ win0_1.index t 0 = t.val % 8 ∧ win0_1.index t 1 = 0
      ∧ win0_2.index t 0 = t.val / 8 ∧ win0_2.index t 1 = 0 ∧ win0_3.index t 0 = 0 ∧ win0_3.index t 1 = t.val % 8)

theorem point_lt (t : Fin cfg0.N) : t.val < 64 := lt_of_lt_of_eq t.isLt (show cfg0.N = 64 from N_0)

/-- Row r of the tile at point t, as a row of the whole array. -/
def rowPos (t : Fin cfg0.N) (r : Fin 1024) : Fin 8192 := ⟨t.val / 8 * 1024 + r.val, by have := point_lt t; omega⟩

/-- Column q of the tile at point t, as a column of the whole array. -/
def colPos (t : Fin cfg0.N) (q : Fin 1024) : Fin 8192 := ⟨t.val % 8 * 1024 + q.val, by omega⟩

/-- The row points of the tile at point t. -/
theorem iblk0_0_apply (c : Dev nD) (t : Fin cfg0.N) (r : Fin 1024) (k : Fin 2) :
    (iblk0 V c 0 t : Vec F S1024x2 .f32) (ix2 r k) = (V c main_v30 : Vec F S8192x2 .f32) (ix2 (rowPos t r) k) := by
  unfold iblk0
  rw [View.read_apply]
  show V c main_v30 _ = V c main_v30 _
  congr 1
  funext a
  apply Fin.ext
  match a with
  | ⟨0, _⟩ => show win0_0.index t 0 * 1024 + 1 * r.val = t.val / 8 * 1024 + r.val; rw [(index_facts t).1]; omega
  | ⟨1, _⟩ => show win0_0.index t 1 * 2 + 1 * k.val = k.val; rw [(index_facts t).2.1]; omega

/-- The column points of the tile at point t. -/
theorem iblk0_1_apply (c : Dev nD) (t : Fin cfg0.N) (q : Fin 1024) (k : Fin 2) :
    (iblk0 V c 1 t : Vec F S1024x2 .f32) (ix2 q k) = (V c main_v30 : Vec F S8192x2 .f32) (ix2 (colPos t q) k) := by
  unfold iblk0
  rw [View.read_apply]
  show V c main_v30 _ = V c main_v30 _
  congr 1
  funext a
  apply Fin.ext
  match a with
  | ⟨0, _⟩ => show win0_1.index t 0 * 1024 + 1 * q.val = t.val % 8 * 1024 + q.val; rw [(index_facts t).2.2.1]; omega
  | ⟨1, _⟩ => show win0_1.index t 1 * 2 + 1 * k.val = k.val; rw [(index_facts t).2.2.2.1]; omega

/-- The squared norms of the tile's rows. -/
theorem iblk0_2_apply (c : Dev nD) (t : Fin cfg0.N) (r : Fin 1024) :
    (iblk0 V c 2 t : Vec F S1024x1 .f32) (ix2 r 0) = (V c main_v33 : Vec F S8192x1 .f32) (ix2 (rowPos t r) 0) := by
  unfold iblk0
  rw [View.read_apply]
  show V c main_v33 _ = V c main_v33 _
  congr 1
  funext a
  apply Fin.ext
  match a with
  | ⟨0, _⟩ => show win0_2.index t 0 * 1024 + 1 * r.val = t.val / 8 * 1024 + r.val; rw [(index_facts t).2.2.2.2.1]; omega
  | ⟨1, _⟩ => show win0_2.index t 1 * 1 + 1 * 0 = 0; rw [(index_facts t).2.2.2.2.2.1]

/-- The squared norms of the tile's columns. -/
theorem iblk0_3_apply (c : Dev nD) (t : Fin cfg0.N) (q : Fin 1024) :
    (iblk0 V c 3 t : Vec F S1x1024 .f32) (ix2 0 q) = (V c main_v34 : Vec F S1x8192 .f32) (ix2 0 (colPos t q)) := by
  unfold iblk0
  rw [View.read_apply]
  show V c main_v34 _ = V c main_v34 _
  congr 1
  funext a
  apply Fin.ext
  match a with
  | ⟨0, _⟩ => show win0_3.index t 0 * 1 + 1 * 0 = 0; rw [(index_facts t).2.2.2.2.2.2.1]
  | ⟨1, _⟩ => show win0_3.index t 1 * 1024 + 1 * q.val = t.val % 8 * 1024 + q.val; rw [(index_facts t).2.2.2.2.2.2.2]; omega

/-! ### The array after the region: the one write-back writes the accumulator -/

/-- The last point of the grid. -/
abbrev lastPoint : Fin cfg0.N := ⟨63, by rw [show cfg0.N = 64 from N_0]; decide⟩

/-- What the accumulator holds after the last point, as contents of the result array (its one block is the array). -/
abbrev accResult (c : Dev nD) : Buf (Elt F) ((c : Thread nD τ).loc main_v35) :=
  accAt V c 63 (by rw [show cfg0.N = 64 from N_0]; decide)

/-- The one write-back, after the last point, writes it: block (0, 0) of the 1 × 1 array is the array. -/
theorem flushed_eq (c : Dev nD) (t : Fin cfg0.N) (hf : (cfg0.win 4).flush t = true) :
    (dat0 V c).flushed 4 t = ((cfg0.win 4).blk t).view.read (Elt F) (accResult V c) := by
  have hN : cfg0.N = 64 := N_0
  have h63 : t.val = 63 := by have := (flush0_4 t).mp hf; have := t.isLt; omega
  obtain rfl : t = lastPoint := Fin.ext h63
  show (cfg0.win 4).cut (grid0.coords lastPoint) ((dat0 V c).after 4 lastPoint) = _
  rw [after0_4]
  have hz' : (fun a => win0_4.index lastPoint a * main_v35.ty.shape.size a) = fun _ => 0 :=
    funext fun a => by fin_cases a <;> decide +kernel
  exact (Memref.read_access_unit_zero (Elt F) main_v35 hz' (fun a => by rw [congrFun hz' a]; simp) (accResult V c)).symm

/-- So the result array ends holding what the accumulator holds after the last point. -/
theorem final_acc (c : Dev nD) : (dat0 V c).arrAt 4 cfg0.N = accResult V c :=
  (dat0 V c).arrAt_eq_of_cover 4 (accResult V c) (flushed_eq V c) fun i =>
    ⟨lastPoint, (flush0_4 lastPoint).mpr rfl, by
      show i ∈ ((View.whole main_v35).slice (win0_4.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPoint 0 * win0_4.size 0 ≤ (i 0 : Nat)
          ∧ (i 0 : Nat) < win0_4.index lastPoint 0 * win0_4.size 0 + win0_4.xsize (grid0.coords lastPoint) 0
        rw [show win0_4.index lastPoint 0 * win0_4.size 0 = 0 from by decide +kernel,
          show win0_4.xsize (grid0.coords lastPoint) 0 = 1 from by decide +kernel]
        omega
      | ⟨1, _⟩ =>
        show win0_4.index lastPoint 1 * win0_4.size 1 ≤ (i 1 : Nat)
          ∧ (i 1 : Nat) < win0_4.index lastPoint 1 * win0_4.size 1 + win0_4.xsize (grid0.coords lastPoint) 1
        rw [show win0_4.index lastPoint 1 * win0_4.size 1 = 0 from by decide +kernel,
          show win0_4.xsize (grid0.coords lastPoint) 1 = 1 from by decide +kernel]
        omega⟩

/-! ### On the extended reals: the accumulator's entry is the sum over the points so far -/

section AtIdeal

variable (W : (c : Dev nD) → (b : Ref sig .tc) → Buf (Elt Ideal) ((c : Thread nD τ).loc b))

/-- The sum of the affinities of the tile at point t. -/
def tileTotal (c : Dev nD) (t : Fin cfg0.N) : EReal :=
  ∑ r : Fin 1024, ∑ q : Fin 1024,
    Payload.tileQ (iblk0 W c 0 t) (iblk0 W c 1 t) (iblk0 W c 2 t) (iblk0 W c 3 t) r q

/-- After point n the accumulator's entry is the sum of the tiles' sums over the points up to n: the first point adds
    its tile's sum to zero, every later point to what the point before left. -/
theorem accAt_entry (c : Dev nD) : ∀ (n : ℕ) (hn : n < cfg0.N),
    (accAt W c n hn : Vec Ideal S1x1 .f32) (ix2 0 0)
      = ∑ s : Fin (n + 1), tileTotal W c ⟨s.val, Nat.lt_of_lt_of_le s.isLt hn⟩
  | 0, hn => by
    show outFirst W c ⟨0, hn⟩ rfl (ix2 0 0) = _
    refine (congrFun (outFirst_eq W c ⟨0, hn⟩ rfl) (ix2 0 0)).trans ?_
    refine (Payload.k0_pay2_apply (iblk0 W c 0 ⟨0, hn⟩) (iblk0 W c 1 ⟨0, hn⟩) (iblk0 W c 2 ⟨0, hn⟩)
      (iblk0 W c 3 ⟨0, hn⟩) (k0_pay1 (F := Ideal))).trans ?_
    rw [Payload.k0_pay1_apply, zero_add, Fin.sum_univ_one]
    rfl
  | n + 1, hn => by
    show outNext W c ⟨n + 1, hn⟩ (Nat.succ_ne_zero n) (accAt W c n (Nat.lt_of_succ_lt hn)) (ix2 0 0) = _
    refine (congrFun (outNext_eq W c ⟨n + 1, hn⟩ (Nat.succ_ne_zero n) (accAt W c n (Nat.lt_of_succ_lt hn)))
      (ix2 0 0)).trans ?_
    refine (Payload.k0_pay2_apply (iblk0 W c 0 ⟨n + 1, hn⟩) (iblk0 W c 1 ⟨n + 1, hn⟩) (iblk0 W c 2 ⟨n + 1, hn⟩)
      (iblk0 W c 3 ⟨n + 1, hn⟩) (accAt W c n (Nat.lt_of_succ_lt hn))).trans ?_
    refine Eq.trans ?_ (Fin.sum_univ_castSucc _).symm
    exact congrArg₂ (· + ·) (accAt_entry c n (Nat.lt_of_succ_lt hn)) rfl

/-- Where the column and the row of squared norms hold the points' squared norms, a tile's entry is the
    unnormalised affinity of its row's point and its column's point. -/
theorem tileQ_eq_qnum (c : Dev nD)
    (hcol : ∀ i : Fin 8192, (W c main_v33 : S8192x1.Idx → EReal) (ix2 i 0) = Cert.Pairwise.sqn (W c main_v30) i)
    (hrow : ∀ j : Fin 8192, (W c main_v34 : S1x8192.Idx → EReal) (ix2 0 j) = Cert.Pairwise.sqn (W c main_v30) j)
    (t : Fin cfg0.N) (r q : Fin 1024) :
    Payload.tileQ (iblk0 W c 0 t) (iblk0 W c 1 t) (iblk0 W c 2 t) (iblk0 W c 3 t) r q
      = Cert.Pairwise.qnum (W c main_v30) (rowPos t r) (colPos t q) := by
  have e2 := (iblk0_2_apply W c t r).trans (hcol (rowPos t r))
  have e3 := (iblk0_3_apply W c t q).trans (hrow (colPos t q))
  have e0 : ∀ k : Fin 2, (iblk0 W c 0 t : Vec Ideal S1024x2 .f32) (ix2 r k) = (W c main_v30 : Vec Ideal S8192x2 .f32) (ix2 (rowPos t r) k) :=
    fun k => iblk0_0_apply W c t r k
  have e1 : ∀ k : Fin 2, (iblk0 W c 1 t : Vec Ideal S1024x2 .f32) (ix2 q k) = (W c main_v30 : Vec Ideal S8192x2 .f32) (ix2 (colPos t q) k) :=
    fun k => iblk0_1_apply W c t q k
  unfold Payload.tileQ Cert.Pairwise.qnum Cert.Pairwise.dis Cert.Pairwise.cross
  rw [e2, e3]
  simp only [e0, e1]

/-- THE VALUE OF THE FIRST PASS: where the column and the row of squared norms hold the points' squared norms, the
    result array's one entry is the sum of all unnormalised affinities. -/
theorem acc_total (c : Dev nD)
    (hcol : ∀ i : Fin 8192, (W c main_v33 : S8192x1.Idx → EReal) (ix2 i 0) = Cert.Pairwise.sqn (W c main_v30) i)
    (hrow : ∀ j : Fin 8192, (W c main_v34 : S1x8192.Idx → EReal) (ix2 0 j) = Cert.Pairwise.sqn (W c main_v30) j) :
    ((dat0 (F := Ideal) W c).arrAt 4 cfg0.N : S1x1.Idx → EReal) (ix2 0 0) = Cert.Pairwise.total (W c main_v30) := by
  rw [final_acc W c]
  refine (accAt_entry W c 63 (by rw [show cfg0.N = 64 from N_0]; decide)).trans ?_
  rw [Cert.Pairwise.total_eq_grid]
  refine Finset.sum_congr rfl fun s _ => Finset.sum_congr rfl fun r _ => Finset.sum_congr rfl fun q _ => ?_
  exact tileQ_eq_qnum W c hcol hrow _ r q

end AtIdeal

end Cert.KernelIdeal.Hand

end
-- ==== Proof.Cover1.lean ====
/-
  The second pass's result array is covered by its tiles.

  The result, 8192 × 8192, is written back one 1024 × 1024 tile per grid point: point t writes the tile at
  block row t / 8 and block column t % 8, so entry (r, q) of that tile is entry (t/8·1024 + r, t%8·1024 + q)
  of the array. An index of the array lies in point t's tile exactly when each coordinate lies in the tile's
  range on its axis, and every index lies in the tile of the point (i₀ / 1024)·8 + i₁ / 1024. So, if what every
  point writes back is its tile of ONE function of the array's index, the array ends holding that function.
-/
import proofs.«123053_j26680336843043_1_alg».proof.Proof.Dat1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.SL.Sem
open Idealize.ShloMosaic.Pipeline (Dat Cfg Window)

variable {F : FTy → Type} [FloatOps F]

/-! ### The index maps, decided over the grid -/

/-- The result window's block index at point t is (t / 8, t % 8). -/
theorem out_index_facts : ∀ t : Fin cfg1.N, win1_5.index t 0 = t.val / 8 ∧ win1_5.index t 1 = t.val % 8 :=
  (by decide +kernel : ∀ t : Fin grid1.N, win1_5.index t 0 = t.val / 8 ∧ win1_5.index t 1 = t.val % 8)

/-- The input windows' block indices at point t: the rows of tile t / 8, the columns of tile t % 8, and the one
    block of the 1 × 1 operand. -/
theorem in_index_facts : ∀ t : Fin cfg1.N,
    win1_0.index t 0 = t.val / 8 ∧ win1_0.index t 1 = 0 ∧ win1_1.index t 0 = t.val % 8 ∧ win1_1.index t 1 = 0
      ∧ win1_2.index t 0 = t.val / 8 ∧ win1_2.index t 1 = 0 ∧ win1_3.index t 0 = 0 ∧ win1_3.index t 1 = t.val % 8
      ∧ win1_4.index t 0 = 0 ∧ win1_4.index t 1 = 0 :=
  (by decide +kernel : ∀ t : Fin grid1.N,
    win1_0.index t 0 = t.val / 8 ∧ win1_0.index t 1 = 0 ∧ win1_1.index t 0 = t.val % 8 ∧ win1_1.index t 1 = 0
      ∧ win1_2.index t 0 = t.val / 8 ∧ win1_2.index t 1 = 0 ∧ win1_3.index t 0 = 0 ∧ win1_3.index t 1 = t.val % 8
      ∧ win1_4.index t 0 = 0 ∧ win1_4.index t 1 = 0)

theorem point_lt1 (t : Fin cfg1.N) : t.val < 64 := lt_of_lt_of_eq t.isLt (show cfg1.N = 64 from N_1)

/-- Row r of the tile at point t, as a row of the whole array. -/
def tileRow (t : Fin cfg1.N) (r : Fin 1024) : Fin 8192 := ⟨t.val / 8 * 1024 + r.val, by have := point_lt1 t; omega⟩

/-- Column q of the tile at point t, as a column of the whole array. -/
def tileCol (t : Fin cfg1.N) (q : Fin 1024) : Fin 8192 := ⟨t.val % 8 * 1024 + q.val, by omega⟩

/-! ### A tile's entries in the array -/

/-- Entry (r, q) of point t's tile is entry (t/8·1024 + r, t%8·1024 + q) of the array: a block's coordinate is its
    block index times the block's extent plus the coordinate inside the block. -/
theorem tile_emb (t : Fin cfg1.N) (r q : Fin 1024) :
    ((cfg1.win 5).blk t).view.emb (ix2 r q) = (ix2 (tileRow t r) (tileCol t q) : S8192x8192.Idx) := by
  funext a
  apply Fin.ext
  match a with
  | ⟨0, _⟩ =>
    show win1_5.index t 0 * 1024 + 1 * r.val = t.val / 8 * 1024 + r.val
    rw [(out_index_facts t).1]; omega
  | ⟨1, _⟩ =>
    show win1_5.index t 1 * 1024 + 1 * q.val = t.val % 8 * 1024 + q.val
    rw [(out_index_facts t).2]; omega

/-- An index of the array is in point t's tile iff each coordinate is in the tile's range on its axis. -/
theorem mem_tile (t : Fin cfg1.N) (i : S8192x8192.Idx) :
    i ∈ ((cfg1.win 5).blk t).view.set
      ↔ ∀ a : Fin 2, win1_5.index t a * S1024x1024.size a ≤ (i a).val
          ∧ (i a).val < win1_5.index t a * S1024x1024.size a + S1024x1024.size a := by
  show i ∈ ((View.whole main_v40).slice (win1_5.rect t)).set ↔ _
  rw [View.set_slice_whole, Rect.mem_set_unit]
  exact Iff.rfl

/-- The same with the block index read off the point: rows t/8·1024 … +1024, columns t%8·1024 … +1024. -/
theorem mem_tile_ranges (t : Fin cfg1.N) (i : S8192x8192.Idx) :
    i ∈ ((cfg1.win 5).blk t).view.set
      ↔ (t.val / 8 * 1024 ≤ (i 0).val ∧ (i 0).val < t.val / 8 * 1024 + 1024)
          ∧ (t.val % 8 * 1024 ≤ (i 1).val ∧ (i 1).val < t.val % 8 * 1024 + 1024) := by
  rw [mem_tile]
  obtain ⟨e0, e1⟩ := out_index_facts t
  constructor
  · intro h
    have b0 : win1_5.index t 0 * 1024 ≤ (i 0).val ∧ (i 0).val < win1_5.index t 0 * 1024 + 1024 := h 0
    have b1 : win1_5.index t 1 * 1024 ≤ (i 1).val ∧ (i 1).val < win1_5.index t 1 * 1024 + 1024 := h 1
    rw [e0] at b0; rw [e1] at b1
    exact ⟨b0, b1⟩
  · rintro ⟨b0, b1⟩ a
    match a with
    | ⟨0, _⟩ =>
      show win1_5.index t 0 * 1024 ≤ (i 0).val ∧ (i 0).val < win1_5.index t 0 * 1024 + 1024
      rw [e0]; exact b0
    | ⟨1, _⟩ =>
      show win1_5.index t 1 * 1024 ≤ (i 1).val ∧ (i 1).val < win1_5.index t 1 * 1024 + 1024
      rw [e1]; exact b1

/-- Every index of the array is in the tile of some point, and every point writes back: the point whose block row
    is i₀ / 1024 and whose block column is i₁ / 1024. -/
theorem tile_cover (i : S8192x8192.Idx) :
    ∃ t : Fin cfg1.N, (cfg1.win 5).flush t = true ∧ i ∈ ((cfg1.win 5).blk t).view.set := by
  have hi0 : (i 0).val < 8192 := (i 0).isLt
  have hi1 : (i 1).val < 8192 := (i 1).isLt
  obtain ⟨t, ht⟩ : ∃ t : Fin cfg1.N, t.val = (i 0).val / 1024 * 8 + (i 1).val / 1024 :=
    ⟨⟨(i 0).val / 1024 * 8 + (i 1).val / 1024, by rw [show cfg1.N = 64 from N_1]; omega⟩, rfl⟩
  refine ⟨t, flush1_5 t, ?_⟩
  rw [mem_tile_ranges]
  omega

/-! ### The array after the region -/

variable (V : (c : Dev nD) → (b : Ref sig .tc) → Buf (Elt F) ((c : Thread nD τ).loc b))

/-- If every point writes back its tile of one function `G` of the array's index, the array ends holding `G`. -/
theorem final_of_flushed (c : Dev nD) (G : S8192x8192.Idx → Elt F .f32)
    (hfl : ∀ t : Fin cfg1.N, (dat1 V c).flushed 5 t = ((cfg1.win 5).blk t).view.read (Elt F) G) :
    (dat1 V c).arrAt 5 cfg1.N = G :=
  (dat1 V c).arrAt_eq_of_cover 5 G (fun t _ => hfl t) tile_cover

end Cert.KernelIdeal.Hand

end
-- ==== Proof.Value1.lean ====
/-
  The value the second pass leaves: every unnormalised affinity times the reciprocal of the normaliser.

  At every grid point the body's one store covers the result's 1024 × 1024 staging tile, so what the tile
  holds after the point is that store's payload: the tile's affinities, each times the one entry of the
  1 × 1 operand. A tile's blocks are read off the arrays where the index maps say: at point t the rows of
  tile number t / 8 and the columns of tile number t % 8; the result's block at point t is the tile
  (t / 8, t % 8) of the 8192 × 8192 array, and it is written back at every point. So point t writes back
  its tile of ONE function of the arrays — entry (i, j) is the affinity of points i and j times the
  reciprocal —, the 64 tiles fill the array (entry (i, j) lies in the tile of point (i / 1024) · 8 + j / 1024),
  and the array ends holding that function.
-/
import proofs.«123053_j26680336843043_1_alg».proof.Proof.Dat1
import proofs.«123053_j26680336843043_1_alg».proof.Proof.Cover1
import proofs.«123053_j26680336843043_1_alg».proof.Proof.PayloadRead
import proofs.«123053_j26680336843043_1_alg».proof.Proof.Spec
import Idealize.ShloMosaic.Lib.Pipeline.Value
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

variable {F : FTy → Type} [FloatOps F]

variable (V : (c : Dev nD) → (b : Ref sig .tc) → Buf (Elt F) ((c : Thread nD τ).loc b))

/-! ### What the run leaves in the tile: the one store's payload -/

theorem tile_offsets_zero : (![0, 0] : Fin 2 → Nat) = fun _ => 0 := funext fun a => by fin_cases a <;> rfl

/-- The run's one store covers the result's tile; its payload reads the five input memrefs whole. -/
theorem tile_pieces (c : Dev nD) (i : grid1.Coords)
    (a2 : Memref sig .tc .vmem S1024x2 .f32) (h2 : a2.IsWhole) (a3 : Memref sig .tc .vmem S1024x2 .f32) (h3 : a3.IsWhole)
    (a4 : Memref sig .tc .vmem S1024x1 .f32) (h4 : a4.IsWhole) (a5 : Memref sig .tc .vmem S1x1024 .f32) (h5 : a5.IsWhole)
    (a6 : Memref sig .tc .vmem S1x1 .f32) (h6 : a6.IsWhole) (a7 : Memref sig .tc .vmem S1024x1024 .f32) (h7 : a7.IsWhole)
    (x0 x1 : Vec F S1024x2 .f32) (x2 : Vec F S1024x1 .f32) (x3 : Vec F S1x1024 .f32) (x4 : Vec F S1x1 .f32) :
    View.canon (tileRun (F := F) c i a2 h2 a3 h3 a4 h4 a5 h5 a6 h6 a7 h7 x0 x1 x2 x3 x4).1 = k1_pay1 x0 x1 x2 x3 x4 := by
  unfold tileRun
  dsimp only
  sl_unfold_words
  rw [View.canon_unit_zero (S := S1024x1024) tile_offsets_zero]
  simp only [View.readAt_eq_ld, h2.read_unread, h3.read_unread, h4.read_unread, h5.read_unread, h6.read_unread,
    View.ld_unit_zero (S := S1024x2) tile_offsets_zero, View.ld_unit_zero (S := S1024x1) tile_offsets_zero,
    View.ld_unit_zero (S := S1x1024) tile_offsets_zero, View.ld_unit_zero (S := S1x1) tile_offsets_zero]

/-- What point `t` leaves in the result's tile: the payload of the five input blocks at `t`. -/
theorem tileAt_eq (c : Dev nD) (t : Fin cfg1.N) :
    tileAt V c t = k1_pay1 (iblk1 V c 0 t) (iblk1 V c 1 t) (iblk1 V c 2 t) (iblk1 V c 3 t) (iblk1 V c 4 t) := by
  unfold tileAt
  rw [View.read_writes_eq_canon _ _ _ (tileCover V c t)]
  exact tile_pieces (F := F) c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (iblk1 V c 0 t) (iblk1 V c 1 t) (iblk1 V c 2 t) (iblk1 V c 3 t) (iblk1 V c 4 t)

/-! ### The blocks, read off the arrays where the index maps say -/

/-- The row points of the tile at point t. -/
theorem iblk1_0_apply (c : Dev nD) (t : Fin cfg1.N) (r : Fin 1024) (k : Fin 2) :
    (iblk1 V c 0 t : Vec F S1024x2 .f32) (ix2 r k) = (V c main_v30 : Vec F S8192x2 .f32) (ix2 (tileRow t r) k) := by
  unfold iblk1
  rw [View.read_apply]
  show V c main_v30 _ = V c main_v30 _
  congr 1
  funext a
  apply Fin.ext
  match a with
  | ⟨0, _⟩ => show win1_0.index t 0 * 1024 + 1 * r.val = t.val / 8 * 1024 + r.val; rw [(in_index_facts t).1]; omega
  | ⟨1, _⟩ => show win1_0.index t 1 * 2 + 1 * k.val = k.val; rw [(in_index_facts t).2.1]; omega

/-- The column points of the tile at point t. -/
theorem iblk1_1_apply (c : Dev nD) (t : Fin cfg1.N) (q : Fin 1024) (k : Fin 2) :
    (iblk1 V c 1 t : Vec F S1024x2 .f32) (ix2 q k) = (V c main_v30 : Vec F S8192x2 .f32) (ix2 (tileCol t q) k) := by
  unfold iblk1
  rw [View.read_apply]
  show V c main_v30 _ = V c main_v30 _
  congr 1
  funext a
  apply Fin.ext
  match a with
  | ⟨0, _⟩ => show win1_1.index t 0 * 1024 + 1 * q.val = t.val % 8 * 1024 + q.val; rw [(in_index_facts t).2.2.1]; omega
  | ⟨1, _⟩ => show win1_1.index t 1 * 2 + 1 * k.val = k.val; rw [(in_index_facts t).2.2.2.1]; omega

/-- The squared norms of the tile's rows. -/
theorem iblk1_2_apply (c : Dev nD) (t : Fin cfg1.N) (r : Fin 1024) :
    (iblk1 V c 2 t : Vec F S1024x1 .f32) (ix2 r 0) = (V c main_v33 : Vec F S8192x1 .f32) (ix2 (tileRow t r) 0) := by
  unfold iblk1
  rw [View.read_apply]
  show V c main_v33 _ = V c main_v33 _
  congr 1
  funext a
  apply Fin.ext
  match a with
  | ⟨0, _⟩ => show win1_2.index t 0 * 1024 + 1 * r.val = t.val / 8 * 1024 + r.val; rw [(in_index_facts t).2.2.2.2.1]; omega
  | ⟨1, _⟩ => show win1_2.index t 1 * 1 + 1 * 0 = 0; rw [(in_index_facts t).2.2.2.2.2.1]

/-- The squared norms of the tile's columns. -/
theorem iblk1_3_apply (c : Dev nD) (t : Fin cfg1.N) (q : Fin 1024) :
    (iblk1 V c 3 t : Vec F S1x1024 .f32) (ix2 0 q) = (V c main_v34 : Vec F S1x8192 .f32) (ix2 0 (tileCol t q)) := by
  unfold iblk1
  rw [View.read_apply]
  show V c main_v34 _ = V c main_v34 _
  congr 1
  funext a
  apply Fin.ext
  match a with
  | ⟨0, _⟩ => show win1_3.index t 0 * 1 + 1 * 0 = 0; rw [(in_index_facts t).2.2.2.2.2.2.1]
  | ⟨1, _⟩ => show win1_3.index t 1 * 1024 + 1 * q.val = t.val % 8 * 1024 + q.val; rw [(in_index_facts t).2.2.2.2.2.2.2.1]; omega

/-- The one entry of the 1 × 1 operand. -/
theorem iblk1_4_apply (c : Dev nD) (t : Fin cfg1.N) :
    (iblk1 V c 4 t : Vec F S1x1 .f32) (ix2 0 0) = (V c main_v39 : Vec F S1x1 .f32) (ix2 0 0) := by
  unfold iblk1
  rw [View.read_apply]
  show V c main_v39 _ = V c main_v39 _
  congr 1
  funext a
  apply Fin.ext
  match a with
  | ⟨0, _⟩ => show win1_4.index t 0 * 1 + 1 * 0 = 0; rw [(in_index_facts t).2.2.2.2.2.2.2.2.1]
  | ⟨1, _⟩ => show win1_4.index t 1 * 1 + 1 * 0 = 0; rw [(in_index_facts t).2.2.2.2.2.2.2.2.2]

/-! ### On the extended reals: a tile's entry is an affinity times the reciprocal -/

section AtIdeal

variable (W : (c : Dev nD) → (b : Ref sig .tc) → Buf (Elt Ideal) ((c : Thread nD τ).loc b))

/-- Where the column and the row of squared norms hold the points' squared norms, a tile's unnormalised entry is the
    affinity of its row's point and its column's point. -/
theorem tile_tileQ_eq_qnum (c : Dev nD)
    (hcol : ∀ i : Fin 8192, (W c main_v33 : S8192x1.Idx → EReal) (ix2 i 0) = Cert.Pairwise.sqn (W c main_v30) i)
    (hrow : ∀ j : Fin 8192, (W c main_v34 : S1x8192.Idx → EReal) (ix2 0 j) = Cert.Pairwise.sqn (W c main_v30) j)
    (t : Fin cfg1.N) (r q : Fin 1024) :
    Payload.tileQ (iblk1 W c 0 t) (iblk1 W c 1 t) (iblk1 W c 2 t) (iblk1 W c 3 t) r q
      = Cert.Pairwise.qnum (W c main_v30) (tileRow t r) (tileCol t q) := by
  have e2 := (iblk1_2_apply W c t r).trans (hcol (tileRow t r))
  have e3 := (iblk1_3_apply W c t q).trans (hrow (tileCol t q))
  have e0 : ∀ k : Fin 2, (iblk1 W c 0 t : Vec Ideal S1024x2 .f32) (ix2 r k) = (W c main_v30 : Vec Ideal S8192x2 .f32) (ix2 (tileRow t r) k) :=
    fun k => iblk1_0_apply W c t r k
  have e1 : ∀ k : Fin 2, (iblk1 W c 1 t : Vec Ideal S1024x2 .f32) (ix2 q k) = (W c main_v30 : Vec Ideal S8192x2 .f32) (ix2 (tileCol t q) k) :=
    fun k => iblk1_1_apply W c t q k
  unfold Payload.tileQ Cert.Pairwise.qnum Cert.Pairwise.dis Cert.Pairwise.cross
  rw [e2, e3]
  simp only [e0, e1]

/-- The function the result array ends holding: entry (i, j) is the unnormalised affinity of points i and j times the
    one entry of the 1 × 1 operand. -/
abbrev affG (c : Dev nD) : S8192x8192.Idx → EReal :=
  fun x => Cert.Pairwise.qnum (W c main_v30) (x 0) (x 1) * (W c main_v39 : S1x1.Idx → EReal) (ix2 0 0)

/-- Entry (r, q) of the tile point t stores is that function at row r, column q of the tile. -/
theorem tile_entry (c : Dev nD)
    (hcol : ∀ i : Fin 8192, (W c main_v33 : S8192x1.Idx → EReal) (ix2 i 0) = Cert.Pairwise.sqn (W c main_v30) i)
    (hrow : ∀ j : Fin 8192, (W c main_v34 : S1x8192.Idx → EReal) (ix2 0 j) = Cert.Pairwise.sqn (W c main_v30) j)
    (t : Fin cfg1.N) (r q : Fin 1024) :
    k1_pay1 (F := Ideal) (iblk1 W c 0 t) (iblk1 W c 1 t) (iblk1 W c 2 t) (iblk1 W c 3 t) (iblk1 W c 4 t) (ix2 r q)
      = affG W c (ix2 (tileRow t r) (tileCol t q)) := by
  refine (Payload.k1_pay1_apply (iblk1 W c 0 t) (iblk1 W c 1 t) (iblk1 W c 2 t) (iblk1 W c 3 t) (iblk1 W c 4 t) r q).trans ?_
  exact congrArg₂ (· * ·) (tile_tileQ_eq_qnum W c hcol hrow t r q) (iblk1_4_apply W c t)

/-- WHAT POINT t WRITES BACK is its block of that one function of the arrays. -/
theorem tile_flushed_eq (c : Dev nD)
    (hcol : ∀ i : Fin 8192, (W c main_v33 : S8192x1.Idx → EReal) (ix2 i 0) = Cert.Pairwise.sqn (W c main_v30) i)
    (hrow : ∀ j : Fin 8192, (W c main_v34 : S1x8192.Idx → EReal) (ix2 0 j) = Cert.Pairwise.sqn (W c main_v30) j)
    (t : Fin cfg1.N) :
    (dat1 (F := Ideal) W c).flushed 5 t = ((cfg1.win 5).blk t).view.read (Elt Ideal) (affG W c) := by
  show (cfg1.win 5).cut (grid1.coords t) ((dat1 W c).after 5 t) = _
  rw [after1_5, tileAt_eq]
  funext y
  have h0 : (y 0).val < 1024 := (y 0).isLt
  have h1 : (y 1).val < 1024 := (y 1).isLt
  obtain ⟨r, q, rfl⟩ : ∃ (r q : Fin 1024), y = ix2 r q :=
    ⟨⟨(y 0).val, h0⟩, ⟨(y 1).val, h1⟩, by funext a; match a with | ⟨0, _⟩ => rfl | ⟨1, _⟩ => rfl⟩
  rw [View.read_apply, tile_emb t r q]
  exact tile_entry W c hcol hrow t r q

/-- THE VALUE OF THE SECOND PASS: where the column and the row of squared norms hold the points' squared norms, the
    result array ends holding, at (i, j), the unnormalised affinity of points i and j times the one entry of the
    1 × 1 operand. -/
theorem aff_final (c : Dev nD)
    (hcol : ∀ i : Fin 8192, (W c main_v33 : S8192x1.Idx → EReal) (ix2 i 0) = Cert.Pairwise.sqn (W c main_v30) i)
    (hrow : ∀ j : Fin 8192, (W c main_v34 : S1x8192.Idx → EReal) (ix2 0 j) = Cert.Pairwise.sqn (W c main_v30) j) :
    ((dat1 (F := Ideal) W c).arrAt 5 cfg1.N : S8192x8192.Idx → EReal)
      = fun x => Cert.Pairwise.qnum (W c main_v30) (x 0) (x 1) * (W c main_v39 : S1x1.Idx → EReal) (ix2 0 0) :=
  final_of_flushed W c (affG W c) (tile_flushed_eq W c hcol hrow)

end AtIdeal

end Cert.KernelIdeal.Hand

end
-- ==== Proof.KInv.lean ====
/-
  The host stretch between the kernel program's two regions, read at its one entry.

  The first region leaves the sum of all unnormalised affinities in the 1 × 1 array main_v35. The stretch reshapes it
  to a scalar s, subtracts the literal 8192, divides the literal 1 by the difference, and reshapes the quotient to the
  1 × 1 array main_v39, which therefore holds 1 / (s − 8192). It writes neither the embedded points (main_v30) nor the
  column and the row of their squared norms (main_v33, main_v34), and neither does the first region.
-/
import proofs.«123053_j26680336843043_1_alg».proof.Proof.Gen.KernelIdeal.Regions
import Idealize.ShloMosaic.Lib.IdealHost

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- The f32 pattern `0x46000000` is the extended real 8192 (sign 0, exponent 140 − 127 = 13, mantissa 0). -/
theorem ofBits_8192_f32 : Ideal.ofBits .f32 0x46000000#32 = 8192 := by
  rw [show (8192 : EReal) = ((8192 : ℝ) : EReal) by norm_cast]
  simp [Ideal.ofBits, Ideal.ieee, -EReal.coe_mul]; norm_num

/-- A scalar reshaped to any shape reads the scalar at every entry: a rank-0 array has one index. -/
theorem shapeCast_of_scalar {α : Type} {T : Shape} (x : (⟨0, ![]⟩ : Shape).Idx → α) (h : (⟨0, ![]⟩ : Shape).ShapeCasts T) (j : T.Idx) :
    shapeCast T x h j = x ix0 := by
  unfold shapeCast
  exact congrArg x (eq_ix0 _)

/-- A 1 × 1 array has one index. -/
theorem idx11_eq (k : (⟨2, ![1, 1]⟩ : Shape).Idx) : k = ix2 (0 : Fin 1) (0 : Fin 1) := by
  rw [eq_ix2 k]
  have h0 : k 0 = (0 : Fin 1) := Fin.ext (by have := idx2_lt0 k; show (k 0).val = 0; omega)
  have h1 : k 1 = (0 : Fin 1) := Fin.ext (by have := idx2_lt1 k; show (k 1).val = 0; omega)
  rw [h0, h1]
  rfl

/-- A 1 × 1 array reshaped to a scalar reads its one entry. -/
theorem shapeCast_to_scalar {α : Type} (x : (⟨2, ![1, 1]⟩ : Shape).Idx → α) (h : (⟨2, ![1, 1]⟩ : Shape).ShapeCasts ⟨0, ![]⟩)
    (j : (⟨0, ![]⟩ : Shape).Idx) : shapeCast ⟨0, ![]⟩ x h j = x (ix2 (0 : Fin 1) (0 : Fin 1)) := by
  unfold shapeCast
  exact congrArg x (idx11_eq _)

set_option maxRecDepth 8192 in
/-- The stretch, from any contents: main_v39 ends at the reshaped quotient of 1 by (main_v35's scalar minus 8192). -/
theorem hostOps1_v39 (V : Valuation τ sig (Elt F)) :
    after hostOps1 V (Proc.devRef .tc main_v39)
      = shapeCast S1x1
          (Host.divf (constant S_ .f32 0x3F800000#32)
            (subf (shapeCast S_ (V (Proc.devRef .tc main_v35)) shapeCasts_S1x1_S_) (constant S_ .f32 0x46000000#32)))
          shapeCasts_S_S1x1 := by
  simp only [hostOps1]
  after_results_simp
  rfl

variable (m : (ℓ : Loc nD τ sig) → Buf (Elt Ideal) ℓ) (outs : Outs (F := Ideal)) (c : Dev nD)

/-- When the second region starts, main_v39's entry is 1 / (s − 8192), s the entry the first region left in main_v35. -/
theorem inv_apply :
    (V9 m outs c main_v39 : S1x1.Idx → EReal) (ix2 (0 : Fin 1) (0 : Fin 1))
      = Ideal.div 1 (@HSub.hSub EReal EReal EReal instHSub ((V8 m outs c main_v35 : S1x1.Idx → EReal) (ix2 (0 : Fin 1) (0 : Fin 1))) 8192) := by
  have h : V9 m outs c main_v39
      = shapeCast S1x1
          (Host.divf (F := Ideal) (constant S_ .f32 0x3F800000#32)
            (subf (shapeCast S_ (V8 m outs c main_v35) shapeCasts_S1x1_S_) (constant S_ .f32 0x46000000#32)))
          shapeCasts_S_S1x1 := hostOps1_v39 (V8 m outs c)
  refine (congrFun h _).trans ?_
  rw [shapeCast_of_scalar, hostDivf_apply, subf_apply, constant_apply, constant_apply, Ideal.ofBits_one_f32, ofBits_8192_f32,
    shapeCast_to_scalar]

/-- Neither the first region nor the stretch after it writes the embedded points … -/
theorem V9_main_v30 : V9 m outs c main_v30 = V7 m c main_v30 :=
  (V9_of m outs c main_v30 (by decide)).trans (V8_of m outs c main_v30 (by decide))

/-- … nor the column of their squared norms … -/
theorem V9_main_v33 : V9 m outs c main_v33 = V7 m c main_v33 :=
  (V9_of m outs c main_v33 (by decide)).trans (V8_of m outs c main_v33 (by decide))

/-- … nor the row of them. -/
theorem V9_main_v34 : V9 m outs c main_v34 = V7 m c main_v34 :=
  (V9_of m outs c main_v34 (by decide)).trans (V8_of m outs c main_v34 (by decide))

end Cert.KernelIdeal.Hand

end
-- ==== Proof.Bridge.lean ====
/-
  What the two passes leave, in terms of the embedded points alone.

  Write o for the embedded points the host stretches leave in main_v30 before the first pass. The first pass is
  entered with the column and the row of o's squared norms in main_v33 and main_v34, so the one entry it leaves in
  its 1 × 1 result is the sum of all unnormalised affinities of o (`total o`). The stretch between the passes turns
  that entry into 1 / (total o − 8192) and leaves o and the squared norms alone, so the second pass is entered with
  the same column and row and leaves, at (i, j), the unnormalised affinity of points i and j times that reciprocal:
  the specification's `affK o`.
-/
import proofs.«123053_j26680336843043_1_alg».proof.Proof.Run
import proofs.«123053_j26680336843043_1_alg».proof.Proof.Value0
import proofs.«123053_j26680336843043_1_alg».proof.Proof.Value1
import proofs.«123053_j26680336843043_1_alg».proof.Proof.KHead
import proofs.«123053_j26680336843043_1_alg».proof.Proof.KInv

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The embedded points the first pass finds. -/
abbrev pts : S8192x2.Idx → EReal := (Gen.V7 m c main_v30 : S8192x2.Idx → EReal)

/-- The first pass leaves the sum of all unnormalised affinities of the points. -/
theorem acc_value : (accOut m c : S1x1.Idx → EReal) (ix2 (0 : Fin 1) (0 : Fin 1)) = Cert.Pairwise.total (pts m c) :=
  acc_total (Ve0 m) c (ksqcol m c) (ksqrow m c)

/-- The first pass's result is what the stretch after it reads. -/
theorem V8_acc : Gen.V8 m (outs₁ m) c main_v35 = accOut m c :=
  (Function.update_self (β := fun b => Buf (Elt Ideal) ((c : Thread nD τ).1, b)) _ _ _).trans (outs₁_acc m c)

/-- The second pass finds, in its 1 × 1 operand, the reciprocal of (that sum minus 8192). -/
theorem inv_value :
    (Ve1 m c main_v39 : S1x1.Idx → EReal) (ix2 (0 : Fin 1) (0 : Fin 1)) = Ideal.div 1 (Cert.Pairwise.total (pts m c) - 8192) := by
  refine (inv_apply m (outs₁ m) c).trans ?_
  rw [V8_acc, acc_value]

/-- The second pass leaves the unnormalised affinities times that reciprocal: the specification's `affK`. -/
theorem aff_value : (affOut m c : S8192x8192.Idx → EReal) = Cert.Pairwise.affK (pts m c) := by
  have hcol : ∀ i : Fin 8192, (Ve1 m c main_v33 : S8192x1.Idx → EReal) (ix2 i 0) = Cert.Pairwise.sqn (Ve1 m c main_v30) i := by
    intro i
    show (Gen.V9 m (outs₁ m) c main_v33 : S8192x1.Idx → EReal) (ix2 i 0) = Cert.Pairwise.sqn (Gen.V9 m (outs₁ m) c main_v30) i
    rw [V9_main_v33, V9_main_v30]
    exact ksqcol m c i
  have hrow : ∀ j : Fin 8192, (Ve1 m c main_v34 : S1x8192.Idx → EReal) (ix2 0 j) = Cert.Pairwise.sqn (Ve1 m c main_v30) j := by
    intro j
    show (Gen.V9 m (outs₁ m) c main_v34 : S1x8192.Idx → EReal) (ix2 0 j) = Cert.Pairwise.sqn (Gen.V9 m (outs₁ m) c main_v30) j
    rw [V9_main_v34, V9_main_v30]
    exact ksqrow m c j
  refine (aff_final (Ve1 m) c hcol hrow).trans ?_
  funext x
  show Cert.Pairwise.qnum (Gen.V9 m (outs₁ m) c main_v30) (x 0) (x 1) * (Ve1 m c main_v39 : S1x1.Idx → EReal) (ix2 0 0) = _
  rw [inv_value, V9_main_v30]
  rfl

end Cert.KernelIdeal.Hand

end
-- ==== Proof.PairwiseLaw.lean ====
/-
  The algebraic law behind the two normalisations of the pairwise affinities.

  When every coordinate is a real number, every squared norm, inner product and clamped
  squared distance is a real number and the distance is non-negative, so
  qnum o i j = 1 / (1 + dis o i j) is a real number in (0, 1], equal to 1 on the diagonal.
  The row-wise divisor ∑ᵢ ((∑ⱼ qnum o i j) − 1) equals total o − 8192 already in the additive
  commutative monoid of the extended reals, and for a positive real q and ANY divisor D,
  q · (1 / D) = q / D: both are q · D⁻¹ when D ≠ 0, and both are ⊤ when D = 0.
-/
import proofs.«123053_j26680336843043_1_alg».proof.Proof.Spec
import Mathlib

noncomputable section

open scoped BigOperators

namespace Cert.Pairwise

open Idealize.ShloMosaic Idealize.ShloMosaic.ValueIdx

/-! ### Coercion of reals into the extended reals -/

/-- The coercion commutes with finite sums. -/
theorem coe_finsum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The coercion is monotone, so it commutes with max. -/
theorem coe_max_real (a b : ℝ) : ((max a b : ℝ) : EReal) = max (a : EReal) (b : EReal) :=
  EReal.coe_strictMono.monotone.map_max

/-! ### The real-valued counterparts of the specification's functions -/

variable (f : SO.Idx → ℝ)

/-- Squared norm of a real point. -/
def rsqn (i : Fin 8192) : ℝ := ∑ k : Fin 2, f (ix2 i k) * f (ix2 i k)

/-- Inner product of two real points. -/
def rcross (i j : Fin 8192) : ℝ := ∑ k : Fin 2, f (ix2 i k) * f (ix2 j k)

/-- Clamped squared distance of two real points. -/
def rdis (i j : Fin 8192) : ℝ := max (rsqn f i + rsqn f j - 2 * rcross f i j) 0

/-- Unnormalised affinity of two real points. -/
def rq (i j : Fin 8192) : ℝ := (1 + rdis f i j)⁻¹

theorem rdis_nonneg (i j : Fin 8192) : 0 ≤ rdis f i j := le_max_right _ _

theorem rq_pos (i j : Fin 8192) : 0 < rq f i j :=
  inv_pos.2 (by have := rdis_nonneg f i j; linarith)

theorem rq_le_one (i j : Fin 8192) : rq f i j ≤ 1 := by
  have h := rdis_nonneg f i j
  have h1 : (1 : ℝ) ≤ 1 + rdis f i j := by linarith
  calc rq f i j = (1 + rdis f i j)⁻¹ := rfl
    _ ≤ (1 : ℝ)⁻¹ := inv_anti₀ one_pos h1
    _ = 1 := inv_one

theorem rq_diag (i : Fin 8192) : rq f i i = 1 := by
  have h : rdis f i i = 0 := by
    unfold rdis
    have : rcross f i i = rsqn f i := rfl
    rw [this, show rsqn f i + rsqn f i - 2 * rsqn f i = 0 by ring, max_self]
  unfold rq
  rw [h, add_zero, inv_one]

theorem sqn_coe (i : Fin 8192) : sqn (fun x => (f x : EReal)) i = ((rsqn f i : ℝ) : EReal) := by
  unfold rsqn sqn
  rw [coe_finsum]
  exact Finset.sum_congr rfl fun k _ => (EReal.coe_mul _ _).symm

theorem cross_coe (i j : Fin 8192) :
    cross (fun x => (f x : EReal)) i j = ((rcross f i j : ℝ) : EReal) := by
  unfold rcross cross
  rw [coe_finsum]
  exact Finset.sum_congr rfl fun k _ => (EReal.coe_mul _ _).symm

theorem dis_coe (i j : Fin 8192) :
    dis (fun x => (f x : EReal)) i j = ((rdis f i j : ℝ) : EReal) := by
  unfold rdis dis
  rw [sqn_coe, sqn_coe, cross_coe, coe_max_real, EReal.coe_sub, EReal.coe_add, EReal.coe_mul]
  rfl

theorem qnum_coe (i j : Fin 8192) :
    qnum (fun x => (f x : EReal)) i j = ((rq f i j : ℝ) : EReal) := by
  unfold rq qnum
  have h0 : (1 + rdis f i j : ℝ) ≠ 0 := by have := rdis_nonneg f i j; linarith
  have h1 : (1 : EReal) + ((rdis f i j : ℝ) : EReal) = ((1 + rdis f i j : ℝ) : EReal) := by
    rw [EReal.coe_add, EReal.coe_one]
  rw [dis_coe, h1, Ideal.div, if_neg (EReal.coe_ne_zero.2 h0), one_mul, ← EReal.coe_inv]

/-! ### The statements over extended-real points all of whose coordinates are real -/

variable (o : SO.Idx → EReal)

/-- With real points every unnormalised affinity is a real number in (0, 1]. -/
theorem qnum_pos_real (ho : AllReal o) (i j : Fin 8192) :
    ∃ r : ℝ, 0 < r ∧ r ≤ 1 ∧ qnum o i j = (r : EReal) := by
  choose g hg using ho
  obtain rfl : o = fun x => (g x : EReal) := funext hg
  exact ⟨rq g i j, rq_pos g i j, rq_le_one g i j, qnum_coe g i j⟩

/-- With real points the affinity of a point with itself is 1. -/
theorem qnum_diag (ho : AllReal o) (i : Fin 8192) : qnum o i i = 1 := by
  choose g hg using ho
  obtain rfl : o = fun x => (g x : EReal) := funext hg
  rw [qnum_coe, rq_diag, EReal.coe_one]

/-- The sum over rows of (row sum − 1) is the whole sum minus the number of rows: the
    subtraction is the addition of −1, sums of sums distribute, and 8192 copies of −1 add to −8192. -/
theorem rowdiv_eq :
    (∑ i : Fin 8192, ((∑ j : Fin 8192, qnum o i j) - 1)) = total o - 8192 := by
  have h1 : ∀ i : Fin 8192, ((∑ j : Fin 8192, qnum o i j) - 1)
      = (∑ j : Fin 8192, qnum o i j) + ((-1 : ℝ) : EReal) := fun i => by
    rw [sub_eq_add_neg, EReal.coe_neg, EReal.coe_one]
  have h2 : (∑ _i : Fin 8192, (-1 : ℝ)) = -8192 := by simp
  rw [Finset.sum_congr rfl (fun i _ => h1 i), Finset.sum_add_distrib, ← coe_finsum, h2,
    EReal.coe_neg, ← sub_eq_add_neg]
  rfl

/-- A positive real times the reciprocal of any extended real is the quotient: off zero both are
    the product with the inverse; at zero both are ⊤. -/
theorem mul_div_one_eq_div {r : ℝ} (hr : 0 < r) (D : EReal) :
    (r : EReal) * Ideal.div 1 D = Ideal.div (r : EReal) D := by
  unfold Ideal.div
  by_cases hD : D = 0
  · rw [if_pos hD, if_pos hD, if_pos (show (0 : EReal) < 1 from EReal.coe_pos.2 one_pos),
      if_pos (EReal.coe_pos.2 hr),
      EReal.coe_mul_top_of_pos hr]
  · rw [if_neg hD, if_neg hD, one_mul]

/-- The two normalisations agree when every coordinate is a real number. -/
theorem affK_eq_affR (ho : AllReal o) : affK o = affR o := by
  funext x
  obtain ⟨r, hr, -, hq⟩ := qnum_pos_real o ho (x 0) (x 1)
  show qnum o (x 0) (x 1) * Ideal.div 1 (total o - 8192)
    = Ideal.div (qnum o (x 0) (x 1)) (∑ i : Fin 8192, ((∑ j : Fin 8192, qnum o i j) - 1))
  rw [rowdiv_eq, hq]
  exact mul_div_one_eq_div hr _

end Cert.Pairwise

end
-- ==== Proof.LibRealOps.lean ====
/-
  Closure of "every entry is a real number" under the array operations of the extended-real
  reading of floats.

  On the extended reals an array operation can leave the reals only at a corner: a sum or
  difference of opposite infinities, a quotient by zero, an inverse square root of a
  non-positive number, a bit pattern that denotes an infinity or no number at all. The lemmas
  below say that none of this happens when the operands' entries are real numbers (and, for the
  quotient and the inverse square root, nonzero or positive ones): re-indexings return operand
  entries; sums, differences, products, finite sums of products and host reductions of reals are
  real; `exp x - 1` of a real is real; a real divided by a nonzero real is real; the inverse square
  root of a positive real is a positive real. A mean of squares — a host sum of squares from a
  nonnegative start, divided by a positive real — is a nonnegative real.

  Four predicates on an array `v : S.Idx → EReal`, each "for every index `x` there is a real `r`
  with `v x = r`": `IsReal` (no condition on `r`), `IsNonneg` (`0 ≤ r`), `IsPos` (`0 < r`),
  `IsNonzero` (`r ≠ 0`). Everything is generic in the shapes.
-/
import Idealize.ShloMosaic.PureOps.Ideal
import Idealize.ShloMosaic.PureOps.Ideal.Laws
import Idealize.ShloMosaic.Lib.ValueIdx

noncomputable section

open scoped BigOperators

namespace Cert.Lib.RealOps

open Idealize.ShloMosaic

/-! ## Extended reals that are real numbers -/

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb
  exact ⟨r + s, (EReal.coe_add r s).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb
  exact ⟨r - s, (EReal.coe_sub r s).symm⟩

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb
  exact ⟨r * s, (EReal.coe_mul r s).symm⟩

/-- A finite sum of reals is a real. -/
theorem real_sum {ι : Type*} (s : Finset ι) (f : ι → EReal) (h : ∀ i ∈ s, ∃ r : ℝ, f i = (r : EReal)) :
    ∃ r : ℝ, ∑ i ∈ s, f i = (r : EReal) := by
  classical
  revert h
  refine Finset.induction_on s ?_ ?_
  · intro _; exact ⟨0, by simp⟩
  · intro a s ha ih h
    rw [Finset.sum_insert ha]
    exact real_add (h a (Finset.mem_insert_self a s)) (ih fun i hi => h i (Finset.mem_insert_of_mem hi))

/-- A finite sum of nonnegative reals is a nonnegative real. -/
theorem nonneg_sum {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  revert h
  refine Finset.induction_on s ?_ ?_
  · intro _; exact ⟨0, le_refl _, by simp⟩
  · intro a s ha ih h
    rw [Finset.sum_insert ha]
    obtain ⟨r, hr, er⟩ := h a (Finset.mem_insert_self a s)
    obtain ⟨t, ht, et⟩ := ih fun i hi => h i (Finset.mem_insert_of_mem hi)
    exact ⟨r + t, add_nonneg hr ht, by rw [er, et, EReal.coe_add]⟩

/-- A real divided by a nonzero real is their real quotient: no corner of the extended division is met. -/
theorem div_real (r : ℝ) {s : ℝ} (hs : s ≠ 0) : Ideal.div (r : EReal) (s : EReal) = ((r / s : ℝ) : EReal) := by
  rw [Ideal.div_coe hs, ← EReal.coe_mul, mul_one_div]

/-- The inverse square root of a positive real is the positive real `(√r)⁻¹`. -/
theorem rsqrt_real {r : ℝ} (hr : 0 < r) : Ideal.rsqrt (r : EReal) = (((Real.sqrt r)⁻¹ : ℝ) : EReal) := by
  rw [Ideal.rsqrt_coe, if_neg (not_lt.mpr hr.le), if_neg hr.ne']

/-- `exp x - 1` of a real is the real `exp r - 1`. -/
theorem expm1_real (r : ℝ) : Ideal.exp (r : EReal) - 1 = ((Real.exp r - 1 : ℝ) : EReal) := by
  rw [Ideal.exp_coe, ← EReal.coe_one, ← EReal.coe_sub]

/-! ## The predicates -/

variable {S T U : Shape}

/-- Every entry of the array is a real number. -/
def IsReal (v : S.Idx → EReal) : Prop := ∀ x, ∃ r : ℝ, v x = (r : EReal)
/-- Every entry of the array is a nonnegative real number. -/
def IsNonneg (v : S.Idx → EReal) : Prop := ∀ x, ∃ r : ℝ, 0 ≤ r ∧ v x = (r : EReal)
/-- Every entry of the array is a positive real number. -/
def IsPos (v : S.Idx → EReal) : Prop := ∀ x, ∃ r : ℝ, 0 < r ∧ v x = (r : EReal)
/-- Every entry of the array is a nonzero real number. -/
def IsNonzero (v : S.Idx → EReal) : Prop := ∀ x, ∃ r : ℝ, r ≠ 0 ∧ v x = (r : EReal)

/-- Nonnegative reals are reals. -/
theorem IsNonneg.isReal {v : S.Idx → EReal} (h : IsNonneg v) : IsReal v :=
  fun x => let ⟨r, _, e⟩ := h x; ⟨r, e⟩
/-- Positive reals are reals. -/
theorem IsPos.isReal {v : S.Idx → EReal} (h : IsPos v) : IsReal v :=
  fun x => let ⟨r, _, e⟩ := h x; ⟨r, e⟩
/-- Positive reals are nonnegative. -/
theorem IsPos.isNonneg {v : S.Idx → EReal} (h : IsPos v) : IsNonneg v :=
  fun x => let ⟨r, hr, e⟩ := h x; ⟨r, hr.le, e⟩
/-- Positive reals are nonzero. -/
theorem IsPos.isNonzero {v : S.Idx → EReal} (h : IsPos v) : IsNonzero v :=
  fun x => let ⟨r, hr, e⟩ := h x; ⟨r, hr.ne', e⟩
/-- Nonzero reals are reals. -/
theorem IsNonzero.isReal {v : S.Idx → EReal} (h : IsNonzero v) : IsReal v :=
  fun x => let ⟨r, _, e⟩ := h x; ⟨r, e⟩

/-! ## Operations whose result entries are operand entries -/

/-- Any re-indexing of an array of reals (`fun j => x (g j)`) is an array of reals. -/
theorem IsReal.comp {x : S.Idx → EReal} (h : IsReal x) (g : T.Idx → S.Idx) : IsReal fun j => x (g j) :=
  fun j => h (g j)
/-- Any re-indexing of an array of nonnegative reals is one. -/
theorem IsNonneg.comp {x : S.Idx → EReal} (h : IsNonneg x) (g : T.Idx → S.Idx) : IsNonneg fun j => x (g j) :=
  fun j => h (g j)
/-- Any re-indexing of an array of positive reals is one. -/
theorem IsPos.comp {x : S.Idx → EReal} (h : IsPos x) (g : T.Idx → S.Idx) : IsPos fun j => x (g j) :=
  fun j => h (g j)
/-- Any re-indexing of an array of nonzero reals is one. -/
theorem IsNonzero.comp {x : S.Idx → EReal} (h : IsNonzero x) (g : T.Idx → S.Idx) : IsNonzero fun j => x (g j) :=
  fun j => h (g j)

/-- `broadcast_in_dim` reads operand entries: reals stay reals. -/
theorem isReal_broadcastInDim (dims : Fin S.rank → Fin T.rank) (hb : S.BroadcastsInDim T dims) {x : S.Idx → EReal}
    (h : IsReal x) : IsReal (broadcastInDim T dims hb x) :=
  fun _ => h _
/-- `broadcast_in_dim` reads operand entries: nonnegative reals stay so. -/
theorem isNonneg_broadcastInDim (dims : Fin S.rank → Fin T.rank) (hb : S.BroadcastsInDim T dims) {x : S.Idx → EReal}
    (h : IsNonneg x) : IsNonneg (broadcastInDim T dims hb x) :=
  fun _ => h _
/-- `broadcast_in_dim` reads operand entries: positive reals stay so. -/
theorem isPos_broadcastInDim (dims : Fin S.rank → Fin T.rank) (hb : S.BroadcastsInDim T dims) {x : S.Idx → EReal}
    (h : IsPos x) : IsPos (broadcastInDim T dims hb x) :=
  fun _ => h _
/-- `broadcast_in_dim` reads operand entries: nonzero reals stay so. -/
theorem isNonzero_broadcastInDim (dims : Fin S.rank → Fin T.rank) (hb : S.BroadcastsInDim T dims) {x : S.Idx → EReal}
    (h : IsNonzero x) : IsNonzero (broadcastInDim T dims hb x) :=
  fun _ => h _

/-- A transpose reads operand entries: reals stay reals. -/
theorem isReal_transpose (perm : List (Fin S.rank)) (ht : S.Transposes perm T) {x : S.Idx → EReal} (h : IsReal x) :
    IsReal (transpose T perm x ht) :=
  fun _ => h _

/-- A reshape reads operand entries: reals stay reals. -/
theorem isReal_shapeCast (hc : S.ShapeCasts T) {x : S.Idx → EReal} (h : IsReal x) : IsReal (shapeCast T x hc) :=
  fun _ => h _

/-- A select between two arrays of reals is an array of reals, whatever the condition. -/
theorem isReal_select (c : IVec S 1) {a b : S.Idx → EReal} (ha : IsReal a) (hb : IsReal b) : IsReal (select c a b) := by
  intro i
  show ∃ r : ℝ, Scalar.select (c i) (a i) (b i) = (r : EReal)
  unfold Scalar.select
  split
  · exact ha i
  · exact hb i

/-- A select whose condition is one everywhere is its first branch. -/
theorem select_eq_left (c : IVec S 1) (a b : S.Idx → EReal) (hc : ∀ i, c i = 1#1) : select c a b = a := by
  funext i
  show Scalar.select (c i) (a i) (b i) = a i
  rw [hc i]; exact ValueIdx.select_one _ _

/-! ## Constants -/

/-- A splat constant whose word denotes a real is an array of reals. -/
theorem isReal_constant (φ : FTy) (w : BitVec φ.bits) (h : ∃ r : ℝ, Ideal.ofBits φ w = (r : EReal)) :
    IsReal (constant (F := Ideal) S φ w) :=
  fun _ => h
/-- A splat constant whose word denotes a positive real is an array of positive reals. -/
theorem isPos_constant (φ : FTy) (w : BitVec φ.bits) (h : ∃ r : ℝ, 0 < r ∧ Ideal.ofBits φ w = (r : EReal)) :
    IsPos (constant (F := Ideal) S φ w) :=
  fun _ => h
/-- A splat constant whose word denotes a nonnegative real is an array of nonnegative reals. -/
theorem isNonneg_constant (φ : FTy) (w : BitVec φ.bits) (h : ∃ r : ℝ, 0 ≤ r ∧ Ideal.ofBits φ w = (r : EReal)) :
    IsNonneg (constant (F := Ideal) S φ w) :=
  fun _ => h

/-! ## Pointwise arithmetic -/

variable {φ : FTy}

/-- The sum of two arrays of reals is an array of reals. -/
theorem isReal_addf {a b : FVec Ideal S φ} (ha : IsReal a) (hb : IsReal b) : IsReal (addf a b) :=
  fun i => real_add (ha i) (hb i)
/-- The difference of two arrays of reals is an array of reals. -/
theorem isReal_subf {a b : FVec Ideal S φ} (ha : IsReal a) (hb : IsReal b) : IsReal (subf a b) :=
  fun i => real_sub (ha i) (hb i)
/-- The product of two arrays of reals is an array of reals. -/
theorem isReal_mulf {a b : FVec Ideal S φ} (ha : IsReal a) (hb : IsReal b) : IsReal (mulf a b) :=
  fun i => real_mul (ha i) (hb i)

/-- The square of an array of reals is an array of nonnegative reals. -/
theorem isNonneg_mulf_self {a : FVec Ideal S φ} (ha : IsReal a) : IsNonneg (mulf a a) := by
  intro i
  obtain ⟨r, e⟩ := ha i
  refine ⟨r * r, mul_self_nonneg r, ?_⟩
  show a i * a i = _
  rw [e, EReal.coe_mul]

/-- A nonnegative array plus a positive array is a positive array. -/
theorem isPos_addf {a b : FVec Ideal S φ} (ha : IsNonneg a) (hb : IsPos b) : IsPos (addf a b) := by
  intro i
  obtain ⟨r, hr, er⟩ := ha i
  obtain ⟨s, hs, es⟩ := hb i
  refine ⟨r + s, add_pos_of_nonneg_of_pos hr hs, ?_⟩
  show a i + b i = _
  rw [er, es, EReal.coe_add]

/-- A real array minus a real array whose difference is entrywise positive: stated on the entries. -/
theorem isPos_subf {a b : FVec Ideal S φ} (h : ∀ i, ∃ r s : ℝ, s < r ∧ a i = (r : EReal) ∧ b i = (s : EReal)) :
    IsPos (subf a b) := by
  intro i
  obtain ⟨r, s, hrs, er, es⟩ := h i
  refine ⟨r - s, sub_pos.mpr hrs, ?_⟩
  show a i - b i = _
  rw [er, es, EReal.coe_sub]

/-- `exp x - 1` of an array of reals is an array of reals. -/
theorem isReal_expm1 {a : FVec Ideal S φ} (ha : IsReal a) : IsReal (Host.expm1 a) := by
  intro i
  obtain ⟨r, e⟩ := ha i
  refine ⟨Real.exp r - 1, ?_⟩
  show Ideal.exp (a i) - 1 = _
  rw [e, expm1_real]

/-- A host quotient of an array of reals by an array of nonzero reals is an array of reals. -/
theorem isReal_divf {a b : FVec Ideal S φ} (ha : IsReal a) (hb : IsNonzero b) : IsReal (Host.divf a b) := by
  intro i
  obtain ⟨r, er⟩ := ha i
  obtain ⟨s, hs, es⟩ := hb i
  refine ⟨r / s, ?_⟩
  show Ideal.div (a i) (b i) = _
  rw [er, es, div_real r hs]

/-- A host quotient of an array of nonnegative reals by an array of positive reals is an array of nonnegative reals. -/
theorem isNonneg_divf {a b : FVec Ideal S φ} (ha : IsNonneg a) (hb : IsPos b) : IsNonneg (Host.divf a b) := by
  intro i
  obtain ⟨r, hr, er⟩ := ha i
  obtain ⟨s, hs, es⟩ := hb i
  refine ⟨r / s, div_nonneg hr hs.le, ?_⟩
  show Ideal.div (a i) (b i) = _
  rw [er, es, div_real r hs.ne']

/-- The host inverse square root of an array of positive reals is an array of positive reals. -/
theorem isPos_rsqrt {a : FVec Ideal S φ} (ha : IsPos a) : IsPos (Host.rsqrt a) := by
  intro i
  obtain ⟨r, hr, e⟩ := ha i
  refine ⟨(Real.sqrt r)⁻¹, inv_pos.mpr (Real.sqrt_pos.mpr hr), ?_⟩
  show Ideal.rsqrt (a i) = _
  rw [e, rsqrt_real hr]

/-- The host inverse square root of an array of positive reals is an array of reals. -/
theorem isReal_rsqrt {a : FVec Ideal S φ} (ha : IsPos a) : IsReal (Host.rsqrt a) := (isPos_rsqrt ha).isReal

/-! ## Contractions and reductions -/

/-- A host `dot_general` of two arrays of reals is an array of reals: each entry is a finite sum of products. -/
theorem isReal_dotGeneral {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r) := by
  intro j
  show ∃ t : ℝ, FloatOps.dotGeneral d prec .single l r j = (t : EReal)
  rw [Ideal.dotGeneral_apply]
  exact real_sum _ _ fun k _ => real_mul (hl _) (hr _)

/-- A host float sum of an array of reals from a real initial value is an array of reals. -/
theorem isReal_reduceAdd {axes : List (Fin S.rank)} (hred : S.ReducesTo axes T) (hu : 0 < U.numel)
    {x : FVec Ideal S φ} {init : U.Idx → EReal} (hx : IsReal x) (hi : IsReal init) :
    IsReal (Host.reduceAdd (F := Ideal) x init hred hu) := by
  intro j
  show ∃ t : ℝ, Ideal.hostReduceAdd hred x (init (Shape.Idx.first hu)) j = (t : EReal)
  unfold Ideal.hostReduceAdd
  exact real_add (hi _) (real_sum _ _ fun i _ => hx i)

/-- A host float sum of an array of nonnegative reals from a nonnegative initial value is an array of nonnegative reals. -/
theorem isNonneg_reduceAdd {axes : List (Fin S.rank)} (hred : S.ReducesTo axes T) (hu : 0 < U.numel)
    {x : FVec Ideal S φ} {init : U.Idx → EReal} (hx : IsNonneg x) (hi : IsNonneg init) :
    IsNonneg (Host.reduceAdd (F := Ideal) x init hred hu) := by
  intro j
  show ∃ t : ℝ, 0 ≤ t ∧ Ideal.hostReduceAdd hred x (init (Shape.Idx.first hu)) j = (t : EReal)
  unfold Ideal.hostReduceAdd
  obtain ⟨r, hr, er⟩ := hi (Shape.Idx.first hu)
  obtain ⟨t, ht, et⟩ := nonneg_sum (Finset.univ.filter fun i => hred.drop i = j) x fun i _ => hx i
  exact ⟨r + t, add_nonneg hr ht, by rw [er, et, EReal.coe_add]⟩

/-- A MEAN OF SQUARES IS A NONNEGATIVE REAL: the host sum of the squares of an array of reals, from a nonnegative
    initial value, divided by an array of positive reals. -/
theorem isNonneg_mean_sq {axes : List (Fin S.rank)} (hred : S.ReducesTo axes T) (hu : 0 < U.numel)
    {x : FVec Ideal S φ} {init : U.Idx → EReal} {n : FVec Ideal T φ} (hx : IsReal x) (hi : IsNonneg init) (hn : IsPos n) :
    IsNonneg (Host.divf (Host.reduceAdd (F := Ideal) (mulf x x) init hred hu) n) :=
  isNonneg_divf (isNonneg_reduceAdd hred hu (isNonneg_mulf_self hx) hi) hn

/-! ## Literal words and conversions -/

/-- A pattern whose exponent field is not all ones denotes a real number (a zero, a subnormal or a normal). -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split <;> exact ⟨_, rfl⟩

/-- A pattern with sign bit zero and exponent field neither zero nor all ones (a positive normal) denotes a positive
    real: `(2^m + fraction) · 2^(exponent − bias − m)`, a product of two positive numbers. -/
theorem ieee_pos (e m : Nat) {w : Nat} (b : BitVec w) (hs : (b.extractLsb' (e + m) 1 == 1#1) = false)
    (h0 : (b.extractLsb' m e).toNat ≠ 0) (h1 : (b.extractLsb' m e).toNat ≠ 2 ^ e - 1) :
    ∃ r : ℝ, 0 < r ∧ Ideal.ieee e m b = (r : EReal) := by
  unfold Ideal.ieee
  dsimp only
  rw [if_neg h1, if_neg h0, hs]
  refine ⟨_, ?_, rfl⟩
  have h2 : (0 : ℝ) < (2 : ℝ) ^ (((b.extractLsb' m e).toNat : Int) - (2 ^ (e - 1) - 1) - (m : Int)) := zpow_pos (by norm_num) _
  have h3 : (0 : ℝ) < ((2 ^ m + (b.extractLsb' 0 m).toNat : Nat) : ℝ) := by
    have : 0 < 2 ^ m + (b.extractLsb' 0 m).toNat := Nat.add_pos_left (Nat.two_pow_pos m) _
    exact_mod_cast this
  simpa using mul_pos h3 h2

/-- An f32 word whose exponent field is not 255 denotes a real number. -/
theorem ofBits_f32_real (b : BitVec 32) (h : (b.extractLsb' 23 8).toNat ≠ 255) :
    ∃ r : ℝ, Ideal.ofBits .f32 b = (r : EReal) :=
  ieee_real 8 23 b h

/-- An f32 word with sign bit zero and exponent field neither 0 nor 255 denotes a positive real. -/
theorem ofBits_f32_pos (b : BitVec 32) (hs : (b.extractLsb' 31 1 == 1#1) = false)
    (h0 : (b.extractLsb' 23 8).toNat ≠ 0) (h1 : (b.extractLsb' 23 8).toNat ≠ 255) :
    ∃ r : ℝ, 0 < r ∧ Ideal.ofBits .f32 b = (r : EReal) :=
  ieee_pos 8 23 b hs h0 h1

/-- The zero word of f32 denotes the real `0`. -/
theorem ofBits_zero : Ideal.ofBits .f32 0x00000000#32 = ((0 : ℝ) : EReal) := by
  rw [Ideal.ofBits_zero_f32, EReal.coe_zero]

/-- A signed integer array converted to float is an array of reals: each entry is the integer itself. -/
theorem isReal_sitofp {w : Nat} (x : IVec S w) : IsReal (sitofp (F := Ideal) φ x) :=
  fun i => ⟨((x i).toInt : ℝ), rfl⟩

/-- Where the integer array is zero, its conversion is the real `0`. -/
theorem sitofp_zero (x : IVec S 32) (i : S.Idx) (h : x i = 0#32) : sitofp (F := Ideal) φ x i = ((0 : ℝ) : EReal) := by
  show (((x i).toInt : ℝ) : EReal) = _
  rw [h]; simp

end Cert.Lib.RealOps

end
-- ==== Proof.PreReal.lean ====
/-
  From the precondition to "every entry of every argument array is a real number".

  The precondition says that a printed predicate evaluates to one: the conjunction, over the seven
  argument arrays, of "all entries satisfy |x| < +∞". Each conjunct is a reduction by `and` of a
  pointwise comparison into a single bit; the bit being one, every compared entry has
  `max x (-x) < ⊤` on the extended reals, and that excludes both infinities: the entry is a real.
-/
import proofs.«123053_j26680336843043_1_alg».proof.Defs
import proofs.«123053_j26680336843043_1_alg».proof.Proof.LibRealOps
import Idealize.ShloMosaic.Lib.ReduceAll

noncomputable section

namespace Cert.KernelIdeal.HeadReal

open Idealize.ShloMosaic Idealize.SL.Sem Cert.Lib.RealOps

/-- The scalar shape has one index. -/
instance scalarIdx_subsingleton : Subsingleton (⟨0, ![]⟩ : Shape).Idx := ⟨fun a b => funext fun d => d.elim0⟩

/-- The word `0x7F800000` denotes `+∞`. -/
theorem ofBits_inf : Ideal.ofBits .f32 0x7F800000#32 = ⊤ := by simp [Ideal.ofBits, Ideal.ieee]

/-- An extended real whose absolute value `max x (-x)` compares below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- One conjunct of the predicate read back: if the `and`-reduction of `|x| < +∞` over all of `x` is one,
    every entry of `x` is a real number. -/
theorem isReal_of_all_finite {S : Shape} (hb : (⟨0, ![]⟩ : Shape).BroadcastsInDim S (![] : Fin 0 → Fin S.rank))
    {axes : List (Fin S.rank)} (hr : S.ReducesTo axes ⟨0, ![]⟩) (hu : 0 < (⟨0, ![]⟩ : Shape).numel)
    (x : FVec Ideal S .f32) (init : IVec ⟨0, ![]⟩ 1)
    (h : Host.reduce IntOp.andi
          (cmpf .olt (Host.absf x) (broadcastInDim S ![] hb (constant (F := Ideal) ⟨0, ![]⟩ .f32 0x7F800000#32))) init hr hu
          ValueIdx.ix0 = 1#1) :
    IsReal x := by
  intro i
  exact real_of_abs_lt_inf (x i) (Host.reduce_andi_all _ init hr hu ValueIdx.ix0 h i)

/-- A pointwise `and` read at an index. -/
theorem andi_apply {s : Shape} {w : Nat} (x y : IVec s w) (i : s.Idx) : andi x y i = IntOp.andi (x i) (y i) := rfl

variable [Cert.Pre_finite_inputs.Facts]

/-- THE PRECONDITION DECODED: on every core, every entry of each of the seven argument arrays is a real number. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (m ((c.tc : Thread Cert.KernelIdeal.nD Cert.KernelIdeal.τ).loc Cert.KernelIdeal.main_arg0) : Cert.KernelIdeal.S8192x784.Idx → EReal)
    ∧ IsReal (m ((c.tc : Thread Cert.KernelIdeal.nD Cert.KernelIdeal.τ).loc Cert.KernelIdeal.main_arg1) : Cert.KernelIdeal.S128x784.Idx → EReal)
    ∧ IsReal (m ((c.tc : Thread Cert.KernelIdeal.nD Cert.KernelIdeal.τ).loc Cert.KernelIdeal.main_arg2) : Cert.KernelIdeal.S128.Idx → EReal)
    ∧ IsReal (m ((c.tc : Thread Cert.KernelIdeal.nD Cert.KernelIdeal.τ).loc Cert.KernelIdeal.main_arg3) : Cert.KernelIdeal.S128.Idx → EReal)
    ∧ IsReal (m ((c.tc : Thread Cert.KernelIdeal.nD Cert.KernelIdeal.τ).loc Cert.KernelIdeal.main_arg4) : Cert.KernelIdeal.S128.Idx → EReal)
    ∧ IsReal (m ((c.tc : Thread Cert.KernelIdeal.nD Cert.KernelIdeal.τ).loc Cert.KernelIdeal.main_arg5) : Cert.KernelIdeal.S2x128.Idx → EReal)
    ∧ IsReal (m ((c.tc : Thread Cert.KernelIdeal.nD Cert.KernelIdeal.τ).loc Cert.KernelIdeal.main_arg6) : Cert.KernelIdeal.S2.Idx → EReal) := by
  have h := congrFun (hpre c) ValueIdx.ix0
  dsimp only [Cert.Pre_finite_inputs.fn, Cert.Pre_finite_inputs.fn_part1] at h
  simp only [andi_apply, IntOp.andi_eq_one] at h
  obtain ⟨⟨⟨⟨⟨⟨h0, h1⟩, h2⟩, h3⟩, h4⟩, h5⟩, h6⟩ := h
  exact ⟨isReal_of_all_finite _ _ _ _ _ h0, isReal_of_all_finite _ _ _ _ _ h1, isReal_of_all_finite _ _ _ _ _ h2,
    isReal_of_all_finite _ _ _ _ _ h3, isReal_of_all_finite _ _ _ _ _ h4, isReal_of_all_finite _ _ _ _ _ h5,
    isReal_of_all_finite _ _ _ _ _ h6⟩

end Cert.KernelIdeal.HeadReal

end
-- ==== Proof.HeadReal0.lean ====
/-
  The first dense layer, `h = x · Wᵀ + b`: a transpose of the weights, a contraction of two arrays over the 784
  features, and the bias broadcast over the rows, added. With real inputs, weights and bias every entry of `h`
  is a finite sum of products of reals plus a real: a real number.
-/
import proofs.«123053_j26680336843043_1_alg».proof.Proof.Gen.KernelIdeal.Regions
import proofs.«123053_j26680336843043_1_alg».proof.Proof.LibRealOps

noncomputable section

namespace Cert.KernelIdeal.HeadReal

open Idealize.ShloMosaic Idealize.ShloMosaic.TcCoe Idealize.SL.Sem
open Cert.KernelIdeal Cert.KernelIdeal.Gen Cert.Lib.RealOps

/-- After the first stretch of host operations, from any buffer contents `W` whose input, weight and bias arrays
    are real, the pre-activation `h` (buffer `main_v4`) is real. -/
theorem dense1_real (W : Valuation τ sig (Elt Ideal))
    (h0 : IsReal (S := S8192x784) (W (Proc.devRef .tc main_arg0)))
    (h1 : IsReal (S := S128x784) (W (Proc.devRef .tc main_arg1)))
    (h2 : IsReal (S := S128) (W (Proc.devRef .tc main_arg2))) :
    IsReal (S := S8192x128) (StableHlo.after (hostOps0 (F := Ideal)) W (Proc.devRef .tc main_v4)) := by
  after_results_simp
  exact isReal_addf (isReal_dotGeneral _ _ h0 (isReal_transpose _ _ h1))
    (isReal_broadcastInDim _ _ (isReal_broadcastInDim _ _ h2))

end Cert.KernelIdeal.HeadReal

end
-- ==== Proof.HeadRealSelu.lean ====
/-
  The scaled exponential linear unit as the array term it is printed to, at any shape:

      selu x = λ · (x where x > 0, else α · (exp(x') − 1))      with x' = (0 where x > 0, else x),

  `λ` the word `0x3F867D5F` (1.0507…) and `α` the word `0x3FD62D7D` (1.6732…), each broadcast from a scalar.
  Both words denote real numbers, `exp r − 1` of a real is real, and a select between reals is real whatever
  its condition: so selu of an array of reals is an array of reals.
-/
import proofs.«123053_j26680336843043_1_alg».proof.Proof.LibRealOps

noncomputable section

namespace Cert.KernelIdeal.HeadReal

open Idealize.ShloMosaic Cert.Lib.RealOps

/-- The scalar shape. -/
abbrev Sc : Shape := ⟨0, ![]⟩

/-- A scalar constant broadcast to shape `S`. -/
abbrev splat {S : Shape} (hb : Sc.BroadcastsInDim S (![] : Fin 0 → Fin S.rank)) (w : BitVec 32) : FVec Ideal S .f32 :=
  broadcastInDim S ![] hb (constant (F := Ideal) Sc .f32 w)

/-- A broadcast scalar constant whose word denotes a real is an array of reals. -/
theorem splat_real {S : Shape} (hb : Sc.BroadcastsInDim S (![] : Fin 0 → Fin S.rank)) (w : BitVec 32)
    (h : (w.extractLsb' 23 8).toNat ≠ 255) : IsReal (splat hb w) :=
  isReal_broadcastInDim _ _ (isReal_constant _ _ (ofBits_f32_real w h))

/-- SELU of `x`, operation by operation as printed. -/
def seluT {S : Shape} (hb : Sc.BroadcastsInDim S (![] : Fin 0 → Fin S.rank)) (x : FVec Ideal S .f32) : FVec Ideal S .f32 :=
  mulf (splat hb 0x3F867D5F#32)
    (select (cmpf .ogt x (splat hb 0x00000000#32)) x
      (mulf (splat hb 0x3FD62D7D#32)
        (Host.expm1 (select (cmpf .ogt x (splat hb 0x00000000#32)) (splat hb 0x00000000#32) x))))

/-- SELU of an array of reals is an array of reals. -/
theorem seluT_real {S : Shape} (hb : Sc.BroadcastsInDim S (![] : Fin 0 → Fin S.rank)) {x : FVec Ideal S .f32}
    (hx : IsReal x) : IsReal (seluT hb x) :=
  isReal_mulf (splat_real hb _ (by decide))
    (isReal_select _ hx
      (isReal_mulf (splat_real hb _ (by decide))
        (isReal_expm1 (isReal_select _ (splat_real hb _ (by decide)) hx))))

end Cert.KernelIdeal.HeadReal

end
-- ==== Proof.HeadReal1.lean ====
/-
  The first activation, `a = selu h`: the second stretch of host operations is the scaled exponential linear unit
  applied to the pre-activation, so it keeps real entries real.
-/
import proofs.«123053_j26680336843043_1_alg».proof.Proof.Gen.KernelIdeal.Regions
import proofs.«123053_j26680336843043_1_alg».proof.Proof.LibRealOps
import proofs.«123053_j26680336843043_1_alg».proof.Proof.HeadRealSelu

noncomputable section

namespace Cert.KernelIdeal.HeadReal

open Idealize.ShloMosaic Idealize.ShloMosaic.TcCoe Idealize.SL.Sem
open Cert.KernelIdeal Cert.KernelIdeal.Gen Cert.Lib.RealOps

/-- The second stretch writes `selu` of buffer `main_v4` into buffer `main_v5`. -/
theorem act1_eq (W : Valuation τ sig (Elt Ideal)) :
    (StableHlo.after (hostOps0_1 (F := Ideal)) W (Proc.devRef .tc main_v5) : S8192x128.Idx → EReal)
      = seluT bcast_S_S8192x128 (W (Proc.devRef .tc main_v4)) := by
  after_results_simp
  rfl

/-- After the second stretch, from contents whose pre-activation is real, the activation (buffer `main_v5`) is real. -/
theorem act1_real (W : Valuation τ sig (Elt Ideal))
    (h4 : IsReal (S := S8192x128) (W (Proc.devRef .tc main_v4))) :
    IsReal (S := S8192x128) (StableHlo.after (hostOps0_1 (F := Ideal)) W (Proc.devRef .tc main_v5)) := by
  rw [act1_eq]
  exact seluT_real _ h4

end Cert.KernelIdeal.HeadReal

end
-- ==== Proof.HeadReal2.lean ====
/-
  The batch mean, `μ_k = (∑_i a_ik) / 8192`: a host sum over the rows from the initial value zero, divided by the
  constant 8192.0 (the word `0x46000000`, a positive real). A sum of reals divided by a nonzero real is real.
  The same stretch also writes the integer constant zero (the `ddof` argument of the variance that follows).
-/
import proofs.«123053_j26680336843043_1_alg».proof.Proof.Gen.KernelIdeal.Regions
import proofs.«123053_j26680336843043_1_alg».proof.Proof.LibRealOps

noncomputable section

namespace Cert.KernelIdeal.HeadReal

open Idealize.ShloMosaic Idealize.ShloMosaic.TcCoe Idealize.SL.Sem
open Cert.KernelIdeal Cert.KernelIdeal.Gen Cert.Lib.RealOps

/-- After the third stretch, from contents whose activation is real, the mean (buffer `main_v8`) is real. -/
theorem mean_real (W : Valuation τ sig (Elt Ideal))
    (h5 : IsReal (S := S8192x128) (W (Proc.devRef .tc main_v5))) :
    IsReal (S := S128) (StableHlo.after (hostOps0_2 (F := Ideal)) W (Proc.devRef .tc main_v8)) := by
  after_results_simp
  exact isReal_divf
    (isReal_reduceAdd _ _ h5 (isReal_constant _ _ (ofBits_f32_real _ (by decide))))
    (isPos_broadcastInDim _ _ (isPos_constant _ _ (ofBits_f32_pos _ (by decide) (by decide) (by decide)))).isNonzero

/-- The third stretch leaves the integer zero in buffer `main_c`. -/
theorem ddof_eq (W : Valuation τ sig (Elt Ideal)) (i : S_.Idx) :
    (StableHlo.after (hostOps0_2 (F := Ideal)) W (Proc.devRef .tc main_c) : S_.Idx → BitVec 32) i = 0#32 := by
  after_results_simp
  rfl

end Cert.KernelIdeal.HeadReal

end
-- ==== Proof.HeadReal3.lean ====
/-
  The batch variance, `σ²_k = (∑_i (a_ik − μ_k)²) / (8192 − ddof)` with `ddof = 0`, as the program computes it: the mean
  again (a host sum over the rows divided by 8192.0), the deviations, their squares, the host sum of the squares
  from zero, divided by the count `n = 8192.0 − float(ddof)` broadcast; and a final guard
  `select(n > 0, quotient, NaN)`. The integer `ddof` is zero, so `n` is the positive real that the word
  `0x46000000` denotes, the guard's condition is one everywhere and the quotient is taken: a sum of squares of reals,
  from zero, divided by a positive real, is a nonnegative real.
-/
import proofs.«123053_j26680336843043_1_alg».proof.Proof.Gen.KernelIdeal.Regions
import proofs.«123053_j26680336843043_1_alg».proof.Proof.LibRealOps

noncomputable section

namespace Cert.KernelIdeal.HeadReal

open Idealize.ShloMosaic Idealize.ShloMosaic.TcCoe Idealize.SL.Sem
open Cert.KernelIdeal Cert.KernelIdeal.Gen Cert.Lib.RealOps

/-- The count, `8192.0 − float(c)`, as a scalar. -/
def cntT (c : IVec S_ 32) : FVec Ideal S_ .f32 :=
  subf (constant (F := Ideal) S_ .f32 0x46000000#32) (sitofp (F := Ideal) .f32 c)

/-- The deviations from the column means: `x − broadcast((∑ rows of x) / 8192.0)`. -/
def devT (x : FVec Ideal S8192x128 .f32) : FVec Ideal S8192x128 .f32 :=
  subf x (broadcastInDim S8192x128 ![0, 1] bcast_S1x128_S8192x128_0_1
    (Host.divf
      (broadcastInDim S1x128 ![1] bcast_S128_S1x128_1
        (Host.reduceAdd (F := Ideal) x (constant (F := Ideal) S_ .f32 0x00000000#32) reducesTo_S8192x128_S128_d0 h_S_))
      (broadcastInDim S1x128 ![] bcast_S_S1x128 (constant (F := Ideal) S_ .f32 0x46000000#32))))

/-- The variance of `x` with `ddof = c`, operation by operation as printed. -/
def varT (x : FVec Ideal S8192x128 .f32) (c : IVec S_ 32) : FVec Ideal S128 .f32 :=
  select (broadcastInDim S128 ![] bcast_S_S128 (cmpf .ogt (cntT c) (constant (F := Ideal) S_ .f32 0x00000000#32)))
    (Host.divf
      (Host.reduceAdd (F := Ideal) (mulf (devT x) (devT x)) (constant (F := Ideal) S_ .f32 0x00000000#32)
        reducesTo_S8192x128_S128_d0 h_S_)
      (broadcastInDim S128 ![] bcast_S_S128 (cntT c)))
    (broadcastInDim S128 ![] bcast_S_S128 (constant (F := Ideal) S_ .f32 0x7FC00000#32))

/-- The scalar zero constant is a nonnegative real. -/
theorem zero_nonneg : IsNonneg (constant (F := Ideal) S_ .f32 0x00000000#32) :=
  isNonneg_constant _ _ ⟨0, le_refl _, ofBits_zero⟩

/-- With `ddof = 0` the count is the positive real the word `0x46000000` denotes. -/
theorem cntT_pos (c : IVec S_ 32) (hc : ∀ i, c i = 0#32) : IsPos (cntT c) := by
  obtain ⟨r, hr, er⟩ := ofBits_f32_pos 0x46000000#32 (by decide) (by decide) (by decide)
  intro i
  refine ⟨r, hr, ?_⟩
  show Ideal.ofBits .f32 0x46000000#32 - sitofp (F := Ideal) .f32 c i = _
  rw [sitofp_zero c i (hc i), er, ← EReal.coe_sub, sub_zero]

/-- So the guard `n > 0`, broadcast over the columns, is one everywhere. -/
theorem guard_one (c : IVec S_ 32) (hc : ∀ i, c i = 0#32) (i : S128.Idx) :
    broadcastInDim S128 ![] bcast_S_S128 (cmpf .ogt (cntT c) (constant (F := Ideal) S_ .f32 0x00000000#32)) i = 1#1 := by
  show Ideal.cmp .ogt (cntT c _) (Ideal.ofBits .f32 0x00000000#32) = 1#1
  obtain ⟨r, hr, er⟩ := cntT_pos c hc _
  rw [er, Ideal.ofBits_zero_f32]
  have hpos : (0 : EReal) < (r : EReal) := EReal.coe_pos.mpr hr
  simp [Ideal.cmp, hpos]

/-- The deviations of an array of reals are reals. -/
theorem devT_real {x : FVec Ideal S8192x128 .f32} (hx : IsReal x) : IsReal (devT x) :=
  isReal_subf hx (isReal_broadcastInDim _ _
    (isReal_divf (isReal_broadcastInDim _ _ (isReal_reduceAdd _ _ hx zero_nonneg.isReal))
      (isPos_broadcastInDim _ _ (isPos_constant _ _ (ofBits_f32_pos _ (by decide) (by decide) (by decide)))).isNonzero))

/-- The variance of an array of reals with `ddof = 0` is an array of nonnegative reals. -/
theorem varT_nonneg {x : FVec Ideal S8192x128 .f32} (hx : IsReal x) (c : IVec S_ 32) (hc : ∀ i, c i = 0#32) :
    IsNonneg (varT x c) := by
  unfold varT
  rw [select_eq_left _ _ _ (guard_one c hc)]
  exact isNonneg_mean_sq _ _ (devT_real hx) zero_nonneg (isPos_broadcastInDim _ _ (cntT_pos c hc))

/-- The fourth stretch writes the variance of buffer `main_v5` with `ddof` buffer `main_c` into buffer `main_v9`. -/
theorem var_eq (W : Valuation τ sig (Elt Ideal)) :
    (StableHlo.after (hostOps0_3 (F := Ideal)) W (Proc.devRef .tc main_v9) : S128.Idx → EReal)
      = varT (W (Proc.devRef .tc main_v5)) (W (Proc.devRef .tc main_c)) := by
  after_results_simp
  rfl

/-- After the fourth stretch, from contents whose activation is real and whose `ddof` is zero, the variance
    (buffer `main_v9`) is a nonnegative real. -/
theorem var_nonneg (W : Valuation τ sig (Elt Ideal))
    (h5 : IsReal (S := S8192x128) (W (Proc.devRef .tc main_v5)))
    (hc : ∀ i, (W (Proc.devRef .tc main_c) : S_.Idx → BitVec 32) i = 0#32) :
    IsNonneg (S := S128) (StableHlo.after (hostOps0_3 (F := Ideal)) W (Proc.devRef .tc main_v9)) := by
  rw [var_eq]
  exact varT_nonneg h5 _ hc

end Cert.KernelIdeal.HeadReal

end
-- ==== Proof.HeadReal4.lean ====
/-
  The normalisation and the second dense layer,
  `z = ((a − μ) · rsqrt(σ² + ε) · γ + β) · W₂ᵀ + b₂`: the mean and the inverse standard deviation broadcast over
  the rows, the scale `γ` and shift `β` broadcast likewise, then a contraction over the 128 hidden units and the bias.
  `ε` is the word `0x3727C5AC`, a positive real, and `σ² ≥ 0`, so `σ² + ε` is a positive real and its inverse
  square root is real; everything else is sums, differences and products of reals.
-/
import proofs.«123053_j26680336843043_1_alg».proof.Proof.Gen.KernelIdeal.Regions
import proofs.«123053_j26680336843043_1_alg».proof.Proof.LibRealOps

noncomputable section

namespace Cert.KernelIdeal.HeadReal

open Idealize.ShloMosaic Idealize.ShloMosaic.TcCoe Idealize.SL.Sem
open Cert.KernelIdeal Cert.KernelIdeal.Gen Cert.Lib.RealOps

/-- After the fifth stretch, from contents whose activation, mean, scale, shift, second weights and second bias are
    real and whose variance is a nonnegative real, the second pre-activation (buffer `main_v29`) is real. -/
theorem dense2_real (W : Valuation τ sig (Elt Ideal))
    (h5 : IsReal (S := S8192x128) (W (Proc.devRef .tc main_v5)))
    (h8 : IsReal (S := S128) (W (Proc.devRef .tc main_v8)))
    (h9 : IsNonneg (S := S128) (W (Proc.devRef .tc main_v9)))
    (a3 : IsReal (S := S128) (W (Proc.devRef .tc main_arg3)))
    (a4 : IsReal (S := S128) (W (Proc.devRef .tc main_arg4)))
    (a5 : IsReal (S := S2x128) (W (Proc.devRef .tc main_arg5)))
    (a6 : IsReal (S := S2) (W (Proc.devRef .tc main_arg6))) :
    IsReal (S := S8192x2) (StableHlo.after (hostOps0_4 (F := Ideal)) W (Proc.devRef .tc main_v29)) := by
  after_results_simp
  have hstd : IsReal (Host.rsqrt (addf (W (Proc.devRef .tc main_v9) : FVec Ideal S128 .f32)
      (broadcastInDim S128 ![] bcast_S_S128 (constant (F := Ideal) S_ .f32 0x3727C5AC#32)))) :=
    isReal_rsqrt (isPos_addf h9
      (isPos_broadcastInDim _ _ (isPos_constant _ _ (ofBits_f32_pos _ (by decide) (by decide) (by decide)))))
  exact isReal_addf
    (isReal_dotGeneral _ _
      (isReal_addf
        (isReal_mulf
          (isReal_mulf
            (isReal_subf h5 (isReal_broadcastInDim _ _ (isReal_broadcastInDim _ _ h8)))
            (isReal_broadcastInDim _ _ (isReal_broadcastInDim _ _ hstd)))
          (isReal_broadcastInDim _ _ (isReal_broadcastInDim _ _ a3)))
        (isReal_broadcastInDim _ _ (isReal_broadcastInDim _ _ a4)))
      (isReal_transpose _ _ a5))
    (isReal_broadcastInDim _ _ (isReal_broadcastInDim _ _ a6))

end Cert.KernelIdeal.HeadReal

end
-- ==== Proof.HeadReal5.lean ====
/-
  The output activation, `o = selu z`: the sixth stretch of host operations is the scaled exponential linear unit
  applied to the second pre-activation, so it keeps real entries real.
-/
import proofs.«123053_j26680336843043_1_alg».proof.Proof.Gen.KernelIdeal.Regions
import proofs.«123053_j26680336843043_1_alg».proof.Proof.LibRealOps
import proofs.«123053_j26680336843043_1_alg».proof.Proof.HeadRealSelu

noncomputable section

namespace Cert.KernelIdeal.HeadReal

open Idealize.ShloMosaic Idealize.ShloMosaic.TcCoe Idealize.SL.Sem
open Cert.KernelIdeal Cert.KernelIdeal.Gen Cert.Lib.RealOps

/-- The sixth stretch writes `selu` of buffer `main_v29` into buffer `main_v30`. -/
theorem act2_eq (W : Valuation τ sig (Elt Ideal)) :
    (StableHlo.after (hostOps0_5 (F := Ideal)) W (Proc.devRef .tc main_v30) : S8192x2.Idx → EReal)
      = seluT bcast_S_S8192x2 (W (Proc.devRef .tc main_v29)) := by
  after_results_simp
  rfl

/-- After the sixth stretch, from contents whose second pre-activation is real, the embedded points (buffer
    `main_v30`) are real. -/
theorem act2_real (W : Valuation τ sig (Elt Ideal))
    (h29 : IsReal (S := S8192x2) (W (Proc.devRef .tc main_v29))) :
    IsReal (S := S8192x2) (StableHlo.after (hostOps0_5 (F := Ideal)) W (Proc.devRef .tc main_v30)) := by
  rw [act2_eq]
  exact seluT_real _ h29

end Cert.KernelIdeal.HeadReal

end
-- ==== Proof.HeadReal.lean ====
/-
  Every coordinate of every embedded point is a real number.

  The head of the network computes the points `o` in six stretches of host operations:
  `h = x · W₁ᵀ + b₁`, `a = selu h`, the batch mean `μ` of `a`, its batch variance `σ²`,
  `z = ((a − μ) · rsqrt(σ² + ε) · γ + β) · W₂ᵀ + b₂`, and `o = selu z`. Under the precondition all seven argument
  arrays are real; each stretch keeps its results real (the variance moreover nonnegative, which keeps the argument
  of the inverse square root positive), and a buffer that a stretch does not write is carried over unchanged. The
  seventh stretch (the squared norms of the points) does not write `o`, so the first kernel region finds `o` real.
-/
import proofs.«123053_j26680336843043_1_alg».proof.Proof.Spec
import proofs.«123053_j26680336843043_1_alg».proof.Proof.PreReal
import proofs.«123053_j26680336843043_1_alg».proof.Proof.HeadReal0
import proofs.«123053_j26680336843043_1_alg».proof.Proof.HeadReal1
import proofs.«123053_j26680336843043_1_alg».proof.Proof.HeadReal2
import proofs.«123053_j26680336843043_1_alg».proof.Proof.HeadReal3
import proofs.«123053_j26680336843043_1_alg».proof.Proof.HeadReal4
import proofs.«123053_j26680336843043_1_alg».proof.Proof.HeadReal5

noncomputable section

namespace Cert.KernelIdeal.HeadReal

open Idealize.ShloMosaic Idealize.ShloMosaic.TcCoe Idealize.SL.Sem
open Cert.KernelIdeal Cert.KernelIdeal.Gen Cert.Lib.RealOps

variable [Cert.Pre_finite_inputs.Facts]

/-- THE EMBEDDED POINTS ARE REAL: under the precondition, on every core, every entry of the array `o` (buffer
    `main_v30`) that the first kernel region finds is a real number. -/
theorem o_real (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Pairwise.AllReal (Cert.KernelIdeal.Gen.V7 m c Cert.KernelIdeal.main_v30 : Cert.KernelIdeal.S8192x2.Idx → EReal) := by
  obtain ⟨a0, a1, a2, a3, a4, a5, a6⟩ := args_real m hpre c
  -- h = x · W₁ᵀ + b₁
  have v4 : IsReal (S := S8192x128) (V1 m c main_v4) := dense1_real (V0 m c) a0 a1 a2
  -- a = selu h
  have v5 : IsReal (S := S8192x128) (V2 m c main_v5) := act1_real (V1 m c) v4
  -- the mean of a, and ddof = 0
  have v8 : IsReal (S := S128) (V3 m c main_v8) := mean_real (V2 m c) v5
  have c0 : ∀ i, (V3 m c main_c : S_.Idx → BitVec 32) i = 0#32 := ddof_eq (V2 m c)
  have v5_3 : IsReal (S := S8192x128) (V3 m c main_v5) := by
    rw [V3_of m c main_v5 (by decide)]; exact v5
  -- the variance of a
  have v9 : IsNonneg (S := S128) (V4 m c main_v9) := var_nonneg (V3 m c) v5_3 c0
  have v5_4 : IsReal (S := S8192x128) (V4 m c main_v5) := by
    rw [V4_of m c main_v5 (by decide)]; exact v5_3
  have v8_4 : IsReal (S := S128) (V4 m c main_v8) := by
    rw [V4_of m c main_v8 (by decide)]; exact v8
  have a3_4 : IsReal (S := S128) (V4 m c main_arg3) := by
    rw [V4_of m c main_arg3 (by decide), V3_of m c main_arg3 (by decide), V2_of m c main_arg3 (by decide),
      V1_of m c main_arg3 (by decide)]; exact a3
  have a4_4 : IsReal (S := S128) (V4 m c main_arg4) := by
    rw [V4_of m c main_arg4 (by decide), V3_of m c main_arg4 (by decide), V2_of m c main_arg4 (by decide),
      V1_of m c main_arg4 (by decide)]; exact a4
  have a5_4 : IsReal (S := S2x128) (V4 m c main_arg5) := by
    rw [V4_of m c main_arg5 (by decide), V3_of m c main_arg5 (by decide), V2_of m c main_arg5 (by decide),
      V1_of m c main_arg5 (by decide)]; exact a5
  have a6_4 : IsReal (S := S2) (V4 m c main_arg6) := by
    rw [V4_of m c main_arg6 (by decide), V3_of m c main_arg6 (by decide), V2_of m c main_arg6 (by decide),
      V1_of m c main_arg6 (by decide)]; exact a6
  -- z = ((a − μ) · rsqrt(σ² + ε) · γ + β) · W₂ᵀ + b₂
  have v29 : IsReal (S := S8192x2) (V5 m c main_v29) := dense2_real (V4 m c) v5_4 v8_4 v9 a3_4 a4_4 a5_4 a6_4
  -- o = selu z
  have v30 : IsReal (S := S8192x2) (V6 m c main_v30) := act2_real (V5 m c) v29
  -- the squared norms that follow do not touch o
  show IsReal (S := S8192x2) (V7 m c main_v30)
  rw [V7_of m c main_v30 (by decide)]; exact v30

end Cert.KernelIdeal.HeadReal

end
-- ==== Proof.lean ====
/-
  The certificate: a two-pass kernel for pairwise affinities against its reference, on the extended reals.

  Both programs first compute the same embedded points o (8192 rows of 2 coordinates: two affine layers, each
  followed by the scaled exponential linear unit, with a column normalisation between them) by the same host
  operations. With q i j = 1 / (1 + max (|oᵢ|² + |oⱼ|² − 2 oᵢ·oⱼ) 0):
    the kernel returns   q i j · (1 / (Σ_all q − 8192))  — pass 1 accumulates Σ_all q over an 8 × 8 grid of
                          1024 × 1024 tiles, a host stretch takes the reciprocal, pass 2 writes the tiles;
    the reference returns q i j / Σᵢ (Σⱼ q i j − 1).
  Under the precondition every argument is finite, so every coordinate of o is a real number; then every q i j is a
  real number in (0, 1], Σᵢ (Σⱼ q i j − 1) = Σ_all q − 8192 already in the extended reals, and for a positive real q
  and ANY divisor D, q · (1 / D) = q / D (both q · D⁻¹ when D ≠ 0, both ⊤ when D = 0): the two results are one array.
  The frames: each program terminates with its seven argument arrays as launched — the kernel programs' by the run
  of their host stretches and two regions, the reference's by the run of its straight line of host operations.
  The idealised kernel program is the printed one read on the extended reals: nothing was rewritten.
-/
import proofs.«123053_j26680336843043_1_alg».proof.Defs
import proofs.«123053_j26680336843043_1_alg».proof.Proof.Gen.Kernel
import proofs.«123053_j26680336843043_1_alg».proof.Proof.Gen.KernelIdeal
import proofs.«123053_j26680336843043_1_alg».proof.Proof.Gen.ReferenceIdeal
import proofs.«123053_j26680336843043_1_alg».proof.Proof.Gen.Pre_finite_inputs
import proofs.«123053_j26680336843043_1_alg».proof.Proof.KRunPosts
import proofs.«123053_j26680336843043_1_alg».proof.Proof.RunPosts
import proofs.«123053_j26680336843043_1_alg».proof.Proof.RefRun
import proofs.«123053_j26680336843043_1_alg».proof.Proof.RefTail
import proofs.«123053_j26680336843043_1_alg».proof.Proof.KHead
import proofs.«123053_j26680336843043_1_alg».proof.Proof.Bridge
import proofs.«123053_j26680336843043_1_alg».proof.Proof.PairwiseLaw
import proofs.«123053_j26680336843043_1_alg».proof.Proof.HeadReal

noncomputable section

open Idealize.ShloMosaic Idealize.ShloMosaic.TcCoe Idealize.SL.Sem

/-! ## The claims -/

namespace Cert.Proof.Claims

/-- The kernel program, on machine words, terminates with its arguments as launched. -/
theorem frame_k : Cert.frame_Kernel := fun m ρ _ => Cert.Kernel.Hand.frame_all (F := Bits) m ρ

/-- The same program read on the extended reals terminates with its arguments as launched. -/
theorem frame_ki : Cert.frame_KernelIdeal := fun m ρ _ => Cert.KernelIdeal.Hand.frame_all (F := Ideal) m ρ

/-- The reference terminates with its arguments as launched: the last seven conjuncts of its run. -/
theorem frame_ri : Cert.frame_ReferenceIdeal := fun m ρ _ =>
  (θ_run Cert.ReferenceIdeal.defs _ _).mono (fun _ h c => (h c).2.2) (Cert.ReferenceIdeal.Hand.run m ρ)

/-- No operation was rewritten between the two readings of the kernel program. -/
theorem preserves : Cert.preserves_Kernel_KernelIdeal := trivial

/-- From memories agreeing on the arguments both programs end with the same two arrays: the embedded points o, which
    both compute by the same host operations, and the affinities — the kernel's q · (1 / (Σ_all q − 8192)), the
    reference's q / Σᵢ (Σⱼ q − 1), equal because o is real under the precondition. -/
theorem algebraic : Cert.algebraic_KernelIdeal_ReferenceIdeal := by
  intro m ρ m' ρ' hpre hagree
  refine ⟨fun c => Cert.Pairwise.affK (Cert.KernelIdeal.Hand.pts m c), fun c => Cert.KernelIdeal.Hand.pts m c, ?_, ?_⟩
  · exact (θ_run Cert.KernelIdeal.defs _ _).mono (fun _ h c => ⟨(h c).1.trans (Cert.KernelIdeal.Hand.aff_value m c), (h c).2⟩)
      (Cert.KernelIdeal.Hand.values_all (F := Ideal) m ρ)
  · refine (θ_run Cert.ReferenceIdeal.defs _ _).mono (fun _ h c => ?_) (Cert.ReferenceIdeal.Hand.run m' ρ')
    obtain ⟨h54, h30, hargs⟩ := h c
    obtain ⟨e0, e1, e2, e3, e4, e5, e6⟩ := hagree c
    refine ⟨h54.trans ?_, h30.trans ?_, hargs⟩
    · rw [Cert.ReferenceIdeal.Hand.tail_eq, e0, e1, e2, e3, e4, e5, e6, ← Cert.ReferenceIdeal.Hand.khead m c]
      exact (Cert.Pairwise.affK_eq_affR _ (Cert.KernelIdeal.HeadReal.o_real m hpre c)).symm
    · rw [e0, e1, e2, e3, e4, e5, e6, ← Cert.ReferenceIdeal.Hand.khead m c]

end Cert.Proof.Claims

namespace Cert.Proof

open Cert.Proof.Claims

/-- Everything the certificate claims, under the witnesses of the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
